-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x600000 : S_.BroadcastsInDim S2x600000 (![] : Fin 0 → Fin S2x600000.rank)
  reducesTo_S2x600000_S_d0_1 : S2x600000.ReducesTo [0, 1] S_

variable [Facts]

def fn_part1 {F : FTy → Type} [FloatOps F] (main_arg1 : IVec S2x600000 32) (main_v13 : IVec S_ 1) (main_v15 : IVec S2x600000 1) (main_c_5 : IVec S_ 1) : IVec S_ 1 :=
  let main_v16 : IVec S_ 1 := (fun x v => Host.reduce IntOp.andi x v reducesTo_S2x600000_S_d0_1 h_S_) main_v15 main_c_5
  let main_v17 : IVec S_ 1 := andi main_v13 main_v16
  let main_c_6 : IVec S_ 32 := constantI S_ 32 100000#32
  let main_v18 : IVec S2x600000 32 := broadcastInDim S2x600000 ![] bcast_S_S2x600000 main_c_6
  let main_v19 : IVec S2x600000 1 := cmpi .slt main_arg1 main_v18
  let main_c_7 : IVec S_ 1 := constantI S_ 1 1#1
  let main_v20 : IVec S_ 1 := (fun x v => Host.reduce IntOp.andi x v reducesTo_S2x600000_S_d0_1 h_S_) main_v19 main_c_7
  let main_v21 : IVec S_ 1 := andi main_v17 main_v20
  main_v21

def fn {F : FTy → Type} [FloatOps F] (main_arg0 : FVec F S100000x128 .f32) (main_arg1 : IVec S2x600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S2x600000 32 := broadcastInDim S2x600000 ![] bcast_S_S2x600000 main_c_4
  let main_v15 : IVec S2x600000 1 := cmpi .sge main_arg1 main_v14
  let main_c_5 : IVec S_ 1 := constantI S_ 1 1#1
  fn_part1 (F := F) main_arg1 main_v13 main_v15 main_c_5
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S416 : Shape := ⟨1, ![416]⟩
abbrev S700416 : Shape := ⟨1, ![700416]⟩
abbrev S2000x128 : Shape := ⟨2, ![2000, 128]⟩
abbrev S700416x128 : Shape := ⟨2, ![700416, 128]⟩
abbrev S2048 : Shape := ⟨1, ![2048]⟩
abbrev S2048x128 : Shape := ⟨2, ![2048, 128]⟩
abbrev S1x2000 : Shape := ⟨2, ![1, 2000]⟩
abbrev S2048x1 : Shape := ⟨2, ![2048, 1]⟩
abbrev S2048x2000 : Shape := ⟨2, ![2048, 2000]⟩
abbrev S1x128 : Shape := ⟨2, ![1, 128]⟩
abbrev S2000x1 : Shape := ⟨2, ![2000, 1]⟩
abbrev S1x2048 : Shape := ⟨2, ![1, 2048]⟩
abbrev S2000x2048 : Shape := ⟨2, ![2000, 2048]⟩

abbrev nBuf : Space → Nat
  | .hbm => 60
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S1x600000, .i32⟩
  | .hbm, ⟨5, _⟩ => ⟨S600000, .i32⟩
  | .hbm, ⟨6, _⟩ => ⟨S1x600000, .i32⟩
  | .hbm, ⟨7, _⟩ => ⟨S600000, .i32⟩
  | .hbm, ⟨8, _⟩ => ⟨S100000, .i32⟩
  | .hbm, ⟨9, _⟩ => ⟨S700000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S_, .i32⟩
  | .hbm, ⟨48, _⟩ => ⟨S416, .i32⟩
  | .hbm, ⟨49, _⟩ => ⟨S700416, .i32⟩
  | .hbm, ⟨50, _⟩ => ⟨S_, .i32⟩
  | .hbm, ⟨51, _⟩ => ⟨S416, .i32⟩
  | .hbm, ⟨52, _⟩ => ⟨S700416, .i32⟩
  | .hbm, ⟨53, _⟩ => ⟨S_, .f32⟩
  | .hbm, ⟨54, _⟩ => ⟨S416, .f32⟩
  | .hbm, ⟨55, _⟩ => ⟨S700416, .f32⟩
  | .hbm, ⟨56, _⟩ => ⟨S100000x128, .bf16⟩
  | .hbm, ⟨57, _⟩ => ⟨S700416x128, .f32⟩
  | .hbm, ⟨58, _⟩ => ⟨S1x128, .f32⟩
  | .hbm, ⟨59, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2048, .i32⟩
  | .local _ .vmem, ⟨6, _⟩ => ⟨S2048, .i32⟩
  | .local _ .vmem, ⟨7, _⟩ => ⟨S2048, .f32⟩
  | .local _ .vmem, ⟨8, _⟩ => ⟨S2048, .f32⟩
  | .local _ .vmem, ⟨9, _⟩ => ⟨S2000x128, .bf16⟩
  | .local _ .vmem, ⟨10, _⟩ => ⟨S2000x128, .bf16⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048, .i32⟩
  | .local _ .vmem, ⟨15, _⟩ => ⟨S2048, .i32⟩
  | .local _ .vmem, ⟨16, _⟩ => ⟨S2048x128, .f32⟩
  | .local _ .vmem, ⟨17, _⟩ => ⟨S2048x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![342, 50], ![false, false]⟩

def k1_cond2 (i : grid1.Coords) : BitVec 1 :=
  let arg1 : BitVec 32 := BitVec.ofNat 32 (i 1).val
  let c49_i32 : BitVec 32 := 49#32
  let v24 : BitVec 1 := Scalar.cmpi .eq arg1 c49_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![50, 342], ![false, false]⟩

def k2_cond2 (i : grid2.Coords) : BitVec 1 :=
  let arg1 : BitVec 32 := BitVec.ofNat 32 (i 1).val
  let c341_i32 : BitVec 32 := 341#32
  let v25 : BitVec 1 := Scalar.cmpi .eq arg1 c341_i32
  let v26 : BitVec 32 := Scalar.extui v25
  let c0_i32_7 : BitVec 32 := 0#32
  let v27 : BitVec 1 := Scalar.cmpi .ne v26 c0_i32_7
  v27

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S_S416 : S_.BroadcastsInDim S416 (![] : Fin 0 → Fin S416.rank)
  concatenates_S700000_S416_S700416_d0 : Shape.Concatenates [S700000, S416] S700416 0
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048_S2048_0 : ∀ a, (![0] : Fin 1 → Nat) a + S2048.size a ≤ S2048.size a
  h_S2048 : 0 < S2048.numel
  shapeCasts_S2048_S2048 : S2048.ShapeCasts S2048
  iota_S1x2000_d1_w32 : S1x2000.Iotas .tc 32 [1]
  shapeCasts_S2048_S2048x1 : S2048.ShapeCasts S2048x1
  broadcasts_S2048x1_S2048x2000 : S2048x1.Broadcasts S2048x2000
  broadcasts_S1x2000_S2048x2000 : S1x2000.Broadcasts S2048x2000
  natLt_1_32 : 1 < 32
  shapeCasts_S2000x128_S2000x128 : S2000x128.ShapeCasts S2000x128
  broadcasts_S2048x1_S2048x128 : S2048x1.Broadcasts S2048x128
  shapeCasts_S128_S1x128 : S128.ShapeCasts S1x128
  iota_S2000x1_d0_w32 : S2000x1.Iotas .tc 32 [0]
  shapeCasts_S2048_S1x2048 : S2048.ShapeCasts S1x2048
  broadcasts_S2000x1_S2000x2048 : S2000x1.Broadcasts S2000x2048
  broadcasts_S1x2048_S2000x2048 : S1x2048.Broadcasts S2000x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S2000x128_S128x128_S2000x128_1_0_0_1_n_n_wf : DotDims.WF S2000x128 S128x128 S2000x128 [1] [0] [0] [1] [] []
  dot_S2048x2000_S2000x128_S2048x128_1_0_0_1_n_n_wf : DotDims.WF S2048x2000 S2000x128 S2048x128 [1] [0] [0] [1] [] []
  dot_S2000x2048_S2048x128_S2000x128_1_0_0_1_n_n_wf : DotDims.WF S2000x2048 S2048x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S700416.size a
  hwx1_0 : ∀ i : grid1.Coords, EltTy.bits .i32 = 32 ∨ (Rect.block (s := S700416) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048.size a ≤ S700416.size a
  hwx1_1 : ∀ i : grid1.Coords, EltTy.bits .f32 = 32 ∨ (Rect.block (s := S700416) S2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .bf16 = 32 ∨ (Rect.block (s := S100000x128) S2000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S700416x128.size a
  hwx1_3 : ∀ i : grid1.Coords, EltTy.bits .f32 = 32 ∨ (Rect.block (s := S700416x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048.size a ≤ S700416.size a
  hwx2_0 : ∀ i : grid2.Coords, EltTy.bits .i32 = 32 ∨ (Rect.block (s := S700416) S2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S700416x128.size a
  hwx2_1 : ∀ i : grid2.Coords, EltTy.bits .f32 = 32 ∨ (Rect.block (s := S700416x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2048x2000_S2000x128_S2048x128_1_0_0_1_n_n : DotDims S2048x2000 S2000x128 S2048x128 where
  lhsContracting := [1]
  rhsContracting := [0]
  lhsNonContracting := [0]
  rhsNonContracting := [1]
  lhsBatch := []
  rhsBatch := []
  wf := dot_S2048x2000_S2000x128_S2048x128_1_0_0_1_n_n_wf
def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v35) S2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x600000, .i32⟩
  | .hbm, ⟨6, _⟩ => ⟨S600000, .i32⟩
  | .hbm, ⟨7, _⟩ => ⟨S700000, .i32⟩
  | .hbm, ⟨8, _⟩ => ⟨S1x600000, .i32⟩
  | .hbm, ⟨9, _⟩ => ⟨S600000, .i32⟩
  | .hbm, ⟨10, _⟩ => ⟨S700000, .i32⟩
  | .hbm, ⟨11, _⟩ => ⟨S_, .f32⟩
  | .hbm, ⟨12, _⟩ => ⟨S700000, .f32⟩
  | .hbm, ⟨13, _⟩ => ⟨S_, .f32⟩
  | .hbm, ⟨14, _⟩ => ⟨S100000, .f32⟩
  | .hbm, ⟨15, _⟩ => ⟨S700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S700000, .i32⟩
  | .hbm, ⟨30, _⟩ => ⟨S700000, .i1⟩
  | .hbm, ⟨31, _⟩ => ⟨S_, .i32⟩
  | .hbm, ⟨32, _⟩ => ⟨S700000, .i32⟩
  | .hbm, ⟨33, _⟩ => ⟨S700000, .i32⟩
  | .hbm, ⟨34, _⟩ => ⟨S700000, .i32⟩
  | .hbm, ⟨35, _⟩ => ⟨S700000x1, .i32⟩
  | .hbm, ⟨36, _⟩ => ⟨S700000, .f32⟩
  | .hbm, ⟨37, _⟩ => ⟨S_, .i32⟩
  | .hbm, ⟨38, _⟩ => ⟨S700000, .i32⟩
  | .hbm, ⟨39, _⟩ => ⟨S700000, .i1⟩
  | .hbm, ⟨40, _⟩ => ⟨S_, .i32⟩
  | .hbm, ⟨41, _⟩ => ⟨S700000, .i32⟩
  | .hbm, ⟨42, _⟩ => ⟨S700000, .i32⟩
  | .hbm, ⟨43, _⟩ => ⟨S700000, .i32⟩
  | .hbm, ⟨44, _⟩ => ⟨S700000x1, .i32⟩
  | .hbm, ⟨45, _⟩ => ⟨S700000, .f32⟩
  | .hbm, ⟨46, _⟩ => ⟨S700000, .f32⟩
  | .hbm, ⟨47, _⟩ => ⟨S100000x128, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x1, .f32⟩
  | .hbm, ⟨58, _⟩ => ⟨S700000x128, .f32⟩
  | .hbm, ⟨59, _⟩ => ⟨S700000x128, .f32⟩
  | .hbm, ⟨60, _⟩ => ⟨S_, .f32⟩
  | .hbm, ⟨61, _⟩ => ⟨S100000x128, .f32⟩
  | .hbm, ⟨62, _⟩ => ⟨S700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KRegion0.lean ====
/-
  The first kernel region: the linear map, one block of 2000 rows per grid point.
  At each of its 50 points the body reads a block of 2000 rows of the feature matrix and the whole 128 × 128 weight
  matrix, multiplies them, and stores the product as the point's block of the transformed features; nothing is kept
  from one point to the next. This module states what the body leaves (the product of the two blocks it was handed),
  proves that the body runs on any staging buffers, and packages both as the pipeline's proof data with its body
  obligation — all at a parameter `V`, the buffer contents when the region is entered.
-/
import proofs.«108306_j10282151706735_1_alg».proof.Proof.Gen.Kernel.Launch
import proofs.«108306_j10282151706735_1_alg».proof.Proof.Gen.Kernel.Skeleton
import proofs.«108306_j10282151706735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight matrix at every point, fetched there or not: its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-! ## What the body leaves in the output window's buffer -/

/-- The output buffer after the body, from the two input blocks: its one store, the product of the blocks. -/
def out0_2 (x0 : Vec F S2000x128 .f32) (x1 : Vec F S128x128 .f32) : Vec F S2000x128 .bf16 :=
  View.canon [⟨r0_x, k0_pay1 (View.ld x0 r0_x) (View.ld x1 r0_w)⟩]

/-- The one store covers the buffer. -/
theorem cover0_2 (p0 : Vec F S2000x128 .bf16) (y : S2000x128.Idx) :
    ∃ pc ∈ ([⟨r0_x, p0⟩] : List (View.Piece (Elt F) S2000x128 .bf16)), y ∈ pc.1.set :=
  View.cover_of_tiled [⟨r0_x, p0⟩] S2000x128.size (by rfl) y

/-! ## The body's triple -/

set_option maxHeartbeats 1000000 in
/-- The kernel body on whole staging memrefs, the inputs' at contents `x0`, `x1` and the output's at anything, runs
    to the continuation holding the inputs' as they were and the output's at `out0_2` of them. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Runs.lean ====
/- The gather region (grid 342 × 50, point = (edge block, node block)): what its three control cases share.
   The two conditions of the body on the grid coordinates in closed form over the linear point index t
   (node block = t mod 50), where the output window is idle, the staging and scratch memrefs by name, the
   region invariant split at the accumulator, and each input window's block read off the contents V the
   region is entered with. -/
import proofs.«108306_j10282151706735_1_alg».proof.Proof.Gen.Kernel.Launch
import proofs.«108306_j10282151706735_1_alg».proof.Proof.Gen.Kernel.Skeleton
import proofs.«108306_j10282151706735_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- The first condition: the node-block coordinate is 0 (the accumulator is zeroed there). -/
abbrev cond1_0 (i : grid1.Coords) : Prop := (Scalar.cmpi .ne (Scalar.extui (Scalar.cmpi .eq (BitVec.ofNat 32 (i 1).val) 0#32)) 0#32) = 1#1
/-- It holds exactly at the points t ≡ 0 (mod 50). -/
theorem hcond1_0 : ∀ t : Fin cfg1.N, cond1_0 (grid1.coords t) ↔ t.val % 50 = 0 :=
  (by decide +kernel : ∀ t : Fin grid1.N, cond1_0 (grid1.coords t) ↔ t.val % 50 = 0)

/-- The second condition: the node-block coordinate is 49 (the accumulator is scaled and stored there). -/
abbrev cond1_1 (i : grid1.Coords) : Prop := k1_cond2 i = 1#1
/-- It holds exactly at the points t ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle exactly where the second condition fails (nothing is stored into it there), -/
theorem idle1_3_of_not (i : grid1.Coords) (h : ¬cond1_1 i) : cfg1.idle 3 i = true := by
  show (!(k1_cond2 i == 1#1)) = true
  simpa using h
/-- and live where it holds. -/
theorem idle1_3_of (i : grid1.Coords) (h : cond1_1 i) : cfg1.idle 3 i = false := by
  show (!(k1_cond2 i == 1#1)) = false
  simpa using h
/-- Its block is written back only where the second condition holds (node block 49). -/
theorem noFlush1_3_of_not (t : Fin cfg1.N) (h : ¬cond1_1 (grid1.coords t)) : (cfg1.win 3).flush t = false :=
  Bool.eq_false_iff.mpr fun hf => h ((hcond1_1 t).mpr ((flush1_3 t).mp hf))
/-- At the first point of an edge block (case A) the output window is idle, -/
theorem idleAt1_3_A : ∀ t : Fin cfg1.N, cond1_0 (grid1.coords t) → ¬cond1_1 (grid1.coords t) → cfg1.idle 3 (grid1.coords t) = true :=
  fun t _ h => idle1_3_of_not _ h
/-- and its block is not written back there. -/
theorem noFlush1_3_A : ∀ t : Fin cfg1.N, cond1_0 (grid1.coords t) → ¬cond1_1 (grid1.coords t) → (cfg1.win 3).flush t = false :=
  fun t _ h => noFlush1_3_of_not t h
/-- At the inner points of an edge block (case B) the output window is idle, -/
theorem idleAt1_3_B : ∀ t : Fin cfg1.N, ¬cond1_0 (grid1.coords t) → ¬cond1_1 (grid1.coords t) → cfg1.idle 3 (grid1.coords t) = true :=
  fun t _ h => idle1_3_of_not _ h
/-- and not written back. -/
theorem noFlush1_3_B : ∀ t : Fin cfg1.N, ¬cond1_0 (grid1.coords t) → ¬cond1_1 (grid1.coords t) → (cfg1.win 3).flush t = false :=
  fun t _ h => noFlush1_3_of_not t h
/-- At the last point of an edge block (case C) the output window is live: the body stores into it. -/
theorem liveAt1_3_C : ∀ t : Fin cfg1.N, ¬cond1_0 (grid1.coords t) → cond1_1 (grid1.coords t) → cfg1.idle 3 (grid1.coords t) = false :=
  fun t _ h => idle1_3_of _ h

/-! ## The memrefs the body is called with -/

/-- One staging buffer of the output window, through which its contents are stated (which one does not matter:
    both are whole buffers of the block's shape). -/
abbrev VO1_3 : View sig .tc .vmem S2048x128 .f32 := (Memref.whole cc1_stg3_0 : Memref sig .tc .vmem S2048x128 .f32).view
/-- Each window's current staging memref at point t, and that it is a whole buffer. -/
abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S2048x128 .f32 := Memref.whole cc1_scratch0
/-- The same as a view: what the accumulator holds is stated through it. -/
abbrev VS1_0 : View sig .tc .vmem S2048x128 .f32 := scM1_0.view

/-- The core's scoped buffers other than this region's staging buffers and its accumulator (the other regions'
    staging buffers and scratch), each at some contents: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant as the launch hands it over, split at the accumulator: the accumulator owned at some
    contents, the other scoped buffers unopened, the generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; try rfl

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-index window's current staging buffer holds its block at every point, fetched there or not (unfetched,
    the block index has not moved since the fetch), for any proof data whose array is V's and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the normalisation window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the feature window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

end Cert.Kernel.Hand

end
-- ==== Proof.KRegion1RunA.lean ====
/- The gather body at the first point of an edge block (node block 0): the accumulator, found at any contents,
   is overwritten with zeros and then with zeros plus this block's one-hot product; nothing is stored into the
   output block. -/
import proofs.«108306_j10282151706735_1_alg».proof.Proof.KRegion1Runs

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first condition holds, second fails). The pieces the body's stores leave in the output block (none)
    and in the accumulator (last store first), with the proof that on whole memrefs — the three inputs owned at
    x0, x1, x2, the output block at xi3, the accumulator at anything — the body runs to any continuation that
    accepts the inputs and the output block as they were and the accumulator with those pieces written. -/
noncomputable def kernelRun1_A (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunB.lean ====
/- The gather body at an inner point of an edge block (node block 1 … 48): the accumulator, found at what the
   point before left, gets this block's one-hot product added; nothing is stored into the output block. -/
import proofs.«108306_j10282151706735_1_alg».proof.Proof.KRegion1RunA

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (both conditions fail). The pieces the body's stores leave in the output block (none) and in the
    accumulator, with the proof that on whole memrefs — the three inputs owned at x0, x1, x2, the output block at
    xi3, the accumulator at xs0 — the body runs to any continuation that accepts the inputs and the output block
    as they were and the accumulator with those pieces written. -/
noncomputable def kernelRun1_B (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion1RunC.lean ====
/- The gather body at the last point of an edge block (node block 49): the accumulator, found at what the point
   before left, gets this block's one-hot product added, and the sum, scaled row by row by the normalisation
   block, is stored over the whole output block. -/
import proofs.«108306_j10282151706735_1_alg».proof.Proof.KRegion1RunB

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (first condition fails, second holds). The pieces the body's stores leave in the output block and in
    the accumulator, with the proof that on whole memrefs — the three inputs owned at x0, x1, x2, the output block
    at anything, the accumulator at xs0 — the body runs to any continuation that accepts the inputs as they were
    and the output block and the accumulator with those pieces written. -/
noncomputable def kernelRun1_C (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KRegion1.lean ====
/- The gather region's half of the run: what the output block and the accumulator hold after each grid point
   (per control case, then point by point along the linear order), the pipeline's proof data at the contents V
   the region is entered with, and the body obligation — the body runs at every point from the invariant and the
   windows' current blocks to the invariant at the next point and what it leaves in each window. -/
import proofs.«108306_j10282151706735_1_alg».proof.Proof.KRegion1RunC

-- membership of an index in a rectangle of these extents is checked structurally, once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of an edge block nothing is stored into the output block: no pieces. A placeholder (junk read back) that
    nothing consults, since at these points the block is neither written back nor read at the next point. -/
def out1_A_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- At the first point of an edge block the stores into the accumulator are of its full extent, so their pieces cover it. -/
theorem scover1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What the body leaves in the accumulator at the first point of an edge block: its pieces read back over junk. -/
def sout1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- At an inner point of an edge block nothing is stored into the output block: no pieces. A placeholder (junk read back) that
    nothing consults, since at these points the block is neither written back nor read at the next point. -/
def out1_B_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- At an inner point of an edge block the stores into the accumulator are of its full extent, so their pieces cover it. -/
theorem scover1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What the body leaves in the accumulator at an inner point of an edge block: its pieces read back over junk. -/
def sout1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At the last point of an edge block the one store into the output block is of the block's full extent, so its pieces cover it. -/
theorem cover1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What the body leaves in the output block at the last point of an edge block: its pieces read back over junk. -/
def out1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- At the last point of an edge block the stores into the accumulator are of its full extent, so their pieces cover it. -/
theorem scover1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What the body leaves in the accumulator at the last point of an edge block: its pieces read back over junk. -/
def sout1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region
-- the TensorCore's buffer contents when the region is entered
variable (V : (c : Dev nD) → (b : Ref sig .tc) → Buf (Elt F) ((c : Thread nD τ).loc b))

/-! ## What the output block and the accumulator hold after each point -/

/-- THE ACCUMULATION. What the output window's staging buffer and the accumulator hold after the body at linear
    position n (a pair: the output block, then the accumulator): the case the closed forms select at n, run at
    the point's memrefs and input blocks, the accumulator entering at what position n - 1 left. The two conditions
    never hold together (0 ≠ 49 mod 50). -/
def outsAt1 (c : Dev nD) : (n : ℕ) → n < cfg1.N → Vec F S2048x128 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 50 = 0 then
      if h1 : (n + 1) % 50 = 49 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 50 = 49 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of an edge block. -/
theorem outsAt1_A (c : Dev nD) (t : Fin cfg1.N) (h0 : t.val % 50 = 0) (h1 : ¬t.val % 50 = 49) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner point of an edge block: over what the point before left in the accumulator. -/
theorem outsAt1_B (c : Dev nD) (t : Fin cfg1.N) (h0 : ¬t.val % 50 = 0) (h1 : ¬t.val % 50 = 49) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of an edge block: over what the point before left in the accumulator. -/
theorem outsAt1_C (c : Dev nD) (t : Fin cfg1.N) (h0 : ¬t.val % 50 = 0) (h1 : t.val % 50 = 49) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point what the launch hands over (the accumulator
    at anything); afterwards the accumulator at what the point before left in it, the other scoped buffers
    unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of the gather pipeline on core c: the arrays as the region finds them; after the body at point
    t each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's linear position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the body the accumulator at what the point before left (at anything at the first point) and
    takes it back at this point's contents, which the case's pieces cover; the other scoped buffers, the generator
    register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 17100 := lt_of_lt_of_eq t.isLt (show cfg1.N = 17100 from N_1)
  by_cases h0 : t.val % 50 = 0
  · by_cases h1 : t.val % 50 = 49
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 50 = 49
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation of the gather pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 17100 := N_1; omega)

end Region

end Cert.Kernel.Hand

end
-- ==== Proof.KRegion2Runs.lean ====
import proofs.«108306_j10282151706735_1_alg».proof.Proof.Gen.Kernel.Launch
import proofs.«108306_j10282151706735_1_alg».proof.Proof.Gen.Kernel.Skeleton
import proofs.«108306_j10282151706735_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region (the scatter kernel, grid 50 × 342): what its runs share

The body has two conditionals on the second grid coordinate `e` (the edge block): the accumulator is zeroed when
`e = 0`, and the output block is stored when `e = 341`. A point of the grid at position `t` has `e = t % 342`. -/

/-! ## The body's branch conditions -/

/-- The first conditional's condition (the edge block is the first of its row), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 342). -/
theorem hcond2_0 : ∀ t : Fin cfg2.N, cond2_0 (grid2.coords t) ↔ t.val % 342 = 0 :=
  (by decide +kernel : ∀ t : Fin grid2.N, cond2_0 (grid2.coords t) ↔ t.val % 342 = 0)

/-- The second conditional's condition (the edge block is the last of its row), from the grid coordinates. -/
abbrev cond2_1 (i : grid2.Coords) : Prop := k2_cond2 i = 1#1
/-- It holds at the points ≡ 341 (mod 342). -/
theorem hcond2_1 : ∀ t : Fin cfg2.N, cond2_1 (grid2.coords t) ↔ t.val % 342 = 341 :=
  (by decide +kernel : ∀ t : Fin grid2.N, cond2_1 (grid2.coords t) ↔ t.val % 342 = 341)

/-! ## Where the windows are idle -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- The output window is idle exactly where the second condition fails. -/
theorem idle2_3_of_not (i : grid2.Coords) (h : ¬cond2_1 i) : cfg2.idle 3 i = true := by
  show (!(k2_cond2 i == 1#1)) = true
  rw [Bool.not_eq_true', beq_eq_false_iff_ne]; exact h
theorem idle2_3_of (i : grid2.Coords) (h : cond2_1 i) : cfg2.idle 3 i = false := by
  show (!(k2_cond2 i == 1#1)) = false
  rw [Bool.not_eq_false', beq_iff_eq]; exact h
/-- Nor is its block written back where the second condition fails. -/
theorem noFlush2_3_of_not (t : Fin cfg2.N) (h : ¬cond2_1 (grid2.coords t)) : (cfg2.win 3).flush t = false := by
  rw [Bool.eq_false_iff]; intro hf
  exact h ((hcond2_1 t).mpr ((flush2_3 t).mp hf))

/-- At the points of case A (first edge block of a row) the output is idle: the case stores nothing into it. -/
theorem idleAt2_3_A : ∀ t : Fin cfg2.N, cond2_0 (grid2.coords t) → ¬cond2_1 (grid2.coords t) → cfg2.idle 3 (grid2.coords t) = true :=
  fun t _ h => idle2_3_of_not _ h
/-- At the points of case A the pipeline does not write the output's block back. -/
theorem noFlush2_3_A : ∀ t : Fin cfg2.N, cond2_0 (grid2.coords t) → ¬cond2_1 (grid2.coords t) → (cfg2.win 3).flush t = false :=
  fun t _ h => noFlush2_3_of_not t h
/-- At the points of case B (an inner edge block) the output is idle. -/
theorem idleAt2_3_B : ∀ t : Fin cfg2.N, ¬cond2_0 (grid2.coords t) → ¬cond2_1 (grid2.coords t) → cfg2.idle 3 (grid2.coords t) = true :=
  fun t _ h => idle2_3_of_not _ h
/-- At the points of case B the pipeline does not write the output's block back. -/
theorem noFlush2_3_B : ∀ t : Fin cfg2.N, ¬cond2_0 (grid2.coords t) → ¬cond2_1 (grid2.coords t) → (cfg2.win 3).flush t = false :=
  fun t _ h => noFlush2_3_of_not t h
/-- At the points of case C (last edge block of a row) the output is live: the case stores into it. -/
theorem liveAt2_3_C : ∀ t : Fin cfg2.N, ¬cond2_0 (grid2.coords t) → cond2_1 (grid2.coords t) → cfg2.idle 3 (grid2.coords t) = false :=
  fun t _ h => idle2_3_of _ h

/-! ## The memrefs the body is called on -/

/-- One staging buffer of the output window, through which its contents are stated (the choice does not matter). -/
abbrev VO2_3 : View sig .tc .vmem S2000x128 .f32 := (Memref.whole cc2_stg3_0 : Memref sig .tc .vmem S2000x128 .f32).view
/-- Each window's current staging memref at point `t`, and its wholeness. -/
abbrev ms2_0 (t : Fin cfg2.N) : Memref sig .tc .vmem S2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2000x128 .f32 := Memref.whole cc2_scratch0
/-- The accumulator as a view: what it holds between points is stated through it. -/
abbrev VS2_0 : View sig .tc .vmem S2000x128 .f32 := scM2_0.view

/-! ## The region's invariant, with the accumulator as an owned memref -/

/-- The scoped buffers of the core that belong to the other two regions (their staging buffers and the second region's
    accumulator), each whole at some contents: this region never touches them. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- What the launch hands the region splits into the other regions' buffers, the accumulator owned at some contents,
    and the generator register. -/
theorem PhiA2_split (c : Dev nD) :
    (Pipeline.ΦA spec2 c : sProp 𝕄)
      ⊢ iprop(iprop(others2 c ∗ (∃ d, owns (c : Thread nD τ) scM2_0 fullShare d)) ∗ (∃ r, prngReg c r)) := by
  unfold Pipeline.ΦA others2; rw [scopedRest2_eq]; simp only [scM2_0, owns_whole]
  iintro ⟨⟨H1, H2, H3, H4, H5, H6, H7, H8, H9, H10, H11, H12, H13, H14, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iexact HS
  · iexact Hg

/-- And conversely. -/
theorem PhiA2_join (c : Dev nD) :
    iprop(iprop(others2 c ∗ (∃ d, owns (c : Thread nD τ) scM2_0 fullShare d)) ∗ (∃ r, prngReg c r))
      ⊢ (Pipeline.ΦA spec2 c : sProp 𝕄) := by
  unfold Pipeline.ΦA others2; rw [scopedRest2_eq]; simp only [scM2_0, owns_whole]
  iintro ⟨⟨⟨H1, H2, H3, H4, H5, H6, H7, H8, H9, H10, H11, H12, H13, H14⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  · iexact Hg

/-- The region's invariant as the launch hands it over, with the accumulator an owned memref at some contents. -/
theorem PhiA2_eq (c : Dev nD) :
    (Pipeline.ΦA spec2 c : sProp 𝕄)
      = iprop(iprop(others2 c ∗ (∃ d, owns (c : Thread nD τ) scM2_0 fullShare d)) ∗ (∃ r, prngReg c r)) :=
  BI.equiv_iff.mp ⟨PhiA2_split c, PhiA2_join c⟩

section Region
-- the buffer contents of the core when the region is entered: the parameter the region's half is stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place: unfetched, the block index has not
    moved since the last fetch. The three inputs are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

end Cert.Kernel.Hand

end
-- ==== Proof.KRegion2RunA.lean ====
import proofs.«108306_j10282151706735_1_alg».proof.Proof.KRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first edge block of a row: the first conditional taken, the second not). The pieces the body's stores leave
    in the accumulator (last first), with the proof that on whole memrefs — the three inputs' at their contents, the
    output's (into which the case stores nothing) at contents `xi3` handed back untouched, the accumulator at anything —
    the body runs to the continuation holding the inputs' and the output's as they were and the accumulator with its
    pieces written: the accumulator is zeroed, then the edge block's contribution is added. -/
noncomputable def kernelRun2_A (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) :
    Σ' (L3 : List (View.Piece (Elt F) S2000x128 .f32)), { LS0 : List (View.Piece (Elt F) S2000x128 .f32) //
      ∀ (xi3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion2RunB.lean ====
import proofs.«108306_j10282151706735_1_alg».proof.Proof.KRegion2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an inner edge block: neither conditional taken). The pieces the body's stores leave in the accumulator, with
    the proof that on whole memrefs — the three inputs' at their contents, the output's (into which the case stores
    nothing) at contents `xi3` handed back untouched, the accumulator at what the point before left (`xs0`) — the body
    runs to the continuation holding the inputs' and the output's as they were and the accumulator with its pieces
    written: the edge block's contribution is added to it. -/
noncomputable def kernelRun2_B (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) :
    Σ' (L3 : List (View.Piece (Elt F) S2000x128 .f32)), { LS0 : List (View.Piece (Elt F) S2000x128 .f32) //
      ∀ (xi3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KRegion2RunC.lean ====
import proofs.«108306_j10282151706735_1_alg».proof.Proof.KRegion2RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (last edge block of a row: the first conditional not taken, the second taken). The pieces the body's stores
    leave in the output's staging memref and in the accumulator, with the proof that on whole memrefs — the three
    inputs' at their contents, the output's at anything, the accumulator at what the point before left (`xs0`) — the
    body runs to the continuation holding the inputs' as they were and the output's and the accumulator with their
    pieces written: the edge block's contribution is added, then the bias is added and the result clamped below at
    zero into the output. -/
noncomputable def kernelRun2_C (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KRegion2.lean ====
import proofs.«108306_j10282151706735_1_alg».proof.Proof.KRegion2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region (the scatter kernel): what each case leaves, the accumulation over the grid, the proof data and
    the body obligation

Along a row of the grid (a node block `d`, the edge blocks `e = 0 … 341`) the accumulator is zeroed at `e = 0`, receives
each edge block's contribution, and at `e = 341` the output block is the accumulator plus the bias, clamped below at
zero. Here only the SHAPE of this is stated: which memref holds which pieces after the body; the values are read off
the pieces later. -/

/-! ## What each case leaves in the output's staging buffer and in the accumulator -/

/-- Case A stores nothing into the output (the window is idle at its points and not written back there): no pieces — a
    placeholder that nothing consults. -/
def out2_A_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) : Vec F S2000x128 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator cover it: each is a store of the whole `2000 × 128` buffer. -/
theorem scover2_A_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) (y : S2000x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2000x128.size (by sl_kernel_rfl) y

/-- What case A leaves in the accumulator: its pieces read back. -/
def sout2_A_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) : Vec F S2000x128 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output either: a placeholder that nothing consults. -/
def out2_B_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) : Vec F S2000x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's piece for the accumulator covers it. -/
theorem scover2_B_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) (y : S2000x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2000x128.size (by sl_kernel_rfl) y

/-- What case B leaves in the accumulator: its piece read back. -/
def sout2_B_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) : Vec F S2000x128 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's piece for the output tiles its block (one store of the whole `2000 × 128` block), so it covers it. -/
theorem cover2_C_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x128.size (by sl_kernel_rfl) y

/-- What case C leaves in the output's staging buffer: its piece read back. -/
def out2_C_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) : Vec F S2000x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's piece for the accumulator covers it. -/
theorem scover2_C_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x128.size (by sl_kernel_rfl) y

/-- What case C leaves in the accumulator: its piece read back. -/
def sout2_C_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) : Vec F S2000x128 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region
-- the buffer contents of the core when the region is entered: the parameter the region's half is stated at
variable (V : (c : Dev nD) → (b : Ref sig .tc) → Buf (Elt F) ((c : Thread nD τ).loc b))

/-! ## What the output and the accumulator hold after each point -/

/-- THE ACCUMULATION. What the output's staging buffer and the accumulator hold after the body at position `n` (a pair:
    the output, then the accumulator): the case the closed forms select at `n`, run at the point's memrefs and input
    blocks, the accumulator read at what position `n - 1` left in it. The assignment of the conditions that no point
    meets is no case. -/
def outsAt2 (c : Dev nD) : (n : ℕ) → n < cfg2.N → Vec F S2000x128 .f32 × Vec F S2000x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 342 = 0 then
      if h1 : (n + 1) % 342 = 341 then
        False.elim (by have hN : n + 1 < 17100 := lt_of_lt_of_eq hn (show cfg2.N = 17100 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 342 = 341 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 342 = 0) (h1 : ¬t.val % 342 = 341) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 342 = 0) (h1 : ¬t.val % 342 = 341) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 342 = 0) (h1 : t.val % 342 = 341) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped buffer
    at anything); afterwards the other regions' buffers at anything, the accumulator at what the point before left in
    it, and the generator register at some state. -/
def PhiS2 (c : Dev nD) : (n : ℕ) → n ≤ cfg2.N → sProp 𝕄
  | 0, _ => Pipeline.ΦA spec2 c
  | n + 1, hn => iprop(iprop(others2 c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(others2 c ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(others2 c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents (the definition projected, never unfolding `V`). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; so
    that case's run applies. The invariant hands the body the accumulator at what the point before left (at anything at
    the first point) and takes it back at this point's contents, the pieces covering it; the other regions' buffers and
    the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 17100 := lt_of_lt_of_eq t.isLt (show cfg2.N = 17100 from N_2)
  by_cases h0 : t.val % 342 = 0
  · by_cases h1 : t.val % 342 = 341
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 342 = 341
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 17100 := N_2; omega)

end Region

end Cert.Kernel.Hand

end
-- ==== Proof.KRun.lean ====
/-
  The whole program's run: @main as host stretches and the three kernel regions, in order.
  Between two items every unscoped buffer of the core is held at named contents: the launch memory, then each host
  stretch's operations applied, then — after a region — the region's arrays at what its write-backs leave and every
  other buffer as the region found it. Each region is entered from the contents before it and left at the contents
  after it; the last contents, read against the final memory, give every unscoped buffer's final value: the result
  array at the last region's output, and each argument array at its launch contents (no item writes one).
-/
import proofs.«108306_j10282151706735_1_alg».proof.Proof.KRegion0
import proofs.«108306_j10282151706735_1_alg».proof.Proof.KRegion1
import proofs.«108306_j10282151706735_1_alg».proof.Proof.KRegion2
import proofs.«108306_j10282151706735_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-! ## The buffer contents at each boundary -/

/-- Every buffer after the host stretches before the first region (the launch memory, then each stretch applied). -/
abbrev Wh3 (c : Dev nD) : Valuation τ sig (Elt F) := Gen.V3 m c
/-- The same read at the core's references: what the first region finds. -/
abbrev E0 : (c : Dev nD) → (b : Ref sig .tc) → Buf (Elt F) ((c : Thread nD τ).loc b) := fun c b => Wh3 m c b

/-- After region 0: its arrays at what the pipeline leaves (the inputs as entered, the output's write-backs folded),
    every other buffer as entered. -/
def W4 (c : Dev nD) : Valuation τ sig (Elt F) :=
  Pipeline.withArrays spec0 c (Wh3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Wh3 m c (Proc.devRef .tc b) := by
  unfold W4; exact Pipeline.withArrays_of_ne spec0 c _ _ b hb
/-- The same read at the core's references. -/
abbrev E1 : (c : Dev nD) → (b : Ref sig .tc) → Buf (Elt F) ((c : Thread nD τ).loc b) := fun c b => W4 m c b
theorem hF0 (c : Dev nD) (w : Fin cfg0.W) : (dat0 (E0 m) c).arrAt w cfg0.N = E1 m c (Pipeline.arrRef spec0 w) :=
  (W4_arr m c w).symm
theorem hrest0 (c : Dev nD) : ∀ b, b ∉ Finset.univ.image (Pipeline.arrRef spec0) → E1 m c b = E0 m c b :=
  fun b hb => W4_of_ne m c b fun w e => hb (Finset.mem_image.mpr ⟨w, Finset.mem_univ _, e⟩)

/-- After region 1: its arrays at what the pipeline leaves (the inputs as entered, the output's write-backs folded),
    every other buffer as entered. -/
def W5 (c : Dev nD) : Valuation τ sig (Elt F) :=
  Pipeline.withArrays spec1 c (W4 m c) fun w => (dat1 (E1 m) c).arrAt w cfg1.N
theorem W5_arr (c : Dev nD) (w : Fin cfg1.W) :
    W5 m c (Proc.devRef .tc (Pipeline.arrRef spec1 w)) = (dat1 (E1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the core's references. -/
abbrev E1b : (c : Dev nD) → (b : Ref sig .tc) → Buf (Elt F) ((c : Thread nD τ).loc b) := fun c b => W5 m c b
theorem hF1 (c : Dev nD) (w : Fin cfg1.W) : (dat1 (E1 m) c).arrAt w cfg1.N = E1b m c (Pipeline.arrRef spec1 w) :=
  (W5_arr m c w).symm
theorem hrest1 (c : Dev nD) : ∀ b, b ∉ Finset.univ.image (Pipeline.arrRef spec1) → E1b m c b = E1 m c b :=
  fun b hb => W5_of_ne m c b fun w e => hb (Finset.mem_image.mpr ⟨w, Finset.mem_univ _, e⟩)

/-- After the host line between the second and third regions. -/
abbrev W6 (c : Dev nD) : Valuation τ sig (Elt F) := StableHlo.after hostOps2 (W5 m c)
abbrev E2 : (c : Dev nD) → (b : Ref sig .tc) → Buf (Elt F) ((c : Thread nD τ).loc b) := fun c b => W6 m c b

/-- After region 2: its arrays at what the pipeline leaves (the inputs as entered, the output's write-backs folded),
    every other buffer as entered. -/
def W7 (c : Dev nD) : Valuation τ sig (Elt F) :=
  Pipeline.withArrays spec2 c (W6 m c) fun w => (dat2 (E2 m) c).arrAt w cfg2.N
theorem W7_arr (c : Dev nD) (w : Fin cfg2.W) :
    W7 m c (Proc.devRef .tc (Pipeline.arrRef spec2 w)) = (dat2 (E2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the core's references. -/
abbrev E3 : (c : Dev nD) → (b : Ref sig .tc) → Buf (Elt F) ((c : Thread nD τ).loc b) := fun c b => W7 m c b
theorem hF2 (c : Dev nD) (w : Fin cfg2.W) : (dat2 (E2 m) c).arrAt w cfg2.N = E3 m c (Pipeline.arrRef spec2 w) :=
  (W7_arr m c w).symm
theorem hrest2 (c : Dev nD) : ∀ b, b ∉ Finset.univ.image (Pipeline.arrRef spec2) → E3 m c b = E2 m c b :=
  fun b hb => W7_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline). -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱h : Variants := Variants.none
abbrev Lh : GSem nD τ sig → Finset Unit := fun _ => ∅
abbrev lvh : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lh lvh 0 fun _ _ => rfl
  pre c := iprop(StableHlo.held (c : Thread nD τ) (Pipeline.ucRefs τ sig) (Wh3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lh lvh 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E1b m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the write-backs leave; the generator
    register into the region's invariant and out; nothing owed; no semaphore of the kernel's own. -/
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ Lh lvh 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine BIBase.Entails.trans (hout2 (E2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱h Lh lvh) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m),
    .host (hseg hostOps2 hostOps2_sub Gen.hostOps2_fresh (W5 m)),
    .region (reg2 m) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The final memory, read -/

/-- `main_arg0` reaches the end as launched: no host stretch writes it and no region changes it. -/
theorem W7_main_arg0 (c : Dev nD) : W7 m c (Proc.devRef .tc main_arg0) = m ((c : Thread nD τ).loc main_arg0) :=
  (W7_of_ne m c main_arg0 (by decide)).trans <|
  (StableHlo.after_of_writes_sub hostOps2 (W5 m c) Gen.hostOps2_writes (by decide : main_arg0 ∉ Gen.hostOps2_W)).trans <|
  (W5_of_ne m c main_arg0 (by decide)).trans <|
  ((W4_arr m c 0).trans (((dat0 (E0 m) c).arrAt_in 0 rfl _).trans (A_eq0 (E0 m) c 0))).trans <|
  (Gen.V3_of m c main_arg0 (by decide)).trans <| (Gen.V2_of m c main_arg0 (by decide)).trans <| (Gen.V1_of m c main_arg0 (by decide)).trans rfl

/-- `main_arg1` reaches the end as launched: no host stretch writes it and no region changes it. -/
theorem W7_main_arg1 (c : Dev nD) : W7 m c (Proc.devRef .tc main_arg1) = m ((c : Thread nD τ).loc main_arg1) :=
  (W7_of_ne m c main_arg1 (by decide)).trans <|
  (StableHlo.after_of_writes_sub hostOps2 (W5 m c) Gen.hostOps2_writes (by decide : main_arg1 ∉ Gen.hostOps2_W)).trans <|
  (W5_of_ne m c main_arg1 (by decide)).trans <|
  (W4_of_ne m c main_arg1 (by decide)).trans <|
  (Gen.V3_of m c main_arg1 (by decide)).trans <| (Gen.V2_of m c main_arg1 (by decide)).trans <| (Gen.V1_of m c main_arg1 (by decide)).trans rfl

/-- `main_arg2` reaches the end as launched: no host stretch writes it and no region changes it. -/
theorem W7_main_arg2 (c : Dev nD) : W7 m c (Proc.devRef .tc main_arg2) = m ((c : Thread nD τ).loc main_arg2) :=
  (W7_of_ne m c main_arg2 (by decide)).trans <|
  (StableHlo.after_of_writes_sub hostOps2 (W5 m c) Gen.hostOps2_writes (by decide : main_arg2 ∉ Gen.hostOps2_W)).trans <|
  (W5_of_ne m c main_arg2 (by decide)).trans <|
  ((W4_arr m c 1).trans (((dat0 (E0 m) c).arrAt_in 1 rfl _).trans (A_eq0 (E0 m) c 1))).trans <|
  (Gen.V3_of m c main_arg2 (by decide)).trans <| (Gen.V2_of m c main_arg2 (by decide)).trans <| (Gen.V1_of m c main_arg2 (by decide)).trans rfl

/-- `main_arg3` reaches the end as launched: no host stretch writes it and no region changes it. -/
theorem W7_main_arg3 (c : Dev nD) : W7 m c (Proc.devRef .tc main_arg3) = m ((c : Thread nD τ).loc main_arg3) :=
  (W7_of_ne m c main_arg3 (by decide)).trans <|
  (StableHlo.after_of_writes_sub hostOps2 (W5 m c) Gen.hostOps2_writes (by decide : main_arg3 ∉ Gen.hostOps2_W)).trans <|
  (W5_of_ne m c main_arg3 (by decide)).trans <|
  (W4_of_ne m c main_arg3 (by decide)).trans <|
  (Gen.V3_of m c main_arg3 (by decide)).trans <| (Gen.V2_of m c main_arg3 (by decide)).trans <| (Gen.V1_of m c main_arg3 (by decide)).trans rfl

/-- The result array ends at what the last region's write-backs leave. -/
theorem W7_main_v41 (c : Dev nD) : W7 m c (Proc.devRef .tc main_v41) = (dat2 (E2 m) c).arrAt 3 cfg2.N := W7_arr m c 3

/-- The frame: every weakly fair execution terminates, nothing faulting, the argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The run with the result array named: what the last region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v41) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v41 (by decide))).trans (W7_main_v41 m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Run

end Cert.Kernel.Hand

end
-- ==== Proof.KIRegion0.lean ====
/-
  The first kernel region: the linear map, one block of 2000 rows per grid point.
  At each of its 50 points the body reads a block of 2000 rows of the feature matrix and the whole 128 × 128 weight
  matrix, multiplies them, and stores the product as the point's block of the transformed features; nothing is kept
  from one point to the next. This module states what the body leaves (the product of the two blocks it was handed),
  proves that the body runs on any staging buffers, and packages both as the pipeline's proof data with its body
  obligation — all at a parameter `V`, the buffer contents when the region is entered.
-/
import proofs.«108306_j10282151706735_1_alg».proof.Proof.Gen.KernelIdeal.Launch
import proofs.«108306_j10282151706735_1_alg».proof.Proof.Gen.KernelIdeal.Skeleton
import proofs.«108306_j10282151706735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the weight matrix at every point, fetched there or not: its block index
    never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S2000x128 := Rect.unit (s := S2000x128) ![0, 0] S2000x128.size inb_S2000x128_S2000x128_0_0
abbrev r0_w : Rect S128x128 := Rect.unit (s := S128x128) ![0, 0] S128x128.size inb_S128x128_S128x128_0_0

/-! ## What the body leaves in the output window's buffer -/

/-- The output buffer after the body, from the two input blocks: its one store, the product of the blocks. -/
def out0_2 (x0 : Vec F S2000x128 .f32) (x1 : Vec F S128x128 .f32) : Vec F S2000x128 .bf16 :=
  View.canon [⟨r0_x, k0_pay1 (View.ld x0 r0_x) (View.ld x1 r0_w)⟩]

/-- The one store covers the buffer. -/
theorem cover0_2 (p0 : Vec F S2000x128 .bf16) (y : S2000x128.Idx) :
    ∃ pc ∈ ([⟨r0_x, p0⟩] : List (View.Piece (Elt F) S2000x128 .bf16)), y ∈ pc.1.set :=
  View.cover_of_tiled [⟨r0_x, p0⟩] S2000x128.size (by rfl) y

/-! ## The body's triple -/

set_option maxHeartbeats 1000000 in
/-- The kernel body on whole staging memrefs, the inputs' at contents `x0`, `x1` and the output's at anything, runs
    to the continuation holding the inputs' as they were and the output's at `out0_2` of them. -/
theorem sound_kernel0 (c : Dev nD) (E : Set ℕ) (i : grid0.Coords) (arg1 : Memref sig .tc .vmem S2000x128 .f32) (harg1 : arg1.IsWhole)
    (arg2 : Memref sig .tc .vmem S128x128 .f32) (harg2 : arg2.IsWhole) (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the region on core `c`: the arrays as the region finds them; after the body at point `t`
    each input's buffer at its block and the output's at the product of the two blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1Runs.lean ====
/- The gather region (grid 342 × 50, point = (edge block, node block)): what its three control cases share.
   The two conditions of the body on the grid coordinates in closed form over the linear point index t
   (node block = t mod 50), where the output window is idle, the staging and scratch memrefs by name, the
   region invariant split at the accumulator, and each input window's block read off the contents V the
   region is entered with. -/
import proofs.«108306_j10282151706735_1_alg».proof.Proof.Gen.KernelIdeal.Launch
import proofs.«108306_j10282151706735_1_alg».proof.Proof.Gen.KernelIdeal.Skeleton
import proofs.«108306_j10282151706735_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions on the grid point -/

/-- The first condition: the node-block coordinate is 0 (the accumulator is zeroed there). -/
abbrev cond1_0 (i : grid1.Coords) : Prop := (Scalar.cmpi .ne (Scalar.extui (Scalar.cmpi .eq (BitVec.ofNat 32 (i 1).val) 0#32)) 0#32) = 1#1
/-- It holds exactly at the points t ≡ 0 (mod 50). -/
theorem hcond1_0 : ∀ t : Fin cfg1.N, cond1_0 (grid1.coords t) ↔ t.val % 50 = 0 :=
  (by decide +kernel : ∀ t : Fin grid1.N, cond1_0 (grid1.coords t) ↔ t.val % 50 = 0)

/-- The second condition: the node-block coordinate is 49 (the accumulator is scaled and stored there). -/
abbrev cond1_1 (i : grid1.Coords) : Prop := k1_cond2 i = 1#1
/-- It holds exactly at the points t ≡ 49 (mod 50). -/
theorem hcond1_1 : ∀ t : Fin cfg1.N, cond1_1 (grid1.coords t) ↔ t.val % 50 = 49 :=
  (by decide +kernel : ∀ t : Fin grid1.N, cond1_1 (grid1.coords t) ↔ t.val % 50 = 49)

/-! ## Where the windows are idle -/

/-- The three input windows are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- The output window is idle exactly where the second condition fails (nothing is stored into it there), -/
theorem idle1_3_of_not (i : grid1.Coords) (h : ¬cond1_1 i) : cfg1.idle 3 i = true := by
  show (!(k1_cond2 i == 1#1)) = true
  simpa using h
/-- and live where it holds. -/
theorem idle1_3_of (i : grid1.Coords) (h : cond1_1 i) : cfg1.idle 3 i = false := by
  show (!(k1_cond2 i == 1#1)) = false
  simpa using h
/-- Its block is written back only where the second condition holds (node block 49). -/
theorem noFlush1_3_of_not (t : Fin cfg1.N) (h : ¬cond1_1 (grid1.coords t)) : (cfg1.win 3).flush t = false :=
  Bool.eq_false_iff.mpr fun hf => h ((hcond1_1 t).mpr ((flush1_3 t).mp hf))
/-- At the first point of an edge block (case A) the output window is idle, -/
theorem idleAt1_3_A : ∀ t : Fin cfg1.N, cond1_0 (grid1.coords t) → ¬cond1_1 (grid1.coords t) → cfg1.idle 3 (grid1.coords t) = true :=
  fun t _ h => idle1_3_of_not _ h
/-- and its block is not written back there. -/
theorem noFlush1_3_A : ∀ t : Fin cfg1.N, cond1_0 (grid1.coords t) → ¬cond1_1 (grid1.coords t) → (cfg1.win 3).flush t = false :=
  fun t _ h => noFlush1_3_of_not t h
/-- At the inner points of an edge block (case B) the output window is idle, -/
theorem idleAt1_3_B : ∀ t : Fin cfg1.N, ¬cond1_0 (grid1.coords t) → ¬cond1_1 (grid1.coords t) → cfg1.idle 3 (grid1.coords t) = true :=
  fun t _ h => idle1_3_of_not _ h
/-- and not written back. -/
theorem noFlush1_3_B : ∀ t : Fin cfg1.N, ¬cond1_0 (grid1.coords t) → ¬cond1_1 (grid1.coords t) → (cfg1.win 3).flush t = false :=
  fun t _ h => noFlush1_3_of_not t h
/-- At the last point of an edge block (case C) the output window is live: the body stores into it. -/
theorem liveAt1_3_C : ∀ t : Fin cfg1.N, ¬cond1_0 (grid1.coords t) → cond1_1 (grid1.coords t) → cfg1.idle 3 (grid1.coords t) = false :=
  fun t _ h => idle1_3_of _ h

/-! ## The memrefs the body is called with -/

/-- One staging buffer of the output window, through which its contents are stated (which one does not matter:
    both are whole buffers of the block's shape). -/
abbrev VO1_3 : View sig .tc .vmem S2048x128 .f32 := (Memref.whole cc1_stg3_0 : Memref sig .tc .vmem S2048x128 .f32).view
/-- Each window's current staging memref at point t, and that it is a whole buffer. -/
abbrev ms1_0 (t : Fin cfg1.N) : Memref sig .tc .vmem S2048 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2000x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from one point to the next. -/
abbrev scM1_0 : Memref sig .tc .vmem S2048x128 .f32 := Memref.whole cc1_scratch0
/-- The same as a view: what the accumulator holds is stated through it. -/
abbrev VS1_0 : View sig .tc .vmem S2048x128 .f32 := scM1_0.view

/-- The core's scoped buffers other than this region's staging buffers and its accumulator (the other regions'
    staging buffers and scratch), each at some contents: carried through the region unopened. -/
abbrev rest1 (c : Dev nD) : sProp 𝕄 :=
  Pipeline.scopedRestBut (Ix := Unit) (Name := ℕ) (U := UR sig nD τ) (Lvl := ℕ) (Val := Elt F) spec1 c [cc1_scratch0]

/-- The region's invariant as the launch hands it over, split at the accumulator: the accumulator owned at some
    contents, the other scoped buffers unopened, the generator register at some state. -/
theorem PhiA1_eq (c : Dev nD) :
    (Pipeline.ΦA spec1 c : sProp 𝕄)
      = iprop(iprop((∃ d, owns (c : Thread nD τ) scM1_0 fullShare d) ∗ rest1 (F := F) c) ∗ (∃ r, prngReg c r)) := by
  unfold Pipeline.ΦA
  rw [Pipeline.scopedRest_split_of_list spec1 c [cc1_scratch0] (by decide) (by decide)]
  simp only [scM1_0, owns_whole]; try rfl

section Region
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-index window's current staging buffer holds its block at every point, fetched there or not (unfetched,
    the block index has not moved since the fetch), for any proof data whose array is V's and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the normalisation window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for the feature window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

end Cert.KernelIdeal.Hand

end
-- ==== Proof.KIRegion1RunA.lean ====
/- The gather body at the first point of an edge block (node block 0): the accumulator, found at any contents,
   is overwritten with zeros and then with zeros plus this block's one-hot product; nothing is stored into the
   output block. -/
import proofs.«108306_j10282151706735_1_alg».proof.Proof.KIRegion1Runs

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first condition holds, second fails). The pieces the body's stores leave in the output block (none)
    and in the accumulator (last store first), with the proof that on whole memrefs — the three inputs owned at
    x0, x1, x2, the output block at xi3, the accumulator at anything — the body runs to any continuation that
    accepts the inputs and the output block as they were and the accumulator with those pieces written. -/
noncomputable def kernelRun1_A (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1RunB.lean ====
/- The gather body at an inner point of an edge block (node block 1 … 48): the accumulator, found at what the
   point before left, gets this block's one-hot product added; nothing is stored into the output block. -/
import proofs.«108306_j10282151706735_1_alg».proof.Proof.KIRegion1RunA

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (both conditions fail). The pieces the body's stores leave in the output block (none) and in the
    accumulator, with the proof that on whole memrefs — the three inputs owned at x0, x1, x2, the output block at
    xi3, the accumulator at xs0 — the body runs to any continuation that accepts the inputs and the output block
    as they were and the accumulator with those pieces written. -/
noncomputable def kernelRun1_B (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion1RunC.lean ====
/- The gather body at the last point of an edge block (node block 49): the accumulator, found at what the point
   before left, gets this block's one-hot product added, and the sum, scaled row by row by the normalisation
   block, is stored over the whole output block. -/
import proofs.«108306_j10282151706735_1_alg».proof.Proof.KIRegion1RunB

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (first condition fails, second holds). The pieces the body's stores leave in the output block and in
    the accumulator, with the proof that on whole memrefs — the three inputs owned at x0, x1, x2, the output block
    at anything, the accumulator at xs0 — the body runs to any continuation that accepts the inputs as they were
    and the output block and the accumulator with those pieces written. -/
noncomputable def kernelRun1_C (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIRegion1.lean ====
/- The gather region's half of the run: what the output block and the accumulator hold after each grid point
   (per control case, then point by point along the linear order), the pipeline's proof data at the contents V
   the region is entered with, and the body obligation — the body runs at every point from the invariant and the
   windows' current blocks to the invariant at the next point and what it leaves in each window. -/
import proofs.«108306_j10282151706735_1_alg».proof.Proof.KIRegion1RunC

-- membership of an index in a rectangle of these extents is checked structurally, once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first point of an edge block nothing is stored into the output block: no pieces. A placeholder (junk read back) that
    nothing consults, since at these points the block is neither written back nor read at the next point. -/
def out1_A_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- At the first point of an edge block the stores into the accumulator are of its full extent, so their pieces cover it. -/
theorem scover1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y

/-- What the body leaves in the accumulator at the first point of an edge block: its pieces read back over junk. -/
def sout1_A_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)

/-- At an inner point of an edge block nothing is stored into the output block: no pieces. A placeholder (junk read back) that
    nothing consults, since at these points the block is neither written back nor read at the next point. -/
def out1_B_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- At an inner point of an edge block the stores into the accumulator are of its full extent, so their pieces cover it. -/
theorem scover1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y

/-- What the body leaves in the accumulator at an inner point of an edge block: its pieces read back over junk. -/
def sout1_B_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At the last point of an edge block the one store into the output block is of the block's full extent, so its pieces cover it. -/
theorem cover1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y

/-- What the body leaves in the output block at the last point of an edge block: its pieces read back over junk. -/
def out1_C_3 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- At the last point of an edge block the stores into the accumulator are of its full extent, so their pieces cover it. -/
theorem scover1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y

/-- What the body leaves in the accumulator at the last point of an edge block: its pieces read back over junk. -/
def sout1_C_0 (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)

section Region
-- the TensorCore's buffer contents when the region is entered
variable (V : (c : Dev nD) → (b : Ref sig .tc) → Buf (Elt F) ((c : Thread nD τ).loc b))

/-! ## What the output block and the accumulator hold after each point -/

/-- THE ACCUMULATION. What the output window's staging buffer and the accumulator hold after the body at linear
    position n (a pair: the output block, then the accumulator): the case the closed forms select at n, run at
    the point's memrefs and input blocks, the accumulator entering at what position n - 1 left. The two conditions
    never hold together (0 ≠ 49 mod 50). -/
def outsAt1 (c : Dev nD) : (n : ℕ) → n < cfg1.N → Vec F S2048x128 .f32 × Vec F S2048x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 50 = 0 then
      if h1 : (n + 1) % 50 = 49 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 50 = 49 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a first point of an edge block. -/
theorem outsAt1_A (c : Dev nD) (t : Fin cfg1.N) (h0 : t.val % 50 = 0) (h1 : ¬t.val % 50 = 49) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at an inner point of an edge block: over what the point before left in the accumulator. -/
theorem outsAt1_B (c : Dev nD) (t : Fin cfg1.N) (h0 : ¬t.val % 50 = 0) (h1 : ¬t.val % 50 = 49) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last point of an edge block: over what the point before left in the accumulator. -/
theorem outsAt1_C (c : Dev nD) (t : Fin cfg1.N) (h0 : ¬t.val % 50 = 0) (h1 : t.val % 50 = 49) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point what the launch hands over (the accumulator
    at anything); afterwards the accumulator at what the point before left in it, the other scoped buffers
    unopened, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point n (before point n + 1): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ rest1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ rest1 (F := F) c) ∗ (∃ r, prngReg c r)) := by
  cases n with
  | zero => exact absurd rfl hz
  | succ n => rfl

/-! ## The pipeline's proof data -/

/-- The proof data of the gather pipeline on core c: the arrays as the region finds them; after the body at point
    t each input's buffer at its block and the output's at `outsAt1`'s first component; the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's linear position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in;
    the invariant hands the body the accumulator at what the point before left (at anything at the first point) and
    takes it back at this point's contents, which the case's pieces cover; the other scoped buffers, the generator
    register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 17100 := lt_of_lt_of_eq t.isLt (show cfg1.N = 17100 from N_1)
  by_cases h0 : t.val % 50 = 0
  · by_cases h1 : t.val % 50 = 49
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 50 = 49
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3

/-- The body obligation of the gather pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives back what the launch handed over: the accumulator's named
    contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 17100 := N_1; omega)

end Region

end Cert.KernelIdeal.Hand

end
-- ==== Proof.KIRegion2Runs.lean ====
import proofs.«108306_j10282151706735_1_alg».proof.Proof.Gen.KernelIdeal.Launch
import proofs.«108306_j10282151706735_1_alg».proof.Proof.Gen.KernelIdeal.Skeleton
import proofs.«108306_j10282151706735_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region (the scatter kernel, grid 50 × 342): what its runs share

The body has two conditionals on the second grid coordinate `e` (the edge block): the accumulator is zeroed when
`e = 0`, and the output block is stored when `e = 341`. A point of the grid at position `t` has `e = t % 342`. -/

/-! ## The body's branch conditions -/

/-- The first conditional's condition (the edge block is the first of its row), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 342). -/
theorem hcond2_0 : ∀ t : Fin cfg2.N, cond2_0 (grid2.coords t) ↔ t.val % 342 = 0 :=
  (by decide +kernel : ∀ t : Fin grid2.N, cond2_0 (grid2.coords t) ↔ t.val % 342 = 0)

/-- The second conditional's condition (the edge block is the last of its row), from the grid coordinates. -/
abbrev cond2_1 (i : grid2.Coords) : Prop := k2_cond2 i = 1#1
/-- It holds at the points ≡ 341 (mod 342). -/
theorem hcond2_1 : ∀ t : Fin cfg2.N, cond2_1 (grid2.coords t) ↔ t.val % 342 = 341 :=
  (by decide +kernel : ∀ t : Fin grid2.N, cond2_1 (grid2.coords t) ↔ t.val % 342 = 341)

/-! ## Where the windows are idle -/

/-- The three inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

/-- The output window is idle exactly where the second condition fails. -/
theorem idle2_3_of_not (i : grid2.Coords) (h : ¬cond2_1 i) : cfg2.idle 3 i = true := by
  show (!(k2_cond2 i == 1#1)) = true
  rw [Bool.not_eq_true', beq_eq_false_iff_ne]; exact h
theorem idle2_3_of (i : grid2.Coords) (h : cond2_1 i) : cfg2.idle 3 i = false := by
  show (!(k2_cond2 i == 1#1)) = false
  rw [Bool.not_eq_false', beq_iff_eq]; exact h
/-- Nor is its block written back where the second condition fails. -/
theorem noFlush2_3_of_not (t : Fin cfg2.N) (h : ¬cond2_1 (grid2.coords t)) : (cfg2.win 3).flush t = false := by
  rw [Bool.eq_false_iff]; intro hf
  exact h ((hcond2_1 t).mpr ((flush2_3 t).mp hf))

/-- At the points of case A (first edge block of a row) the output is idle: the case stores nothing into it. -/
theorem idleAt2_3_A : ∀ t : Fin cfg2.N, cond2_0 (grid2.coords t) → ¬cond2_1 (grid2.coords t) → cfg2.idle 3 (grid2.coords t) = true :=
  fun t _ h => idle2_3_of_not _ h
/-- At the points of case A the pipeline does not write the output's block back. -/
theorem noFlush2_3_A : ∀ t : Fin cfg2.N, cond2_0 (grid2.coords t) → ¬cond2_1 (grid2.coords t) → (cfg2.win 3).flush t = false :=
  fun t _ h => noFlush2_3_of_not t h
/-- At the points of case B (an inner edge block) the output is idle. -/
theorem idleAt2_3_B : ∀ t : Fin cfg2.N, ¬cond2_0 (grid2.coords t) → ¬cond2_1 (grid2.coords t) → cfg2.idle 3 (grid2.coords t) = true :=
  fun t _ h => idle2_3_of_not _ h
/-- At the points of case B the pipeline does not write the output's block back. -/
theorem noFlush2_3_B : ∀ t : Fin cfg2.N, ¬cond2_0 (grid2.coords t) → ¬cond2_1 (grid2.coords t) → (cfg2.win 3).flush t = false :=
  fun t _ h => noFlush2_3_of_not t h
/-- At the points of case C (last edge block of a row) the output is live: the case stores into it. -/
theorem liveAt2_3_C : ∀ t : Fin cfg2.N, ¬cond2_0 (grid2.coords t) → cond2_1 (grid2.coords t) → cfg2.idle 3 (grid2.coords t) = false :=
  fun t _ h => idle2_3_of _ h

/-! ## The memrefs the body is called on -/

/-- One staging buffer of the output window, through which its contents are stated (the choice does not matter). -/
abbrev VO2_3 : View sig .tc .vmem S2000x128 .f32 := (Memref.whole cc2_stg3_0 : Memref sig .tc .vmem S2000x128 .f32).view
/-- Each window's current staging memref at point `t`, and its wholeness. -/
abbrev ms2_0 (t : Fin cfg2.N) : Memref sig .tc .vmem S2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x128 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows. -/
abbrev scM2_0 : Memref sig .tc .vmem S2000x128 .f32 := Memref.whole cc2_scratch0
/-- The accumulator as a view: what it holds between points is stated through it. -/
abbrev VS2_0 : View sig .tc .vmem S2000x128 .f32 := scM2_0.view

/-! ## The region's invariant, with the accumulator as an owned memref -/

/-- The scoped buffers of the core that belong to the other two regions (their staging buffers and the second region's
    accumulator), each whole at some contents: this region never touches them. -/
def others2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f))

/-- What the launch hands the region splits into the other regions' buffers, the accumulator owned at some contents,
    and the generator register. -/
theorem PhiA2_split (c : Dev nD) :
    (Pipeline.ΦA spec2 c : sProp 𝕄)
      ⊢ iprop(iprop(others2 c ∗ (∃ d, owns (c : Thread nD τ) scM2_0 fullShare d)) ∗ (∃ r, prngReg c r)) := by
  unfold Pipeline.ΦA others2; rw [scopedRest2_eq]; simp only [scM2_0, owns_whole]
  iintro ⟨⟨H1, H2, H3, H4, H5, H6, H7, H8, H9, H10, H11, H12, H13, H14, HS⟩, Hg⟩
  isplitr [Hg]
  · isplitr [HS]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iexact HS
  · iexact Hg

/-- And conversely. -/
theorem PhiA2_join (c : Dev nD) :
    iprop(iprop(others2 c ∗ (∃ d, owns (c : Thread nD τ) scM2_0 fullShare d)) ∗ (∃ r, prngReg c r))
      ⊢ (Pipeline.ΦA spec2 c : sProp 𝕄) := by
  unfold Pipeline.ΦA others2; rw [scopedRest2_eq]; simp only [scM2_0, owns_whole]
  iintro ⟨⟨⟨H1, H2, H3, H4, H5, H6, H7, H8, H9, H10, H11, H12, H13, H14⟩, HS⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact HS
  · iexact Hg

/-- The region's invariant as the launch hands it over, with the accumulator an owned memref at some contents. -/
theorem PhiA2_eq (c : Dev nD) :
    (Pipeline.ΦA spec2 c : sProp 𝕄)
      = iprop(iprop(others2 c ∗ (∃ d, owns (c : Thread nD τ) scM2_0 fullShare d)) ∗ (∃ r, prngReg c r)) :=
  BI.equiv_iff.mp ⟨PhiA2_split c, PhiA2_join c⟩

section Region
-- the buffer contents of the core when the region is entered: the parameter the region's half is stated at
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is the entry contents and whose body leaves the block in place: unfetched, the block index has not
    moved since the last fetch. The three inputs are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

end Cert.KernelIdeal.Hand

end
-- ==== Proof.KIRegion2RunA.lean ====
import proofs.«108306_j10282151706735_1_alg».proof.Proof.KIRegion2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (first edge block of a row: the first conditional taken, the second not). The pieces the body's stores leave
    in the accumulator (last first), with the proof that on whole memrefs — the three inputs' at their contents, the
    output's (into which the case stores nothing) at contents `xi3` handed back untouched, the accumulator at anything —
    the body runs to the continuation holding the inputs' and the output's as they were and the accumulator with its
    pieces written: the accumulator is zeroed, then the edge block's contribution is added. -/
noncomputable def kernelRun2_A (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) :
    Σ' (L3 : List (View.Piece (Elt F) S2000x128 .f32)), { LS0 : List (View.Piece (Elt F) S2000x128 .f32) //
      ∀ (xi3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion2RunB.lean ====
import proofs.«108306_j10282151706735_1_alg».proof.Proof.KIRegion2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (an inner edge block: neither conditional taken). The pieces the body's stores leave in the accumulator, with
    the proof that on whole memrefs — the three inputs' at their contents, the output's (into which the case stores
    nothing) at contents `xi3` handed back untouched, the accumulator at what the point before left (`xs0`) — the body
    runs to the continuation holding the inputs' and the output's as they were and the accumulator with its pieces
    written: the edge block's contribution is added to it. -/
noncomputable def kernelRun2_B (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) :
    Σ' (L3 : List (View.Piece (Elt F) S2000x128 .f32)), { LS0 : List (View.Piece (Elt F) S2000x128 .f32) //
      ∀ (xi3 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KIRegion2RunC.lean ====
import proofs.«108306_j10282151706735_1_alg».proof.Proof.KIRegion2RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (last edge block of a row: the first conditional not taken, the second taken). The pieces the body's stores
    leave in the output's staging memref and in the accumulator, with the proof that on whole memrefs — the three
    inputs' at their contents, the output's at anything, the accumulator at what the point before left (`xs0`) — the
    body runs to the continuation holding the inputs' as they were and the output's and the accumulator with their
    pieces written: the edge block's contribution is added, then the bias is added and the result clamped below at
    zero into the output. -/
noncomputable def kernelRun2_C (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) :
    Σ' (L3 : List (View.Piece (Elt F) S2000x128 .f32)), { LS0 : List (View.Piece (Elt F) S2000x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KIRegion2.lean ====
import proofs.«108306_j10282151706735_1_alg».proof.Proof.KIRegion2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The third region (the scatter kernel): what each case leaves, the accumulation over the grid, the proof data and
    the body obligation

Along a row of the grid (a node block `d`, the edge blocks `e = 0 … 341`) the accumulator is zeroed at `e = 0`, receives
each edge block's contribution, and at `e = 341` the output block is the accumulator plus the bias, clamped below at
zero. Here only the SHAPE of this is stated: which memref holds which pieces after the body; the values are read off
the pieces later. -/

/-! ## What each case leaves in the output's staging buffer and in the accumulator -/

/-- Case A stores nothing into the output (the window is idle at its points and not written back there): no pieces — a
    placeholder that nothing consults. -/
def out2_A_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) : Vec F S2000x128 .f32 :=
  VO2_3.read (Elt F) (VO2_3.writes (Elt F) VO2_3.junk (kernelRun2_A c i arg2 harg2 arg3 harg3 arg4 harg4 arg5 harg5 arg6 harg6 hc0 hc1 x0 x1 x2).1)

/-- Case A's pieces for the accumulator cover it: each is a store of the whole `2000 × 128` buffer. -/
theorem scover2_A_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) (y : S2000x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2000x128.size (by sl_kernel_rfl) y

/-- What case A leaves in the accumulator: its pieces read back. -/
def sout2_A_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) : Vec F S2000x128 .f32 :=
  VS2_0.read (Elt F) (VS2_0.writes (Elt F) VS2_0.junk (kernelRun2_A c i arg2 harg2 arg3 harg3 arg4 harg4 arg5 harg5 arg6 harg6 hc0 hc1 x0 x1 x2).2.1)

/-- Case B stores nothing into the output either: a placeholder that nothing consults. -/
def out2_B_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) : Vec F S2000x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- Case B's piece for the accumulator covers it. -/
theorem scover2_B_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) (y : S2000x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2000x128.size (by sl_kernel_rfl) y

/-- What case B leaves in the accumulator: its piece read back. -/
def sout2_B_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) : Vec F S2000x128 .f32 :=
  VS2_0.read (Elt F) (VS2_0.writes (Elt F) VS2_0.junk (kernelRun2_B c i arg2 harg2 arg3 harg3 arg4 harg4 arg5 harg5 arg6 harg6 hc0 hc1 x0 x1 x2 xs0).2.1)

/-- Case C's piece for the output tiles its block (one store of the whole `2000 × 128` block), so it covers it. -/
theorem cover2_C_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2000x128.size (by sl_kernel_rfl) y

/-- What case C leaves in the output's staging buffer: its piece read back. -/
def out2_C_3 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) : Vec F S2000x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- Case C's piece for the accumulator covers it. -/
theorem scover2_C_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) (y : S2000x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2000x128.size (by sl_kernel_rfl) y

/-- What case C leaves in the accumulator: its piece read back. -/
def sout2_C_0 (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) : Vec F S2000x128 .f32 :=
  VS2_0.read (Elt F) (VS2_0.writes (Elt F) VS2_0.junk (kernelRun2_C c i arg2 harg2 arg3 harg3 arg4 harg4 arg5 harg5 arg6 harg6 hc0 hc1 x0 x1 x2 xs0).2.1)

section Region
-- the buffer contents of the core when the region is entered: the parameter the region's half is stated at
variable (V : (c : Dev nD) → (b : Ref sig .tc) → Buf (Elt F) ((c : Thread nD τ).loc b))

/-! ## What the output and the accumulator hold after each point -/

/-- THE ACCUMULATION. What the output's staging buffer and the accumulator hold after the body at position `n` (a pair:
    the output, then the accumulator): the case the closed forms select at `n`, run at the point's memrefs and input
    blocks, the accumulator read at what position `n - 1` left in it. The assignment of the conditions that no point
    meets is no case. -/
def outsAt2 (c : Dev nD) : (n : ℕ) → n < cfg2.N → Vec F S2000x128 .f32 × Vec F S2000x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 342 = 0 then
      if h1 : (n + 1) % 342 = 341 then
        False.elim (by have hN : n + 1 < 17100 := lt_of_lt_of_eq hn (show cfg2.N = 17100 from N_2); omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 342 = 341 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 342 = 0) (h1 : ¬t.val % 342 = 341) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 342 = 0) (h1 : ¬t.val % 342 = 341) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 342 = 0) (h1 : t.val % 342 = 341) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over (every scoped buffer
    at anything); afterwards the other regions' buffers at anything, the accumulator at what the point before left in
    it, and the generator register at some state. -/
def PhiS2 (c : Dev nD) : (n : ℕ) → n ≤ cfg2.N → sProp 𝕄
  | 0, _ => Pipeline.ΦA spec2 c
  | n + 1, hn => iprop(iprop(others2 c ∗ owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(others2 c ∗ owns (c : Thread nD τ) scM2_0 fullShare ((outsAt2 V c n hn).2)) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(others2 c ∗ owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt2`'s first component; the invariant `PhiS2`; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

/-- The proof data's arrays are the region-entry contents (the definition projected, never unfolding `V`). -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; so
    that case's run applies. The invariant hands the body the accumulator at what the point before left (at anything at
    the first point) and takes it back at this point's contents, the pieces covering it; the other regions' buffers and
    the generator register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 17100 := lt_of_lt_of_eq t.isLt (show cfg2.N = 17100 from N_2)
  by_cases h0 : t.val % 342 = 0
  · by_cases h1 : t.val % 342 = 341
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 342 = 341
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨⟨HR, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR HS0 Hg]
        · isplitl [HR HS0]
          · isplitl [HR]; · iexact HR
            unfold owns; iexists _; isplitr
            swap; · iexact HS0
            ipureintro; exact View.read_writes_of_cover _ _ _ _ _ (scover2_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives back what the launch handed over: the accumulator's named contents
    are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 17100 := N_2; omega)

end Region

end Cert.KernelIdeal.Hand

end
-- ==== Proof.KIRun.lean ====
/-
  The whole program's run: @main as host stretches and the three kernel regions, in order.
  Between two items every unscoped buffer of the core is held at named contents: the launch memory, then each host
  stretch's operations applied, then — after a region — the region's arrays at what its write-backs leave and every
  other buffer as the region found it. Each region is entered from the contents before it and left at the contents
  after it; the last contents, read against the final memory, give every unscoped buffer's final value: the result
  array at the last region's output, and each argument array at its launch contents (no item writes one).
-/
import proofs.«108306_j10282151706735_1_alg».proof.Proof.KIRegion0
import proofs.«108306_j10282151706735_1_alg».proof.Proof.KIRegion1
import proofs.«108306_j10282151706735_1_alg».proof.Proof.KIRegion2
import proofs.«108306_j10282151706735_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ)

/-! ## The buffer contents at each boundary -/

/-- Every buffer after the host stretches before the first region (the launch memory, then each stretch applied). -/
abbrev Wh3 (c : Dev nD) : Valuation τ sig (Elt F) := Gen.V3 m c
/-- The same read at the core's references: what the first region finds. -/
abbrev E0 : (c : Dev nD) → (b : Ref sig .tc) → Buf (Elt F) ((c : Thread nD τ).loc b) := fun c b => Wh3 m c b

/-- After region 0: its arrays at what the pipeline leaves (the inputs as entered, the output's write-backs folded),
    every other buffer as entered. -/
def W4 (c : Dev nD) : Valuation τ sig (Elt F) :=
  Pipeline.withArrays spec0 c (Wh3 m c) fun w => (dat0 (E0 m) c).arrAt w cfg0.N
theorem W4_arr (c : Dev nD) (w : Fin cfg0.W) :
    W4 m c (Proc.devRef .tc (Pipeline.arrRef spec0 w)) = (dat0 (E0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = Wh3 m c (Proc.devRef .tc b) := by
  unfold W4; exact Pipeline.withArrays_of_ne spec0 c _ _ b hb
/-- The same read at the core's references. -/
abbrev E1 : (c : Dev nD) → (b : Ref sig .tc) → Buf (Elt F) ((c : Thread nD τ).loc b) := fun c b => W4 m c b
theorem hF0 (c : Dev nD) (w : Fin cfg0.W) : (dat0 (E0 m) c).arrAt w cfg0.N = E1 m c (Pipeline.arrRef spec0 w) :=
  (W4_arr m c w).symm
theorem hrest0 (c : Dev nD) : ∀ b, b ∉ Finset.univ.image (Pipeline.arrRef spec0) → E1 m c b = E0 m c b :=
  fun b hb => W4_of_ne m c b fun w e => hb (Finset.mem_image.mpr ⟨w, Finset.mem_univ _, e⟩)

/-- After region 1: its arrays at what the pipeline leaves (the inputs as entered, the output's write-backs folded),
    every other buffer as entered. -/
def W5 (c : Dev nD) : Valuation τ sig (Elt F) :=
  Pipeline.withArrays spec1 c (W4 m c) fun w => (dat1 (E1 m) c).arrAt w cfg1.N
theorem W5_arr (c : Dev nD) (w : Fin cfg1.W) :
    W5 m c (Proc.devRef .tc (Pipeline.arrRef spec1 w)) = (dat1 (E1 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the core's references. -/
abbrev E1b : (c : Dev nD) → (b : Ref sig .tc) → Buf (Elt F) ((c : Thread nD τ).loc b) := fun c b => W5 m c b
theorem hF1 (c : Dev nD) (w : Fin cfg1.W) : (dat1 (E1 m) c).arrAt w cfg1.N = E1b m c (Pipeline.arrRef spec1 w) :=
  (W5_arr m c w).symm
theorem hrest1 (c : Dev nD) : ∀ b, b ∉ Finset.univ.image (Pipeline.arrRef spec1) → E1b m c b = E1 m c b :=
  fun b hb => W5_of_ne m c b fun w e => hb (Finset.mem_image.mpr ⟨w, Finset.mem_univ _, e⟩)

/-- After the host line between the second and third regions. -/
abbrev W6 (c : Dev nD) : Valuation τ sig (Elt F) := StableHlo.after hostOps2 (W5 m c)
abbrev E2 : (c : Dev nD) → (b : Ref sig .tc) → Buf (Elt F) ((c : Thread nD τ).loc b) := fun c b => W6 m c b

/-- After region 2: its arrays at what the pipeline leaves (the inputs as entered, the output's write-backs folded),
    every other buffer as entered. -/
def W7 (c : Dev nD) : Valuation τ sig (Elt F) :=
  Pipeline.withArrays spec2 c (W6 m c) fun w => (dat2 (E2 m) c).arrAt w cfg2.N
theorem W7_arr (c : Dev nD) (w : Fin cfg2.W) :
    W7 m c (Proc.devRef .tc (Pipeline.arrRef spec2 w)) = (dat2 (E2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the core's references. -/
abbrev E3 : (c : Dev nD) → (b : Ref sig .tc) → Buf (Elt F) ((c : Thread nD τ).loc b) := fun c b => W7 m c b
theorem hF2 (c : Dev nD) (w : Fin cfg2.W) : (dat2 (E2 m) c).arrAt w cfg2.N = E3 m c (Pipeline.arrRef spec2 w) :=
  (W7_arr m c w).symm
theorem hrest2 (c : Dev nD) : ∀ b, b ∉ Finset.univ.image (Pipeline.arrRef spec2) → E3 m c b = E2 m c b :=
  fun b hb => W7_of_ne m c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline). -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱h : Variants := Variants.none
abbrev Lh : GSem nD τ sig → Finset Unit := fun _ => ∅
abbrev lvh : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered from every unscoped buffer at the contents before it, left at the contents
    after it; its arrays split out of the unscoped buffers and put back at what the write-backs leave; the generator
    register into the region's invariant and out; nothing owed; no semaphore of the kernel's own. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ Lh lvh 0 fun _ _ => rfl
  pre c := iprop(StableHlo.held (c : Thread nD τ) (Pipeline.ucRefs τ sig) (Wh3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it; its arrays split out of the unscoped buffers and put back at what the write-backs leave; the generator
    register into the region's invariant and out; nothing owed; no semaphore of the kernel's own. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ Lh lvh 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    refine BIBase.Entails.trans (hout1 (E1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E1b m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents
    after it; its arrays split out of the unscoped buffers and put back at what the write-backs leave; the generator
    register into the region's invariant and out; nothing owed; no semaphore of the kernel's own. -/
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ Lh lvh 2 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E2 m) c)
    unfold Pipeline.ΦA
    iintro ⟨Hp, -, Hr⟩
    isplitl [Hr]; · iexact Hr
    iexact Hp
  hout c := by
    refine BIBase.Entails.trans (hout2 (E2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱h Lh lvh) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .region (reg0 m),
    .region (reg1 m),
    .host (hseg hostOps2 hostOps2_sub Gen.hostOps2_fresh (W5 m)),
    .region (reg2 m) ]

theorem main_run (c : Dev nD) : main (F := F) c = Pipeline.Seg.run (segs m) := (main_chain c).trans (by chain_rfl)

set_option backward.isDefEq.respectTransparency.types false in
/-- Every weakly fair execution of @main from memory `m` with zero counters terminates, nothing faulting, and every
    final memory holds each unscoped buffer at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-! ## The final memory, read -/

/-- `main_arg0` reaches the end as launched: no host stretch writes it and no region changes it. -/
theorem W7_main_arg0 (c : Dev nD) : W7 m c (Proc.devRef .tc main_arg0) = m ((c : Thread nD τ).loc main_arg0) :=
  (W7_of_ne m c main_arg0 (by decide)).trans <|
  (StableHlo.after_of_writes_sub hostOps2 (W5 m c) Gen.hostOps2_writes (by decide : main_arg0 ∉ Gen.hostOps2_W)).trans <|
  (W5_of_ne m c main_arg0 (by decide)).trans <|
  ((W4_arr m c 0).trans (((dat0 (E0 m) c).arrAt_in 0 rfl _).trans (A_eq0 (E0 m) c 0))).trans <|
  (Gen.V3_of m c main_arg0 (by decide)).trans <| (Gen.V2_of m c main_arg0 (by decide)).trans <| (Gen.V1_of m c main_arg0 (by decide)).trans rfl

/-- `main_arg1` reaches the end as launched: no host stretch writes it and no region changes it. -/
theorem W7_main_arg1 (c : Dev nD) : W7 m c (Proc.devRef .tc main_arg1) = m ((c : Thread nD τ).loc main_arg1) :=
  (W7_of_ne m c main_arg1 (by decide)).trans <|
  (StableHlo.after_of_writes_sub hostOps2 (W5 m c) Gen.hostOps2_writes (by decide : main_arg1 ∉ Gen.hostOps2_W)).trans <|
  (W5_of_ne m c main_arg1 (by decide)).trans <|
  (W4_of_ne m c main_arg1 (by decide)).trans <|
  (Gen.V3_of m c main_arg1 (by decide)).trans <| (Gen.V2_of m c main_arg1 (by decide)).trans <| (Gen.V1_of m c main_arg1 (by decide)).trans rfl

/-- `main_arg2` reaches the end as launched: no host stretch writes it and no region changes it. -/
theorem W7_main_arg2 (c : Dev nD) : W7 m c (Proc.devRef .tc main_arg2) = m ((c : Thread nD τ).loc main_arg2) :=
  (W7_of_ne m c main_arg2 (by decide)).trans <|
  (StableHlo.after_of_writes_sub hostOps2 (W5 m c) Gen.hostOps2_writes (by decide : main_arg2 ∉ Gen.hostOps2_W)).trans <|
  (W5_of_ne m c main_arg2 (by decide)).trans <|
  ((W4_arr m c 1).trans (((dat0 (E0 m) c).arrAt_in 1 rfl _).trans (A_eq0 (E0 m) c 1))).trans <|
  (Gen.V3_of m c main_arg2 (by decide)).trans <| (Gen.V2_of m c main_arg2 (by decide)).trans <| (Gen.V1_of m c main_arg2 (by decide)).trans rfl

/-- `main_arg3` reaches the end as launched: no host stretch writes it and no region changes it. -/
theorem W7_main_arg3 (c : Dev nD) : W7 m c (Proc.devRef .tc main_arg3) = m ((c : Thread nD τ).loc main_arg3) :=
  (W7_of_ne m c main_arg3 (by decide)).trans <|
  (StableHlo.after_of_writes_sub hostOps2 (W5 m c) Gen.hostOps2_writes (by decide : main_arg3 ∉ Gen.hostOps2_W)).trans <|
  (W5_of_ne m c main_arg3 (by decide)).trans <|
  (W4_of_ne m c main_arg3 (by decide)).trans <|
  (Gen.V3_of m c main_arg3 (by decide)).trans <| (Gen.V2_of m c main_arg3 (by decide)).trans <| (Gen.V1_of m c main_arg3 (by decide)).trans rfl

/-- The result array ends at what the last region's write-backs leave. -/
theorem W7_main_v41 (c : Dev nD) : W7 m c (Proc.devRef .tc main_v41) = (dat2 (E2 m) c).arrAt 3 cfg2.N := W7_arr m c 3

/-- The frame: every weakly fair execution terminates, nothing faulting, the argument arrays unchanged. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

/-- The run with the result array named: what the last region's write-backs leave. -/
theorem run_result (ρ : Dev nD → PrngReg) : θ_run defs (onTc (τ := τ) (main (F := F))) ⟨m, fun _ => 0, ρ⟩ (fun r => ∀ c : Dev nD,
      r.2.mem ((c.tc : Thread nD τ).loc main_v41) = (dat2 (E2 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v41 (by decide))).trans (W7_main_v41 m c),
     (h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Run

end Cert.KernelIdeal.Hand

end
-- ==== Proof.KIPayloads.lean ====
import proofs.«108306_j10282151706735_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The kernel's arithmetic read at one element, over the extended reals

Each of the three kernels stores values that are pure functions of the blocks it loaded. Read at one
element `(r, f)` of the stored block, over the extended reals (where every operation is exact and a
change of float format is the identity), they are:

* the linear kernel: `∑ k, x (r, k) * w (k, f)`;
* the gather kernel: zero at the first node block; the running value plus
  `∑ q, [rows r = nb * 2000 + q] * h (q, f)` at node block `nb` (a one-hot row times the block of
  `h`); and the running value times the edge's weight at the last node block;
* the scatter kernel: zero at the first edge block; the running value plus
  `∑ q, [db * 2000 + r = cols q] * msg (q, f)` at node block `db`; and
  `max (running value + bias f) 0` at the last edge block.
-/

noncomputable section

open scoped BigOperators

namespace Cert.KernelIdeal.Hand

open Cert.KernelIdeal Cert.KernelIdeal.Gen Idealize.ShloMosaic Idealize.ShloMosaic.ValueIdx

/-! ## Column and row forms of the layout operations -/

/-- A vector `[a]` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The first and last stores of the gather and scatter kernels -/

/-- The gather kernel's accumulator starts at zero. -/
theorem pay1_zero (r : Fin 2048) (f : Fin 128) : k1_pay1 (F := Ideal) (ix2 r f) = 0 := by
  unfold k1_pay1
  rw [shapeCast_self]
  exact Ideal.ofBits_zero_f32

/-- The gather kernel's message: the accumulated row times the edge's weight. -/
theorem pay1_out (acc : Vec Ideal S2048x128 .f32) (nrm : Vec Ideal S2048 .f32) (r : Fin 2048) (f : Fin 128) :
    k1_pay3 (F := Ideal) acc nrm (ix2 r f) = acc (ix2 r f) * nrm (ix1 r) := by
  unfold k1_pay3
  rw [mulf_apply, broadcastTo_a1_ab_apply, shapeCast_a_a1_apply, shapeCast_self]

/-- The scatter kernel's accumulator starts at zero. -/
theorem pay2_zero (r : Fin 2000) (f : Fin 128) : k2_pay1 (F := Ideal) (ix2 r f) = 0 := by
  unfold k2_pay1
  rw [shapeCast_self]
  exact Ideal.ofBits_zero_f32

/-- The scatter kernel's output: the accumulated row plus the bias, clamped below at zero. -/
theorem pay2_out (acc : Vec Ideal S2000x128 .f32) (bias : Vec Ideal S1x128 .f32) (r : Fin 2000) (f : Fin 128) :
    k2_pay3 (F := Ideal) acc bias (ix2 r f)
      = max (acc (ix2 r f) + bias (ix2 (0 : Fin 1) f)) (Ideal.ofBits .f32 0x00000000#32) := by
  unfold k2_pay3
  rw [maximumf_apply, addf_apply, broadcastTo_1b_ab_apply, shapeCast_self]
  rfl

/-! ## A matrix product with one contracted axis, read at an element -/

/-- A `[A, K] × [K, B]` product into the zero block reads, at `(r, f)`, the sum over `k` of the left
operand at `(r, k)` times the right operand at `(k, f)`: the contraction index is re-indexed by its one
coordinate. The four hypotheses say where the dimension numbers put the coordinates. -/
theorem matmul_plain_apply {A K B : ℕ} {φ₁ φ₂ : FTy}
    (D : DotDims ⟨2, ![A, K]⟩ ⟨2, ![K, B]⟩ ⟨2, ![A, B]⟩)
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (lhs : FVec Ideal ⟨2, ![A, K]⟩ φ₁) (rhs : FVec Ideal ⟨2, ![K, B]⟩ φ₂) (r : Fin A) (f : Fin B) :
    FloatOps.matmul D none lhs rhs (constant (F := Ideal) ⟨2, ![A, B]⟩ .f32 0x00000000#32) (ix2 r f)
      = ∑ k : Fin K, lhs (ix2 r k) * rhs (ix2 k f) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r f) ((contrEquiv1 D K hr hs).symm k) = ix2 r k := funext fun a => Fin.ext (by
    match a with
    | ⟨0, _⟩ => exact hl0 _ _
    | ⟨1, _⟩ => exact (hl1 _ _).trans hk)
  have er : D.rhsIdx (ix2 r f) ((contrEquiv1 D K hr hs).symm k) = ix2 k f := funext fun a => Fin.ext (by
    match a with
    | ⟨0, _⟩ => exact (hr0 _ _).trans hk
    | ⟨1, _⟩ => exact hr1 _ _)
  rw [el, er]

/-- The linear kernel's product `[2000, 128] × [128, 128]`. -/
theorem matmul0_apply {φ₁ φ₂ : FTy} (lhs : FVec Ideal S2000x128 φ₁) (rhs : FVec Ideal S128x128 φ₂) (r : Fin 2000) (f : Fin 128) :
    FloatOps.matmul dot_S2000x128_S128x128_S2000x128_1_0_0_1_n_n none lhs rhs (constant (F := Ideal) S2000x128 .f32 0x00000000#32) (ix2 r f)
      = ∑ k : Fin 128, lhs (ix2 r k) * rhs (ix2 k f) :=
  matmul_plain_apply dot_S2000x128_S128x128_S2000x128_1_0_0_1_n_n rfl rfl
    (fun i q => by
      unfold DotDims.lhsIdx
      rw [dif_neg (show ¬(0 : Fin S2000x128.rank) ∈ dot_S2000x128_S128x128_S2000x128_1_0_0_1_n_n.lhsBatch by decide),
        dif_pos (show (0 : Fin S2000x128.rank) ∈ dot_S2000x128_S128x128_S2000x128_1_0_0_1_n_n.lhsNonContracting by decide)]
      rfl)
    (fun i q => dot_S2000x128_S128x128_S2000x128_1_0_0_1_n_n.lhsIdx_val_of_single rfl i q)
    (fun i q => dot_S2000x128_S128x128_S2000x128_1_0_0_1_n_n.rhsIdx_val_of_single rfl i q)
    (fun i q => by
      unfold DotDims.rhsIdx
      rw [dif_neg (show ¬(1 : Fin S128x128.rank) ∈ dot_S2000x128_S128x128_S2000x128_1_0_0_1_n_n.rhsBatch by decide),
        dif_pos (show (1 : Fin S128x128.rank) ∈ dot_S2000x128_S128x128_S2000x128_1_0_0_1_n_n.rhsNonContracting by decide)]
      rfl)
    lhs rhs r f

/-- The linear kernel's stored block: the row of `x` times the column of `w`. -/
theorem pay0_apply (x0 : Vec Ideal S2000x128 .f32) (w : Vec Ideal S128x128 .f32) (r : Fin 2000) (f : Fin 128) :
    k0_pay1 (F := Ideal) x0 w (ix2 r f) = ∑ k : Fin 128, x0 (ix2 r k) * w (ix2 k f) := by
  unfold k0_pay1
  rw [truncf_apply]
  exact matmul0_apply (truncf .bf16 x0 bitsLt_bf16_f32) (truncf .bf16 w bitsLt_bf16_f32) r f

/-! ## The one-hot entry and the node index as words -/

/-- A comparison of two words, widened and read as a signed integer, is `1` where they agree and `0`
where they differ. -/
theorem onehot_entry (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · rw [if_pos h]
    have e : IntOp.cmpi .eq a b = 1#1 := by simp [IntOp.cmpi, h]
    rw [e]
    have e' : ((1#1 : BitVec 1).setWidth 32).toInt = 1 := by decide
    rw [e']; simp
  · rw [if_neg h]
    have hb : (a == b) = false := beq_eq_false_iff_ne.mpr h
    have e : IntOp.cmpi .eq a b = 0#1 := by simp [IntOp.cmpi, hb]
    rw [e]
    have e' : ((0#1 : BitVec 1).setWidth 32).toInt = 0 := by decide
    rw [e']; simp

/-- The first node of block `n` plus the offset `q`, computed on 32-bit words, is the word of
`n * 2000 + q`. -/
theorem node_word (n q : ℕ) :
    IntOp.addi (Scalar.muli (BitVec.ofNat 32 n) 2000#32) (BitVec.ofNat 32 q) = BitVec.ofNat 32 (n * 2000 + q) := by
  show BitVec.ofNat 32 n * BitVec.ofNat 32 2000 + BitVec.ofNat 32 q = _
  rw [← BitVec.ofNat_mul, ← BitVec.ofNat_add]

/-- The gather kernel's product `[2048, 2000] × [2000, 128]`. -/
theorem matmul1_apply {φ₁ φ₂ : FTy} (lhs : FVec Ideal S2048x2000 φ₁) (rhs : FVec Ideal S2000x128 φ₂) (r : Fin 2048) (f : Fin 128) :
    FloatOps.matmul dot_S2048x2000_S2000x128_S2048x128_1_0_0_1_n_n none lhs rhs (constant (F := Ideal) S2048x128 .f32 0x00000000#32) (ix2 r f)
      = ∑ k : Fin 2000, lhs (ix2 r k) * rhs (ix2 k f) :=
  matmul_plain_apply dot_S2048x2000_S2000x128_S2048x128_1_0_0_1_n_n rfl rfl
    (fun i q => by
      unfold DotDims.lhsIdx
      rw [dif_neg (show ¬(0 : Fin S2048x2000.rank) ∈ dot_S2048x2000_S2000x128_S2048x128_1_0_0_1_n_n.lhsBatch by decide),
        dif_pos (show (0 : Fin S2048x2000.rank) ∈ dot_S2048x2000_S2000x128_S2048x128_1_0_0_1_n_n.lhsNonContracting by decide)]
      rfl)
    (fun i q => dot_S2048x2000_S2000x128_S2048x128_1_0_0_1_n_n.lhsIdx_val_of_single rfl i q)
    (fun i q => dot_S2048x2000_S2000x128_S2048x128_1_0_0_1_n_n.rhsIdx_val_of_single rfl i q)
    (fun i q => by
      unfold DotDims.rhsIdx
      rw [dif_neg (show ¬(1 : Fin S2000x128.rank) ∈ dot_S2048x2000_S2000x128_S2048x128_1_0_0_1_n_n.rhsBatch by decide),
        dif_pos (show (1 : Fin S2000x128.rank) ∈ dot_S2048x2000_S2000x128_S2048x128_1_0_0_1_n_n.rhsNonContracting by decide)]
      rfl)
    lhs rhs r f

/-- The scatter kernel's product `[2000, 2048] × [2048, 128]`. -/
theorem matmul2_apply {φ₁ φ₂ : FTy} (lhs : FVec Ideal S2000x2048 φ₁) (rhs : FVec Ideal S2048x128 φ₂) (r : Fin 2000) (f : Fin 128) :
    FloatOps.matmul dot_S2000x2048_S2048x128_S2000x128_1_0_0_1_n_n none lhs rhs (constant (F := Ideal) S2000x128 .f32 0x00000000#32) (ix2 r f)
      = ∑ k : Fin 2048, lhs (ix2 r k) * rhs (ix2 k f) :=
  matmul_plain_apply dot_S2000x2048_S2048x128_S2000x128_1_0_0_1_n_n rfl rfl
    (fun i q => by
      unfold DotDims.lhsIdx
      rw [dif_neg (show ¬(0 : Fin S2000x2048.rank) ∈ dot_S2000x2048_S2048x128_S2000x128_1_0_0_1_n_n.lhsBatch by decide),
        dif_pos (show (0 : Fin S2000x2048.rank) ∈ dot_S2000x2048_S2048x128_S2000x128_1_0_0_1_n_n.lhsNonContracting by decide)]
      rfl)
    (fun i q => dot_S2000x2048_S2048x128_S2000x128_1_0_0_1_n_n.lhsIdx_val_of_single rfl i q)
    (fun i q => dot_S2000x2048_S2048x128_S2000x128_1_0_0_1_n_n.rhsIdx_val_of_single rfl i q)
    (fun i q => by
      unfold DotDims.rhsIdx
      rw [dif_neg (show ¬(1 : Fin S2048x128.rank) ∈ dot_S2000x2048_S2048x128_S2000x128_1_0_0_1_n_n.rhsBatch by decide),
        dif_pos (show (1 : Fin S2048x128.rank) ∈ dot_S2000x2048_S2048x128_S2000x128_1_0_0_1_n_n.rhsNonContracting by decide)]
      rfl)
    lhs rhs r f

/-- An integer comparison at an index compares the elements. -/
theorem cmpi_apply {s : Shape} {w : ℕ} (p : CmpIPredicate) (a b : IVec s w) (i : s.Idx) :
    cmpi p a b i = IntOp.cmpi p (a i) (b i) := rfl

/-- An integer sum at an index adds the elements. -/
theorem addi_apply {s : Shape} {w : ℕ} (a b : IVec s w) (i : s.Idx) : addi a b i = IntOp.addi (a i) (b i) := rfl

/-! ## The accumulating stores -/

set_option maxHeartbeats 400000 in
/-- The gather kernel at node block `i 1`: the running row plus the rows of `h` this block holds for
the edge's source node (at most one of the 2000 terms is not zero). -/
theorem pay1_acc (i : grid1.Coords) (rows : Vec Ideal S2048 .i32) (h : Vec Ideal S2000x128 .bf16)
    (acc : Vec Ideal S2048x128 .f32) (r : Fin 2048) (f : Fin 128) :
    k1_pay2 (F := Ideal) i rows h acc (ix2 r f)
      = acc (ix2 r f) + ∑ q : Fin 2000,
          (if rows (ix1 r) = BitVec.ofNat 32 ((i 1).val * 2000 + q.val) then h (ix2 q f) else 0) := by
  unfold k1_pay2
  dsimp only
  rw [shapeCast_self, addf_apply]
  refine congrArg (acc (ix2 r f) + ·) ?_
  refine (matmul1_apply _ _ r f).trans ?_
  refine Finset.sum_congr rfl fun q _ => ?_
  rw [truncf_apply, sitofp_apply, extui_apply, cmpi_apply, broadcastTo_a1_ab_apply, shapeCast_a_a1_apply,
    shapeCast_self, broadcastTo_1b_ab_apply, addi_apply, broadcast_apply, iota_single_apply, shapeCast_self,
    node_word, onehot_entry, ite_mul, one_mul, zero_mul]

set_option maxHeartbeats 400000 in
/-- The scatter kernel at node block `i 0`: the running row plus the messages of this edge block whose
target is the row's node. -/
theorem pay2_acc (i : grid2.Coords) (cols : Vec Ideal S2048 .i32) (msg : Vec Ideal S2048x128 .f32)
    (acc : Vec Ideal S2000x128 .f32) (r : Fin 2000) (f : Fin 128) :
    k2_pay2 (F := Ideal) i cols msg acc (ix2 r f)
      = acc (ix2 r f) + ∑ q : Fin 2048,
          (if BitVec.ofNat 32 ((i 0).val * 2000 + r.val) = cols (ix1 q) then msg (ix2 q f) else 0) := by
  unfold k2_pay2
  dsimp only
  rw [shapeCast_self, addf_apply]
  refine congrArg (acc (ix2 r f) + ·) ?_
  refine (matmul2_apply _ _ r f).trans ?_
  refine Finset.sum_congr rfl fun q _ => ?_
  rw [truncf_apply, sitofp_apply, extui_apply, cmpi_apply, broadcastTo_a1_ab_apply, addi_apply, broadcast_apply,
    iota_single_apply, broadcastTo_1b_ab_apply, shapeCast_a_1a_apply, shapeCast_self, truncf_apply, shapeCast_self,
    node_word, onehot_entry, ite_mul, one_mul, zero_mul]

end Cert.KernelIdeal.Hand
-- ==== Proof.Spec.lean ====
/-
  The layer both programs compute, as functions of the argument arrays over the extended reals.

  A graph of 100000 nodes with 128 features each. An ENTRY is a (source, target) pair with a weight; the list of
  entries holds the 600000 edges followed by one self loop per node (700000 entries), and the tiled form of the
  computation pads it to 700416 = 342 · 2048 entries whose source and target are the out-of-range node id 100000
  and whose weight is 0.

    feat   x w v f      = Σ_k x[v,k] · w[k,f]                      the transformed feature f of node v
    featAt h r f        = h[r,f] when the 32-bit word r, read as a natural number, names a node, and 0 otherwise
    msg    h src nrm j f = featAt h (src j) f · nrm j               what entry j carries
    agg    dst m v f    = Σ_j [dst j names v] m j f                what node v receives
    out    …            = max (agg + b[f]) 0
-/
import Idealize.ShloMosaic.PureOps.Ideal
import Idealize.ShloMosaic.Lib.ValueIdx

open scoped BigOperators

noncomputable section

namespace Cert.Spec

open Idealize.ShloMosaic Idealize.ShloMosaic.ValueIdx

/-- Feature `f` of node `v` after the linear map: the row of `x` against the column of `w`. -/
def feat (x : (⟨2, ![100000, 128]⟩ : Shape).Idx → EReal) (w : (⟨2, ![128, 128]⟩ : Shape).Idx → EReal)
    (v : Fin 100000) (f : Fin 128) : EReal :=
  ∑ k : Fin 128, x (ix2 v k) * w (ix2 k f)

/-- A table of node features read at a 32-bit node id: the node's row when the id names a node, zero otherwise. -/
def featAt (h : Fin 100000 → Fin 128 → EReal) (r : BitVec 32) (f : Fin 128) : EReal :=
  if hr : r.toNat < 100000 then h ⟨r.toNat, hr⟩ f else 0

/-- What entry `j` of a list of `E` entries carries: its source's features, weighted. -/
def msg {E : Nat} (h : Fin 100000 → Fin 128 → EReal) (src : Fin E → BitVec 32) (nrm : Fin E → EReal)
    (j : Fin E) (f : Fin 128) : EReal :=
  featAt h (src j) f * nrm j

/-- What node `v` receives: the sum of what the entries whose target is `v` carry. -/
def agg {E : Nat} (dst : Fin E → BitVec 32) (m : Fin E → Fin 128 → EReal) (v : Fin 100000) (f : Fin 128) : EReal :=
  ∑ j : Fin E, if dst j = BitVec.ofNat 32 v.val then m j f else 0

/-- The layer's result at node `v`, feature `f`: what the node receives plus the bias, cut off below at zero
    (the zero kept as the f32 word both programs carry). -/
def out {E : Nat} (x : (⟨2, ![100000, 128]⟩ : Shape).Idx → EReal) (w : (⟨2, ![128, 128]⟩ : Shape).Idx → EReal)
    (b : (⟨1, ![128]⟩ : Shape).Idx → EReal) (src dst : Fin E → BitVec 32) (nrm : Fin E → EReal)
    (v : Fin 100000) (f : Fin 128) : EReal :=
  max (agg dst (msg (feat x w) src nrm) v f + b (ix1 f)) (Ideal.ofBits .f32 0x00000000#32)

end Cert.Spec

end
-- ==== Proof.KIValue0.lean ====
/-
  The first region's output array, read: the transformed features.
  Point `t` of the 50 writes back rows 2000·t … 2000·t + 1999; the block it writes is the product of rows
  2000·t … of the feature matrix with the whole weight matrix; the 50 blocks tile the array. So after the region
  the array holds, at (v, f), the sum over k of x[v,k] · w[k,f].
-/
import proofs.«108306_j10282151706735_1_alg».proof.Proof.KIRegion0
import proofs.«108306_j10282151706735_1_alg».proof.Proof.KIPayloads
import proofs.«108306_j10282151706735_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz2 : (![0, 0] : Fin 2 → Nat) = fun _ => 0 := funext fun a => by fin_cases a <;> rfl

/-- The transformed features of the whole feature matrix, as contents of the region's output array. -/
abbrev featArr (c : Dev nD) : S100000x128.Idx → EReal :=
  fun i => Cert.Spec.feat (V c main_arg0) (V c main_arg2) (i 0) (i 1)

/-- The printed index maps, decided over the grid: the feature window and the output window sit at block (t, 0),
    the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `r` of the feature block at point `t` is row 2000·t + r of the feature matrix. -/
theorem iblk0_x (c : Dev nD) (t : Fin cfg0.N) (r : Fin 2000) (k : Fin 128) (hr : t.val * 2000 + r.val < 100000) :
    iblk0 V c 0 t (ix2 r k) = V c main_arg0 (ix2 ⟨t.val * 2000 + r.val, hr⟩ k) := by
  obtain ⟨e0, e1, -, -, -, -⟩ := idx_facts0 t
  unfold iblk0
  rw [View.read_apply]
  show V c main_arg0 (((cfg0.win 0).blk t).view.emb (ix2 r k)) = V c main_arg0 _
  refine congrArg (V c main_arg0) ?_
  funext a; apply Fin.ext
  match a with
  | ⟨0, _⟩ => show win0_0.index t (0 : Fin 2) * 2000 + 1 * r.val = t.val * 2000 + r.val; rw [e0]; omega
  | ⟨1, _⟩ => show win0_0.index t (1 : Fin 2) * 128 + 1 * k.val = k.val; rw [e1]; omega

/-- The weight block at any point is the weight matrix. -/
theorem iblk0_w (c : Dev nD) (t : Fin cfg0.N) (k : Fin 128) (f : Fin 128) :
    iblk0 V c 1 t (ix2 k f) = V c main_arg2 (ix2 k f) := by
  obtain ⟨-, -, e2, e3, -, -⟩ := idx_facts0 t
  unfold iblk0
  rw [View.read_apply]
  show V c main_arg2 (((cfg0.win 1).blk t).view.emb (ix2 k f)) = V c main_arg2 _
  refine congrArg (V c main_arg2) ?_
  funext a; apply Fin.ext
  match a with
  | ⟨0, _⟩ => show win0_1.index t (0 : Fin 2) * 128 + 1 * k.val = k.val; rw [e2]; omega
  | ⟨1, _⟩ => show win0_1.index t (1 : Fin 2) * 128 + 1 * f.val = f.val; rw [e3]; omega

/-- What point `t` writes back is block `t` of the transformed features. -/
theorem flushed0_eq (c : Dev nD) (t : Fin cfg0.N) :
    (dat0 V c).flushed 2 t = ((cfg0.win 2).blk t).view.read (Elt Ideal) (featArr V c) := by
  have hN : t.val < 50 := lt_of_lt_of_eq t.isLt (show cfg0.N = 50 from N_0)
  obtain ⟨-, -, -, -, e4, e5⟩ := idx_facts0 t
  show (cfg0.win 2).cut (grid0.coords t) ((dat0 V c).after 2 t) = _
  rw [after0_2]
  unfold out0_2
  rw [View.canon_unit_zero hz2]
  simp only [View.ld_unit_zero (S := S2000x128) hz2, View.ld_unit_zero (S := S128x128) hz2]
  funext j
  obtain ⟨r, f, rfl⟩ : ∃ (r : Fin 2000) (f : Fin 128), j = ix2 r f := ⟨j 0, j 1, eq_ix2 j⟩
  have hr : t.val * 2000 + r.val < 100000 := by have := r.isLt; omega
  rw [View.read_apply]
  have hemb : ((cfg0.win 2).blk t).view.emb (ix2 r f) = ix2 (⟨t.val * 2000 + r.val, hr⟩ : Fin 100000) f := by
    funext a; apply Fin.ext
    match a with
    | ⟨0, _⟩ => show win0_2.index t (0 : Fin 2) * 2000 + 1 * r.val = t.val * 2000 + r.val; rw [e4]; omega
    | ⟨1, _⟩ => show win0_2.index t (1 : Fin 2) * 128 + 1 * f.val = f.val; rw [e5]; omega
  rw [hemb]
  show k0_pay1 (F := Ideal) (iblk0 V c 0 t) (iblk0 V c 1 t) (ix2 r f) = Cert.Spec.feat (V c main_arg0) (V c main_arg2) ⟨t.val * 2000 + r.val, hr⟩ f
  rw [pay0_apply]
  unfold Cert.Spec.feat
  refine Finset.sum_congr rfl fun k _ => ?_
  rw [iblk0_x V c t r k hr, iblk0_w V c t k f]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v38).slice (win0_2.rect t)).set ↔ _
  rw [View.set_slice_whole, Rect.mem_set_unit]
  exact Iff.rfl

/-- After the region the output array holds the transformed features. -/
theorem final0 (c : Dev nD) : (dat0 V c).arrAt 2 cfg0.N = featArr V c :=
  (dat0 V c).arrAt_eq_of_cover 2 (featArr V c) (fun t _ => flushed0_eq V c t) fun i => by
    have hi0 : (i 0).val < 100000 := (i 0).isLt
    have hi1 : (i 1).val < 128 := (i 1).isLt
    have hN : cfg0.N = 50 := N_0
    refine ⟨⟨(i 0).val / 2000, by rw [hN]; omega⟩, flush0_2 _, ?_⟩
    rw [mem_blk0]
    obtain ⟨-, -, -, -, e4, e5⟩ := idx_facts0 ⟨(i 0).val / 2000, by rw [hN]; omega⟩
    intro a
    match a with
    | ⟨0, _⟩ =>
      show win0_2.index _ (0 : Fin 2) * 2000 ≤ (i 0).val ∧ (i 0).val < win0_2.index _ (0 : Fin 2) * 2000 + 2000
      rw [e4]; dsimp only; omega
    | ⟨1, _⟩ =>
      show win0_2.index _ (1 : Fin 2) * 128 ≤ (i 1).val ∧ (i 1).val < win0_2.index _ (1 : Fin 2) * 128 + 128
      rw [e5]; omega

end Cert.KernelIdeal.Hand

end
-- ==== Proof.KIPieces1.lean ====
/- The gather body's stores, read back as values. At each control case the pieces the run leaves in the
   accumulator, and at the last point of an edge block in the output block, are single stores of the full extent;
   read over anything they are their payloads, whose loads read the whole input blocks: the accumulator ends at
   (what it held, or the zero block at a first point) plus the node block's one-hot product, and the output block
   at that sum scaled by the normalisation block. -/
import proofs.«108306_j10282151706735_1_alg».proof.Proof.KIRegion1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

private theorem hz00 : (![0, 0] : Fin 2 → Nat) = fun _ => 0 := funext fun a => by fin_cases a <;> rfl
private theorem hz0 : (![0] : Fin 1 → Nat) = fun _ => 0 := funext fun a => by fin_cases a; rfl

/-- At the first point of an edge block the accumulator ends at the zero block plus this node block's one-hot
    product: the second store's payload, read over the first store's zeros. -/
theorem sout1_A_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048 .i32) (x1 : Vec F S2048 .f32) (x2 : Vec F S2000x128 .bf16) :
    sout1_A_0 c i arg2 harg2 arg3 harg3 arg4 harg4 arg5 harg5 arg6 harg6 hc0 hc1 x0 x1 x2 = k1_pay2 i x0 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) hz00, View.readCov_unit_zero (S := S2048x128) _ hz00]
  simp only [View.readAt_eq_ld, harg2.read_unread, harg4.read_unread, View.ld_unit_zero (S := S2048) hz0, View.ld_unit_zero (S := S2000x128) hz00]

/-- At an inner point of an edge block the accumulator ends at what it held plus this node block's one-hot
    product: its one store's payload. -/
theorem sout1_B_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048 .i32) (x1 : Vec F S2048 .f32) (x2 : Vec F S2000x128 .bf16) (xs0 : Vec F S2048x128 .f32) :
    sout1_B_0 c i arg2 harg2 arg3 harg3 arg4 harg4 arg5 harg5 arg6 harg6 hc0 hc1 x0 x1 x2 xs0 = k1_pay2 i x0 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero (S := S2048x128) hz00]
  simp only [View.readAt_eq_ld, harg2.read_unread, harg4.read_unread, harg6.read_unread, View.ld_unit_zero (S := S2048) hz0, View.ld_unit_zero (S := S2000x128) hz00, View.ld_unit_zero (S := S2048x128) hz00]

/-- At the last point of an edge block the accumulator ends likewise at what it held plus this node block's
    one-hot product, -/
theorem sout1_C_0_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) :
    sout1_C_0 c i arg2 harg2 arg3 harg3 arg4 harg4 arg5 harg5 arg6 harg6 hc0 hc1 x0 x1 x2 xs0 = k1_pay2 i x0 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S2048x128) hz00]
  simp only [View.readAt_eq_ld, harg2.read_unread, harg3.read_unread, harg4.read_unread, harg6.read_unread, View.ld_unit_zero (S := S2048) hz0, View.ld_unit_zero (S := S2000x128) hz00, View.ld_unit_zero (S := S2048x128) hz00]

/-- and the output block at that sum scaled row by row by the normalisation block. -/
theorem out1_C_3_eq (c : Dev nD) (i : grid1.Coords) (arg2 : Memref sig .tc .vmem S2048 .i32) (harg2 : arg2.IsWhole) (arg3 : Memref sig .tc .vmem S2048 .f32) (harg3 : arg3.IsWhole) (arg4 : Memref sig .tc .vmem S2000x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048 .i32) (x1 : Vec F S2048 .f32) (x2 : Vec F S2000x128 .bf16) (xs0 : Vec F S2048x128 .f32) :
    out1_C_3 c i arg2 harg2 arg3 harg3 arg4 harg4 arg5 harg5 arg6 harg6 hc0 hc1 x0 x1 x2 xs0 = k1_pay3 (k1_pay2 i x0 x2 xs0) x1 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S2048x128) hz00, View.readCov_unit_zero (S := S2048x128) _ hz00]
  simp only [View.readAt_eq_ld, harg2.read_unread, harg3.read_unread, harg4.read_unread, harg6.read_unread, View.ld_unit_zero (S := S2048) hz0, View.ld_unit_zero (S := S2000x128) hz00, View.ld_unit_zero (S := S2048x128) hz00]

end Cert.KernelIdeal.Hand

end
-- ==== Proof.KIValue1Arr.lean ====
/-
  The gather region's output array, read. Point t of the grid is (edge block t / 50, node block t % 50). The
  pipeline writes the output block back only at the last point of an edge block's row (t % 50 = 49), to rows
  2048 · (t / 50) … 2048 · (t / 50) + 2047 of the message array; the 342 blocks tile the array: row j lies in edge
  block j / 2048, written back at point (j / 2048) · 50 + 49. So once each such block is known to hold the messages
  of its 2048 entries, the array after the region holds, at (j, f), the message entry j carries.
-/
import proofs.«108306_j10282151706735_1_alg».proof.Proof.KIRegion1
import proofs.«108306_j10282151706735_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- What every entry carries, from the arrays the region finds (the transformed features, the source ids, the
    weights), as contents of the region's output array. -/
abbrev msgArr (c : Dev nD) : S700416x128.Idx → EReal :=
  fun i => Cert.Spec.msg (E := 700416) (fun v f => V c main_v38 (ix2 v f)) (fun j => V c main_v33 (ix1 j))
    (fun j => V c main_v37 (ix1 j)) (i 0) (i 1)

/-- The output window's printed index map, decided over the grid: at point t it sits at block (t / 50, 0). -/
theorem idx_facts1_out : ∀ t : Fin cfg1.N, win1_3.index t (0 : Fin 2) = t.val / 50 ∧ win1_3.index t (1 : Fin 2) = 0 :=
  (by decide +kernel : ∀ t : Fin grid1.N, win1_3.index t (0 : Fin 2) = t.val / 50 ∧ win1_3.index t (1 : Fin 2) = 0)

/-- THE BLOCK'S VALUE, as this file takes it: after the last point of an edge block's row the output block holds,
    at row r and feature f, the message of entry 2048 · (t / 50) + r. -/
def LastBlock (c : Dev nD) : Prop :=
  ∀ (t : Fin cfg1.N), t.val % 50 = 49 → ∀ (r : Fin 2048) (f : Fin 128) (hr : t.val / 50 * 2048 + r.val < 700416),
    (outsAt1 V c t.val t.isLt).1 (ix2 r f)
      = Cert.Spec.msg (E := 700416) (fun v f => V c main_v38 (ix2 v f)) (fun j => V c main_v33 (ix1 j))
          (fun j => V c main_v37 (ix1 j)) ⟨t.val / 50 * 2048 + r.val, hr⟩ f

/-- What the last point of edge block e's row writes back is block e of the messages. -/
theorem flushed1_eq_of (c : Dev nD) (hlast : LastBlock V c) (t : Fin cfg1.N) (hf : (cfg1.win 3).flush t = true) :
    (dat1 V c).flushed 3 t = ((cfg1.win 3).blk t).view.read (Elt Ideal) (msgArr V c) := by
  have h1 : t.val % 50 = 49 := (flush1_3 t).mp hf
  have hN : t.val < 17100 := lt_of_lt_of_eq t.isLt (show cfg1.N = 17100 from N_1)
  obtain ⟨e0, e1⟩ := idx_facts1_out t
  show (cfg1.win 3).cut (grid1.coords t) ((dat1 V c).after 3 t) = _
  rw [after1_3]
  funext j
  obtain ⟨r, f, rfl⟩ : ∃ (r : Fin 2048) (f : Fin 128), j = ix2 r f := ⟨j 0, j 1, eq_ix2 j⟩
  have hr : t.val / 50 * 2048 + r.val < 700416 := by have := r.isLt; omega
  rw [View.read_apply]
  have hemb : ((cfg1.win 3).blk t).view.emb (ix2 r f) = ix2 (⟨t.val / 50 * 2048 + r.val, hr⟩ : Fin 700416) f := by
    funext a; apply Fin.ext
    match a with
    | ⟨0, _⟩ => show win1_3.index t (0 : Fin 2) * 2048 + 1 * r.val = t.val / 50 * 2048 + r.val; rw [e0]; omega
    | ⟨1, _⟩ => show win1_3.index t (1 : Fin 2) * 128 + 1 * f.val = f.val; rw [e1]; omega
  rw [hemb]
  exact hlast t h1 r f hr

/-- An index of the array is in point t's output block iff each coordinate is in the block's range on its axis. -/
theorem mem_blk1 (t : Fin cfg1.N) (i : S700416x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v39).slice (win1_3.rect t)).set ↔ _
  rw [View.set_slice_whole, Rect.mem_set_unit]
  exact Iff.rfl

/-- After the region the output array holds the messages: row j lies in edge block j / 2048, which the last point of
    that block's row writes back. -/
theorem final1_of (c : Dev nD) (hlast : LastBlock V c) : (dat1 V c).arrAt 3 cfg1.N = msgArr V c :=
  (dat1 V c).arrAt_eq_of_cover 3 (msgArr V c) (flushed1_eq_of V c hlast) fun i => by
    have hi0 : (i 0).val < 700416 := (i 0).isLt
    have hi1 : (i 1).val < 128 := (i 1).isLt
    have hN : cfg1.N = 17100 := N_1
    refine ⟨⟨(i 0).val / 2048 * 50 + 49, by rw [hN]; omega⟩, (flush1_3 _).mpr (by dsimp only; omega), ?_⟩
    rw [mem_blk1]
    obtain ⟨e0, e1⟩ := idx_facts1_out ⟨(i 0).val / 2048 * 50 + 49, by rw [hN]; omega⟩
    intro a
    match a with
    | ⟨0, _⟩ =>
      show win1_3.index _ (0 : Fin 2) * 2048 ≤ (i 0).val ∧ (i 0).val < win1_3.index _ (0 : Fin 2) * 2048 + 2048
      rw [e0]; dsimp only; omega
    | ⟨1, _⟩ =>
      show win1_3.index _ (1 : Fin 2) * 128 ≤ (i 1).val ∧ (i 1).val < win1_3.index _ (1 : Fin 2) * 128 + 128
      rw [e1]; omega

end Cert.KernelIdeal.Hand

end
-- ==== Proof.LibSumBlocks.lean ====
/-
  A sum over `m * n` consecutive positions, cut into `m` consecutive blocks of `n` positions each.
-/
import Mathlib.Algebra.BigOperators.Fin
import Mathlib.Logic.Equiv.Fin.Basic

open scoped BigOperators

namespace Cert.LibSumBlocks

/-- Position `j` of block `t`, of `m` blocks of `n` positions, lies below `m * n`. -/
theorem block_pos_lt {m n N : ℕ} (h : m * n = N) (t : Fin m) (j : Fin n) : t.val * n + j.val < N := by
  subst h
  calc t.val * n + j.val < t.val * n + n := Nat.add_lt_add_left j.isLt _
    _ = (t.val + 1) * n := (Nat.succ_mul _ _).symm
    _ ≤ m * n := Nat.mul_le_mul_right _ t.isLt

/-- Summing block by block is summing over all positions: every position `τ < m * n` is position `τ % n` of block
    `τ / n`, once. Stated with the total `N` as a separate number so that it applies at literal extents
    (`16` blocks of `512` in `8192`) with `h` closed by `rfl`. -/
theorem sum_blocks_general {M : Type*} [AddCommMonoid M] (m n N : ℕ) (h : m * n = N) (f : Fin N → M) :
    ∑ t : Fin m, ∑ j : Fin n, f ⟨t.val * n + j.val, block_pos_lt h t j⟩ = ∑ τ : Fin N, f τ := by
  subst h
  rw [← Equiv.sum_comp finProdFinEquiv f, Fintype.sum_prod_type]
  refine Finset.sum_congr rfl fun t _ => Finset.sum_congr rfl fun j _ => congrArg f (Fin.ext ?_)
  show t.val * n + j.val = j.val + n * t.val
  rw [Nat.mul_comm, Nat.add_comm]

end Cert.LibSumBlocks
-- ==== Proof.SpecSums.lean ====
/-
  Sums that meet the layer of Spec.lean: a table read at a node id as a sum over all nodes of an indicator, that sum
  and the sum over all entries cut into the blocks the tiled computation walks, and the padded entry list against the
  unpadded one.
-/
import proofs.«108306_j10282151706735_1_alg».proof.Proof.Spec
import proofs.«108306_j10282151706735_1_alg».proof.Proof.LibSumBlocks
import Mathlib.Algebra.BigOperators.Fin

open scoped BigOperators

noncomputable section

namespace Cert.Spec

open Idealize.ShloMosaic Idealize.ShloMosaic.ValueIdx

/-- A node number below 100000, as a 32-bit word, reads back as itself. -/
theorem toNat_ofNat_node (v : Fin 100000) : (BitVec.ofNat 32 v.val).toNat = v.val := by
  rw [BitVec.toNat_ofNat]; exact Nat.mod_eq_of_lt (by have := v.isLt; omega)

/-- A word equals node `v`'s word exactly when it reads `v`. -/
theorem eq_ofNat_node_iff (r : BitVec 32) (v : Fin 100000) : r = BitVec.ofNat 32 v.val ↔ r.toNat = v.val := by
  constructor
  · rintro rfl; exact toNat_ofNat_node v
  · intro h; apply BitVec.eq_of_toNat_eq; rw [h, toNat_ofNat_node]

/-- Reading a table at a node id is summing, over all nodes, the node's row where the id names it: at most one node
    is named, and none when the id is out of range. -/
theorem featAt_eq_sum (h : Fin 100000 → Fin 128 → EReal) (r : BitVec 32) (f : Fin 128) :
    ∑ v : Fin 100000, (if r = BitVec.ofNat 32 v.val then h v f else 0) = featAt h r f := by
  unfold featAt
  split
  · rename_i hr
    rw [Finset.sum_eq_single (⟨r.toNat, hr⟩ : Fin 100000)]
    · rw [if_pos ((eq_ofNat_node_iff r _).mpr rfl)]
    · intro v _ hv
      rw [if_neg]
      intro e
      exact hv (Fin.ext ((eq_ofNat_node_iff r v).mp e).symm)
    · intro hn; exact absurd (Finset.mem_univ _) hn
  · rename_i hr
    refine Finset.sum_eq_zero fun v _ => ?_
    rw [if_neg]
    intro e
    have := (eq_ofNat_node_iff r v).mp e
    have := v.isLt
    omega

/-- The same sum walked as 50 blocks of 2000 nodes. -/
theorem featAt_blocks (h : Fin 100000 → Fin 128 → EReal) (r : BitVec 32) (f : Fin 128) :
    ∑ nb : Fin 50, ∑ q : Fin 2000,
        (if r = BitVec.ofNat 32 (nb.val * 2000 + q.val) then h ⟨nb.val * 2000 + q.val, Cert.LibSumBlocks.block_pos_lt rfl nb q⟩ f else 0)
      = featAt h r f := by
  rw [← featAt_eq_sum]
  exact Cert.LibSumBlocks.sum_blocks_general 50 2000 100000 rfl
    (fun v : Fin 100000 => if r = BitVec.ofNat 32 v.val then h v f else 0)

/-- What a node receives, the 700416 padded entries walked as 342 blocks of 2048. -/
theorem agg_blocks (dst : Fin 700416 → BitVec 32) (m : Fin 700416 → Fin 128 → EReal) (v : Fin 100000) (f : Fin 128) :
    ∑ eb : Fin 342, ∑ q : Fin 2048,
        (if BitVec.ofNat 32 v.val = dst ⟨eb.val * 2048 + q.val, Cert.LibSumBlocks.block_pos_lt rfl eb q⟩
          then m ⟨eb.val * 2048 + q.val, Cert.LibSumBlocks.block_pos_lt rfl eb q⟩ f else 0)
      = agg dst m v f := by
  unfold agg
  rw [← Cert.LibSumBlocks.sum_blocks_general 342 2048 700416 rfl
    (fun j : Fin 700416 => if dst j = BitVec.ofNat 32 v.val then m j f else 0)]
  refine Finset.sum_congr rfl fun eb _ => Finset.sum_congr rfl fun q _ => ?_
  exact if_congr eq_comm rfl rfl

/-- The padding entries, whose target is the out-of-range id 100000, reach no node: the layer over the padded list is
    the layer over the first 700000 entries. -/
theorem out_pad (x : (⟨2, ![100000, 128]⟩ : Shape).Idx → EReal) (w : (⟨2, ![128, 128]⟩ : Shape).Idx → EReal)
    (b : (⟨1, ![128]⟩ : Shape).Idx → EReal)
    (src dst : Fin 700000 → BitVec 32) (nrm : Fin 700000 → EReal)
    (srcP dstP : Fin 700416 → BitVec 32) (nrmP : Fin 700416 → EReal)
    (h1 : ∀ (j : Fin 700416) (hj : j.val < 700000), srcP j = src ⟨j.val, hj⟩ ∧ dstP j = dst ⟨j.val, hj⟩ ∧ nrmP j = nrm ⟨j.val, hj⟩)
    (h2 : ∀ j : Fin 700416, 700000 ≤ j.val → dstP j = 100000#32)
    (v : Fin 100000) (f : Fin 128) :
    out x w b srcP dstP nrmP v f = out x w b src dst nrm v f := by
  unfold out
  refine congrArg (fun s => max (s + b (ix1 f)) (Ideal.ofBits .f32 0x00000000#32)) ?_
  unfold agg
  have hsplit := Fin.sum_univ_add (a := 700000) (b := 416)
    (fun j : Fin (700000 + 416) => if dstP j = BitVec.ofNat 32 v.val then msg (feat x w) srcP nrmP j f else 0)
  refine (hsplit.trans ?_)
  have hz : (∑ i : Fin 416, (if dstP (Fin.natAdd 700000 i) = BitVec.ofNat 32 v.val
      then msg (feat x w) srcP nrmP (Fin.natAdd 700000 i) f else 0)) = 0 := by
    refine Finset.sum_eq_zero fun i _ => ?_
    rw [if_neg]
    rw [h2 (Fin.natAdd 700000 i) (by show 700000 ≤ 700000 + i.val; omega)]
    intro e
    have := (eq_ofNat_node_iff (100000#32) v).mp e
    have hv := v.isLt
    have h100 : (100000#32 : BitVec 32).toNat = 100000 := by decide
    omega
  rw [hz, add_zero]
  refine Finset.sum_congr rfl fun j _ => ?_
  have hj : (Fin.castAdd 416 j : Fin (700000 + 416)).val < 700000 := j.isLt
  obtain ⟨e1, e2, e3⟩ := h1 (Fin.castAdd 416 j) hj
  have ej : (⟨(Fin.castAdd 416 j : Fin (700000 + 416)).val, hj⟩ : Fin 700000) = j := Fin.ext rfl
  rw [ej] at e1 e2 e3
  unfold msg
  rw [e1, e2, e3]

end Cert.Spec

end
-- ==== Proof.LibFoldSum.lean ====
/-
  A running total that starts at zero and adds one term per step is, after `n` steps, the sum of the first `n` terms.
-/
import Mathlib.Algebra.BigOperators.Fin

open scoped BigOperators

namespace Cert.LibFoldSum

variable {M : Type*} [AddCommMonoid M] {N : ℕ}

/-- No term lies before position `0`. -/
theorem sum_lt_zero (g : Fin N → M) : ∑ t ∈ Finset.univ.filter (fun t : Fin N => t.val < 0), g t = 0 := by
  have e : Finset.univ.filter (fun t : Fin N => t.val < 0) = ∅ := by
    ext t
    simp only [Finset.mem_filter, Finset.mem_univ, true_and, Nat.not_lt_zero, Finset.notMem_empty]
  rw [e, Finset.sum_empty]

/-- The terms before position `n + 1` are the terms before position `n` and term `n`. -/
theorem sum_lt_succ (g : Fin N → M) (n : ℕ) (h : n < N) :
    ∑ t ∈ Finset.univ.filter (fun t : Fin N => t.val < n + 1), g t
      = (∑ t ∈ Finset.univ.filter (fun t : Fin N => t.val < n), g t) + g ⟨n, h⟩ := by
  have e : Finset.univ.filter (fun t : Fin N => t.val < n + 1)
      = insert ⟨n, h⟩ (Finset.univ.filter (fun t : Fin N => t.val < n)) := by
    ext t
    simp only [Finset.mem_filter, Finset.mem_univ, true_and, Finset.mem_insert, Fin.ext_iff]
    omega
  have hn : (⟨n, h⟩ : Fin N) ∉ Finset.univ.filter (fun t : Fin N => t.val < n) := by
    simp only [Finset.mem_filter, Finset.mem_univ, true_and]
    omega
  rw [e, Finset.sum_insert hn, add_comm]

/-- Every term lies before position `N` (or any later one). -/
theorem sum_lt_all (g : Fin N → M) (n : ℕ) (h : N ≤ n) :
    ∑ t ∈ Finset.univ.filter (fun t : Fin N => t.val < n), g t = ∑ t : Fin N, g t := by
  refine Finset.sum_congr (Finset.filter_true_of_mem fun t _ => ?_) fun _ _ => rfl
  have := t.isLt
  omega

/-- A sequence of running totals `s 0, s 1, …` over terms `g 0, …, g (N - 1)` that starts at zero and, for each of its
    first `K` steps, adds the step's term: total `n ≤ K` is the sum of the terms before position `n` — by induction
    on `n`, the terms never enumerated. -/
theorem fold_eq_sum_lt (s : ℕ → M) (g : Fin N → M) (h0 : s 0 = 0) (K : ℕ) (hK : K ≤ N)
    (hs : ∀ (n : ℕ) (h : n < K), s (n + 1) = s n + g ⟨n, Nat.lt_of_lt_of_le h hK⟩) :
    ∀ n : ℕ, n ≤ K → s n = ∑ t ∈ Finset.univ.filter (fun t : Fin N => t.val < n), g t
  | 0, _ => by rw [h0, sum_lt_zero]
  | n + 1, h => by
    rw [hs n h, fold_eq_sum_lt s g h0 K hK hs n (Nat.le_of_succ_le h), sum_lt_succ]

end Cert.LibFoldSum
-- ==== Proof.KIValue1.lean ====
import proofs.«108306_j10282151706735_1_alg».proof.Proof.KIPieces1
import proofs.«108306_j10282151706735_1_alg».proof.Proof.KIValue1Arr
import proofs.«108306_j10282151706735_1_alg».proof.Proof.KIPayloads
import proofs.«108306_j10282151706735_1_alg».proof.Proof.Spec
import proofs.«108306_j10282151706735_1_alg».proof.Proof.SpecSums
import proofs.«108306_j10282151706735_1_alg».proof.Proof.LibFoldSum
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open scoped BigOperators

/-! # The second region's output array, read

Point `t` of the grid is (edge block `t / 50`, node block `t % 50`). Along an edge block's row of points the
accumulator starts at zero and receives, per node block, at row `r` and feature `f`, the transformed feature `f` of
the block's node that the source word of entry `2048 · (t / 50) + r` names, if it names one of the block's nodes; at the
row's last point the output block is that total times the entry's weight, and the pipeline writes it back to rows
`2048 · (t / 50) …` of the output array. The 50 node blocks tile the nodes, so the total is the feature of the node the
source word names, or zero when it names none; the 342 edge blocks tile the array. So after the region the array
holds, at `(j, f)`, what entry `j` carries. -/

/-! ## After each point: the accumulator and the output's buffer as the payloads -/

section Pieces
variable {F : FTy → Type} [FloatOps F]
variable (V : (c : Dev nD) → (b : Ref sig .tc) → Buf (Elt F) ((c : Thread nD τ).loc b))

set_option maxHeartbeats 1000000 in
/-- The accumulator after the first point of a row: the zero block plus the node block's contribution. -/
theorem scratch1_first (c : Dev nD) (t : Fin cfg1.N) (h0 : t.val % 50 = 0) :
    (outsAt1 V c t.val t.isLt).2
      = k1_pay2 (grid1.coords t) (iblk1 V c 0 t) (iblk1 V c 2 t) (k1_pay1 (F := F)) := by
  have h1 : ¬t.val % 50 = 49 := by omega
  rw [outsAt1_A V c t h0 h1]
  dsimp only
  exact sout1_A_0_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t)

set_option maxHeartbeats 1000000 in
/-- The accumulator after any other point, from what the point before left. -/
theorem scratch1_next (c : Dev nD) (t : Fin cfg1.N) (h0 : ¬t.val % 50 = 0) :
    (outsAt1 V c t.val t.isLt).2
      = k1_pay2 (grid1.coords t) (iblk1 V c 0 t) (iblk1 V c 2 t) (outsAt1 V c (t.val - 1) (Nat.lt_of_le_of_lt (Nat.sub_le _ _) t.isLt)).2 := by
  by_cases h1 : t.val % 50 = 49
  · rw [outsAt1_C V c t h0 h1]
    dsimp only
    exact sout1_C_0_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) _
  · rw [outsAt1_B V c t h0 h1]
    dsimp only
    exact sout1_B_0_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) _

set_option maxHeartbeats 1000000 in
/-- The output's buffer after the last point of a row, from the accumulator after that point. -/
theorem out1_last (c : Dev nD) (t : Fin cfg1.N) (h1 : t.val % 50 = 49) :
    (outsAt1 V c t.val t.isLt).1 = k1_pay3 (outsAt1 V c t.val t.isLt).2 (iblk1 V c 1 t) := by
  have h0 : ¬t.val % 50 = 0 := by omega
  rw [outsAt1_C V c t h0 h1]
  dsimp only
  rw [out1_C_3_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2,
    sout1_C_0_eq c (grid1.coords t) (ms1_0 t) (hs1_0 t) (ms1_1 t) (hs1_1 t) (ms1_2 t) (hs1_2 t) (ms1_3 t) (hs1_3 t) scM1_0 (Memref.isWhole_whole _) _ _ (iblk1 V c 0 t) (iblk1 V c 1 t) (iblk1 V c 2 t) (outsAt1 V c (t.val - 1) (Nat.lt_of_le_of_lt (Nat.sub_le _ _) t.isLt)).2]

end Pieces

/-! ## The windows' blocks, read at an element -/

variable (V : (c : Dev nD) → (b : Ref sig .tc) → Buf (Elt Ideal) ((c : Thread nD τ).loc b))

/-- Consecutive points share an edge block 50 at a time, a node block one at a time. -/
theorem stride1_0 : grid1.stride 0 = 50 := by decide
theorem stride1_1 : grid1.stride 1 = 1 := by decide

/-- Point `t` of the grid is edge block `t / 50`, -/
theorem coords1_0 (t : Fin cfg1.N) : ((grid1.coords t) 0).val = t.val / 50 := by
  have hN : cfg1.N = 17100 := N_1
  have ht := t.isLt
  show t.val / grid1.stride 0 % 342 = t.val / 50
  rw [stride1_0]; omega

/-- node block `t % 50`. -/
theorem coords1_1 (t : Fin cfg1.N) : ((grid1.coords t) 1).val = t.val % 50 := by
  show t.val / grid1.stride 1 % 50 = t.val % 50
  rw [stride1_1, Nat.div_one]

/-- A number below `2 ^ 32` read back from its 32-bit word. -/
theorem toNat_ofNat_small1 (n : ℕ) (hn : n < 4294967296) : (BitVec.ofNat 32 n).toNat = n := by
  rw [BitVec.toNat_ofNat]; exact Nat.mod_eq_of_lt hn

/-- The grid's coordinates and the printed index maps at point `t`: the sources', the weights' and the output's windows
    sit at the edge block, the features' window at the node block. -/
theorem idx_facts1 (t : Fin cfg1.N) : ((grid1.coords t) 1).val = t.val % 50
    ∧ win1_0.index t (0 : Fin 1) = t.val / 50
    ∧ win1_1.index t (0 : Fin 1) = t.val / 50
    ∧ win1_2.index t (0 : Fin 2) = t.val % 50 ∧ win1_2.index t (1 : Fin 2) = 0
    ∧ win1_3.index t (0 : Fin 2) = t.val / 50 ∧ win1_3.index t (1 : Fin 2) = 0 := by
  have hN : cfg1.N = 17100 := N_1
  have ht := t.isLt
  have e0 := coords1_0 t
  have e1 := coords1_1 t
  refine ⟨e1, ?_, ?_, ?_, rfl, ?_, rfl⟩
  · show (BitVec.ofNat 32 ((grid1.coords t) 0).val).toNat = t.val / 50
    rw [e0, toNat_ofNat_small1 _ (by omega)]
  · show (BitVec.ofNat 32 ((grid1.coords t) 0).val).toNat = t.val / 50
    rw [e0, toNat_ofNat_small1 _ (by omega)]
  · show (BitVec.ofNat 32 ((grid1.coords t) 1).val).toNat = t.val % 50
    rw [e1, toNat_ofNat_small1 _ (by omega)]
  · show (BitVec.ofNat 32 ((grid1.coords t) 0).val).toNat = t.val / 50
    rw [e0, toNat_ofNat_small1 _ (by omega)]

/-- Entry `r` of the sources' block at point `t` is entry `2048 · (t / 50) + r` of the list. -/
theorem iblk1_row (c : Dev nD) (t : Fin cfg1.N) (r : Fin 2048) (j : Fin 700416) (hj : j.val = t.val / 50 * 2048 + r.val) :
    iblk1 V c 0 t (ix1 r) = V c main_v33 (ix1 j) := by
  obtain ⟨-, e0, -⟩ := idx_facts1 t
  unfold iblk1
  rw [View.read_apply]
  show V c main_v33 (((cfg1.win 0).blk t).view.emb (ix1 r)) = V c main_v33 _
  refine congrArg (V c main_v33) ?_
  funext a; apply Fin.ext
  match a with
  | ⟨0, _⟩ => show win1_0.index t (0 : Fin 1) * 2048 + 1 * r.val = j.val; rw [e0, hj]; omega

/-- Entry `r` of the weights' block at point `t` is entry `2048 · (t / 50) + r` of the list. -/
theorem iblk1_nrm (c : Dev nD) (t : Fin cfg1.N) (r : Fin 2048) (j : Fin 700416) (hj : j.val = t.val / 50 * 2048 + r.val) :
    iblk1 V c 1 t (ix1 r) = V c main_v37 (ix1 j) := by
  obtain ⟨-, -, e0, -⟩ := idx_facts1 t
  unfold iblk1
  rw [View.read_apply]
  show V c main_v37 (((cfg1.win 1).blk t).view.emb (ix1 r)) = V c main_v37 _
  refine congrArg (V c main_v37) ?_
  funext a; apply Fin.ext
  match a with
  | ⟨0, _⟩ => show win1_1.index t (0 : Fin 1) * 2048 + 1 * r.val = j.val; rw [e0, hj]; omega

/-- Row `q` of the features' block at point `t` is row `2000 · (t % 50) + q` of the transformed features. -/
theorem iblk1_feat (c : Dev nD) (t : Fin cfg1.N) (q : Fin 2000) (f : Fin 128) (v : Fin 100000) (hv : v.val = t.val % 50 * 2000 + q.val) :
    iblk1 V c 2 t (ix2 q f) = V c main_v38 (ix2 v f) := by
  obtain ⟨-, -, -, e0, e1, -⟩ := idx_facts1 t
  unfold iblk1
  rw [View.read_apply]
  show V c main_v38 (((cfg1.win 2).blk t).view.emb (ix2 q f)) = V c main_v38 _
  refine congrArg (V c main_v38) ?_
  funext a; apply Fin.ext
  match a with
  | ⟨0, _⟩ => show win1_2.index t (0 : Fin 2) * 2000 + 1 * q.val = v.val; rw [e0, hv]; omega
  | ⟨1, _⟩ => show win1_2.index t (1 : Fin 2) * 128 + 1 * f.val = f.val; rw [e1]; omega

/-! ## The running total -/

/-- The entries' sources and weights and the transformed features, as the region finds them. -/
abbrev src1 (c : Dev nD) : Fin 700416 → BitVec 32 := fun j => V c main_v33 (ix1 j)
abbrev nrm1 (c : Dev nD) : Fin 700416 → EReal := fun j => V c main_v37 (ix1 j)
abbrev feat1 (c : Dev nD) : Fin 100000 → Fin 128 → EReal := fun v f => V c main_v38 (ix2 v f)

/-- Feature `f` of the node of block `nb` that the word `w` names, zero when it names none of the block's nodes. -/
def contrib1 (c : Dev nD) (w : BitVec 32) (f : Fin 128) (nb : Fin 50) : EReal :=
  ∑ q : Fin 2000,
    if w = BitVec.ofNat 32 (nb.val * 2000 + q.val)
      then feat1 V c ⟨nb.val * 2000 + q.val, Cert.LibSumBlocks.block_pos_lt rfl nb q⟩ f else 0

/-- Row `r` of the edge block of position `n`, as an entry of the list. -/
def entry1 (n : ℕ) (hn : n < cfg1.N) (r : Fin 2048) : Fin 700416 :=
  ⟨n / 50 * 2048 + r.val, by have hN : cfg1.N = 17100 := N_1; have := r.isLt; omega⟩

/-- One step of the accumulation at point `t`, at row `r` and feature `f`: the one-hot product adds what the point's node
    block holds for the row's source word. -/
theorem acc1_step (c : Dev nD) (t : Fin cfg1.N) (acc : Vec Ideal S2048x128 .f32) (r : Fin 2048) (f : Fin 128) :
    k1_pay2 (F := Ideal) (grid1.coords t) (iblk1 V c 0 t) (iblk1 V c 2 t) acc (ix2 r f)
      = acc (ix2 r f) + contrib1 V c (src1 V c (entry1 t.val t.isLt r)) f ⟨t.val % 50, Nat.mod_lt _ (by decide)⟩ := by
  refine (pay1_acc (grid1.coords t) (iblk1 V c 0 t) (iblk1 V c 2 t) acc r f).trans ?_
  refine congrArg (acc (ix2 r f) + ·) ?_
  obtain ⟨e0, -⟩ := idx_facts1 t
  unfold contrib1
  refine Finset.sum_congr rfl fun q _ => ?_
  rw [iblk1_row V c t r (entry1 t.val t.isLt r) rfl,
    iblk1_feat V c t q f ⟨t.val % 50 * 2000 + q.val, Cert.LibSumBlocks.block_pos_lt rfl ⟨t.val % 50, Nat.mod_lt _ (by decide)⟩ q⟩ rfl, e0]

/-- THE RUNNING TOTAL. After position `n` the accumulator holds, at row `r` and feature `f`, what the node blocks up to
    the position's hold for the row's source word — by induction on the position. -/
theorem scratch1_sum (c : Dev nD) (r : Fin 2048) (f : Fin 128) : ∀ (n : ℕ) (hn : n < cfg1.N),
    (outsAt1 V c n hn).2 (ix2 r f)
      = ∑ nb ∈ Finset.univ.filter (fun nb : Fin 50 => nb.val < n % 50 + 1), contrib1 V c (src1 V c (entry1 n hn r)) f nb
  | n, hn => by
    rw [Cert.LibFoldSum.sum_lt_succ _ (n % 50) (Nat.mod_lt _ (by decide))]
    by_cases h0 : n % 50 = 0
    · have e : (outsAt1 V c n hn).2
          = k1_pay2 (grid1.coords ⟨n, hn⟩) (iblk1 V c 0 ⟨n, hn⟩) (iblk1 V c 2 ⟨n, hn⟩) (k1_pay1 (F := Ideal)) :=
        scratch1_first V c ⟨n, hn⟩ h0
      have hz : ∑ nb ∈ Finset.univ.filter (fun nb : Fin 50 => nb.val < n % 50), contrib1 V c (src1 V c (entry1 n hn r)) f nb = 0 := by
        rw [h0]; exact Cert.LibFoldSum.sum_lt_zero _
      rw [e, acc1_step V c ⟨n, hn⟩ _ r f, pay1_zero, zero_add, hz, zero_add]
    · obtain ⟨m, rfl⟩ : ∃ m, n = m + 1 := ⟨n - 1, by omega⟩
      have e1 : (m + 1) % 50 = m % 50 + 1 := by omega
      have e2 : (m + 1) / 50 = m / 50 := by omega
      have e : (outsAt1 V c (m + 1) hn).2
          = k1_pay2 (grid1.coords ⟨m + 1, hn⟩) (iblk1 V c 0 ⟨m + 1, hn⟩) (iblk1 V c 2 ⟨m + 1, hn⟩)
              (outsAt1 V c m (Nat.lt_of_succ_lt hn)).2 := scratch1_next V c ⟨m + 1, hn⟩ h0
      have en : entry1 (m + 1) hn r = entry1 m (Nat.lt_of_succ_lt hn) r :=
        Fin.ext (by show (m + 1) / 50 * 2048 + r.val = m / 50 * 2048 + r.val; rw [e2])
      rw [e, acc1_step V c ⟨m + 1, hn⟩ _ r f, scratch1_sum c r f m (Nat.lt_of_succ_lt hn)]
      refine congrArg₂ (· + ·) ?_ rfl
      rw [en, e1]

/-! ## The array after the region -/

/-- After the last point of an edge block's row the output block holds, at row `r` and feature `f`, what entry
    `2048 · (t / 50) + r` carries: the 50 node blocks' totals are the features of the node its source word names
    (zero when it names none), times its weight. -/
theorem lastBlock1 (c : Dev nD) : LastBlock V c := by
  intro t h1 r f hr
  have hfeat : (∑ nb : Fin 50, contrib1 V c (src1 V c (entry1 t.val t.isLt r)) f nb)
      = Cert.Spec.featAt (feat1 V c) (src1 V c (entry1 t.val t.isLt r)) f := by
    unfold contrib1
    exact Cert.Spec.featAt_blocks (feat1 V c) (src1 V c (entry1 t.val t.isLt r)) f
  rw [out1_last V c t h1, pay1_out, scratch1_sum V c r f t.val t.isLt, h1,
    Cert.LibFoldSum.sum_lt_all _ (49 + 1) (by decide), hfeat,
    iblk1_nrm V c t r ⟨t.val / 50 * 2048 + r.val, hr⟩ rfl]
  rfl

/-- After the region the output array holds what the entries carry. -/
theorem final1 (c : Dev nD) : (dat1 V c).arrAt 3 cfg1.N
    = fun i => Cert.Spec.msg (E := 700416) (fun v f => V c main_v38 (ix2 v f)) (fun j => V c main_v33 (ix1 j))
        (fun j => V c main_v37 (ix1 j)) (i 0) (i 1) :=
  final1_of V c (lastBlock1 V c)

end Cert.KernelIdeal.Hand

end
-- ==== Proof.KIValue2Arr.lean ====
/-
  The scatter region's output array, read. Point t of the grid is (node block t / 342, edge block t % 342). The
  pipeline writes the output block back only at the last point of a node block's row (t % 342 = 341), to rows
  2000 · (t / 342) … 2000 · (t / 342) + 1999 of the result array; the 50 blocks tile the array: row v lies in node
  block v / 2000, written back at point (v / 2000) · 342 + 341. So once each such block is known to hold the layer's
  result at its 2000 nodes, the array after the region holds the layer's result.
-/
import proofs.«108306_j10282151706735_1_alg».proof.Proof.KIRegion2
import proofs.«108306_j10282151706735_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- The layer's result from the arrays the region finds (the targets, the messages, the bias): what each node
    receives over all entries, plus the bias, cut off below at zero — as contents of the region's output array. -/
abbrev outArr2 (c : Dev nD) : S100000x128.Idx → EReal :=
  fun i => max (Cert.Spec.agg (E := 700416) (fun j => V c main_v35 (ix1 j)) (fun j f => V c main_v39 (ix2 j f)) (i 0) (i 1)
    + V c main_v40 (ix2 (0 : Fin 1) (i 1))) (Ideal.ofBits .f32 0x00000000#32)

/-- The output window's printed index map, decided over the grid: at point t it sits at block (t / 342, 0). -/
theorem idx_facts2_out : ∀ t : Fin cfg2.N, win2_3.index t (0 : Fin 2) = t.val / 342 ∧ win2_3.index t (1 : Fin 2) = 0 :=
  (by decide +kernel : ∀ t : Fin grid2.N, win2_3.index t (0 : Fin 2) = t.val / 342 ∧ win2_3.index t (1 : Fin 2) = 0)

/-- THE BLOCK'S VALUE, as this file takes it: after the last point of a node block's row the output block holds, at
    row r and feature f, the layer's result at node 2000 · (t / 342) + r. -/
def LastBlock2 (c : Dev nD) : Prop :=
  ∀ (t : Fin cfg2.N), t.val % 342 = 341 → ∀ (r : Fin 2000) (f : Fin 128) (hr : t.val / 342 * 2000 + r.val < 100000),
    (outsAt2 V c t.val t.isLt).1 (ix2 r f)
      = max (Cert.Spec.agg (E := 700416) (fun j => V c main_v35 (ix1 j)) (fun j f => V c main_v39 (ix2 j f))
            ⟨t.val / 342 * 2000 + r.val, hr⟩ f
          + V c main_v40 (ix2 (0 : Fin 1) f)) (Ideal.ofBits .f32 0x00000000#32)

/-- The result at an index given by its two coordinates. -/
theorem outArr2_ix2 (c : Dev nD) (n : Fin 100000) (f : Fin 128) :
    outArr2 V c (ix2 n f)
      = max (Cert.Spec.agg (E := 700416) (fun j => V c main_v35 (ix1 j)) (fun j f => V c main_v39 (ix2 j f)) n f
          + V c main_v40 (ix2 (0 : Fin 1) f)) (Ideal.ofBits .f32 0x00000000#32) := rfl

/-- What a point writes back, against ANY contents G of the array: if the output block holds, at row r and feature f,
    G at row 2000 · (t / 342) + r, then what the point writes back is its block of G. (G is kept a variable here: the
    block's position is all that matters, not what the array holds.) -/
theorem flushed2_read (c : Dev nD) (G : S100000x128.Idx → EReal) (t : Fin cfg2.N)
    (hG : ∀ (r : Fin 2000) (f : Fin 128) (hr : t.val / 342 * 2000 + r.val < 100000),
      (outsAt2 V c t.val t.isLt).1 (ix2 r f) = G (ix2 ⟨t.val / 342 * 2000 + r.val, hr⟩ f)) :
    (dat2 V c).flushed 3 t = ((cfg2.win 3).blk t).view.read (Elt Ideal) G := by
  have hN : t.val < 17100 := lt_of_lt_of_eq t.isLt (show cfg2.N = 17100 from N_2)
  obtain ⟨e0, e1⟩ := idx_facts2_out t
  show (cfg2.win 3).cut (grid2.coords t) ((dat2 V c).after 3 t) = _
  rw [after2_3]
  funext j
  obtain ⟨r, f, rfl⟩ : ∃ (r : Fin 2000) (f : Fin 128), j = ix2 r f := ⟨j 0, j 1, eq_ix2 j⟩
  have hr : t.val / 342 * 2000 + r.val < 100000 := by have := r.isLt; omega
  rw [View.read_apply]
  have hemb : ((cfg2.win 3).blk t).view.emb (ix2 r f) = ix2 (⟨t.val / 342 * 2000 + r.val, hr⟩ : Fin 100000) f := by
    funext a; apply Fin.ext
    match a with
    | ⟨0, _⟩ => show win2_3.index t (0 : Fin 2) * 2000 + 1 * r.val = t.val / 342 * 2000 + r.val; rw [e0]; omega
    | ⟨1, _⟩ => show win2_3.index t (1 : Fin 2) * 128 + 1 * f.val = f.val; rw [e1]; omega
  rw [hemb]
  exact hG r f hr

/-- What the last point of node block d's row writes back is block d of the result. -/
theorem flushed2_eq_of (c : Dev nD) (hlast : LastBlock2 V c) (t : Fin cfg2.N) (hf : (cfg2.win 3).flush t = true) :
    (dat2 V c).flushed 3 t = ((cfg2.win 3).blk t).view.read (Elt Ideal) (outArr2 V c) :=
  flushed2_read V c (outArr2 V c) t fun r f hr =>
    (hlast t ((flush2_3 t).mp hf) r f hr).trans (outArr2_ix2 V c _ f).symm

/-- An index of the array is in point t's output block iff each coordinate is in the block's range on its axis. -/
theorem mem_blk2_arr (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v41).slice (win2_3.rect t)).set ↔ _
  rw [View.set_slice_whole, Rect.mem_set_unit]
  exact Iff.rfl

/-- After the region the output array holds the layer's result: row v lies in node block v / 2000, which the last
    point of that block's row writes back. -/
theorem final2_of (c : Dev nD) (hlast : LastBlock2 V c) : (dat2 V c).arrAt 3 cfg2.N = outArr2 V c :=
  (dat2 V c).arrAt_eq_of_cover 3 (outArr2 V c) (flushed2_eq_of V c hlast) fun i => by
    have hi0 : (i 0).val < 100000 := (i 0).isLt
    have hi1 : (i 1).val < 128 := (i 1).isLt
    have hN : cfg2.N = 17100 := N_2
    refine ⟨⟨(i 0).val / 2000 * 342 + 341, by rw [hN]; omega⟩, (flush2_3 _).mpr (by dsimp only; omega), ?_⟩
    rw [mem_blk2_arr]
    obtain ⟨e0, e1⟩ := idx_facts2_out ⟨(i 0).val / 2000 * 342 + 341, by rw [hN]; omega⟩
    intro a
    match a with
    | ⟨0, _⟩ =>
      show win2_3.index _ (0 : Fin 2) * 2000 ≤ (i 0).val ∧ (i 0).val < win2_3.index _ (0 : Fin 2) * 2000 + 2000
      rw [e0]; dsimp only; omega
    | ⟨1, _⟩ =>
      show win2_3.index _ (1 : Fin 2) * 128 ≤ (i 1).val ∧ (i 1).val < win2_3.index _ (1 : Fin 2) * 128 + 128
      rw [e1]; omega

end Cert.KernelIdeal.Hand

end
-- ==== Proof.KIValue2.lean ====
import proofs.«108306_j10282151706735_1_alg».proof.Proof.KIRegion2
import proofs.«108306_j10282151706735_1_alg».proof.Proof.KIValue2Arr
import proofs.«108306_j10282151706735_1_alg».proof.Proof.KIPayloads
import proofs.«108306_j10282151706735_1_alg».proof.Proof.Spec
import proofs.«108306_j10282151706735_1_alg».proof.Proof.SpecSums
import proofs.«108306_j10282151706735_1_alg».proof.Proof.LibFoldSum
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic Idealize.SL.Sem
open Idealize.ShloMosaic.Pipeline (Dat)
open scoped BigOperators

/-! # The third region's output array, read

Point `t` of the grid is (node block `t / 342`, edge block `t % 342`). Along a node block's row of points the
accumulator starts at zero and receives, per edge block, at row `r` and feature `f`, the sum of the messages of the
block's entries whose target is node `2000 · (t / 342) + r`; at the row's last point the output block is that total plus
the bias, cut off below at zero: at row `r` and feature `f`, what node `2000 · (t / 342) + r` receives over all 700416
entries (the 342 blocks of 2048 walked), plus the bias, cut off below at zero. -/

/-! ## What the found pieces are: each case's stores, read back as the payloads -/

section Pieces
variable {F : FTy → Type} [FloatOps F]

theorem hz2s : (![0, 0] : Fin 2 → Nat) = fun _ => 0 := funext fun a => by fin_cases a <;> rfl
theorem hz1s : (![0] : Fin 1 → Nat) = fun _ => 0 := funext fun a => by fin_cases a <;> rfl

/-- An inner point leaves in the accumulator what it held plus the edge block's contribution. -/
theorem sout2_B_eq (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : ¬cond2_1 i)
    (x0 : Vec F S2048 .i32) (x1 : Vec F S2048x128 .f32) (x2 : Vec F S1x128 .f32) (xs0 : Vec F S2000x128 .f32) :
    sout2_B_0 c i arg2 harg2 arg3 harg3 arg4 harg4 arg5 harg5 arg6 harg6 hc0 hc1 x0 x1 x2 xs0 = k2_pay2 i x0 x1 xs0 := by
  unfold sout2_B_0
  rw [View.read_writes_eq_canon _ _ _ (scover2_B_0 c i arg2 harg2 arg3 harg3 arg4 harg4 arg5 harg5 arg6 harg6 hc0 hc1 x0 x1 x2 xs0)]
  unfold kernelRun2_B
  dsimp only
  rw [View.canon_unit_zero hz2s]
  simp only [View.readAt_eq_ld, harg2.read_unread, harg3.read_unread, harg4.read_unread, harg6.read_unread, View.ld_unit_zero (S := S2048) hz1s, View.ld_unit_zero (S := S2048x128) hz2s, View.ld_unit_zero (S := S2000x128) hz2s, View.ld_unit_zero (S := S1x128) hz2s, shapeCast_self]

/-- So does the last point of a row; -/
theorem sout2_C_eq (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) :
    sout2_C_0 c i arg2 harg2 arg3 harg3 arg4 harg4 arg5 harg5 arg6 harg6 hc0 hc1 x0 x1 x2 xs0 = k2_pay2 i x0 x1 xs0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero hz2s]
  simp only [View.readAt_eq_ld, harg2.read_unread, harg3.read_unread, harg4.read_unread, harg6.read_unread, View.ld_unit_zero (S := S2048) hz1s, View.ld_unit_zero (S := S2048x128) hz2s, View.ld_unit_zero (S := S2000x128) hz2s, View.ld_unit_zero (S := S1x128) hz2s, shapeCast_self]

/-- and it leaves in the output's buffer that total plus the bias, cut off below at zero. -/
theorem out2_C_eq (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : ¬cond2_0 i) (hc1 : cond2_1 i)
    (x0 : Vec F S2048 .i32) (x1 : Vec F S2048x128 .f32) (x2 : Vec F S1x128 .f32) (xs0 : Vec F S2000x128 .f32) :
    out2_C_3 c i arg2 harg2 arg3 harg3 arg4 harg4 arg5 harg5 arg6 harg6 hc0 hc1 x0 x1 x2 xs0 = k2_pay3 (k2_pay2 i x0 x1 xs0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero hz2s, View.readCov_unit_zero (S := S2000x128) _ hz2s]
  simp only [View.readAt_eq_ld, harg2.read_unread, harg3.read_unread, harg4.read_unread, harg6.read_unread, View.ld_unit_zero (S := S2048) hz1s, View.ld_unit_zero (S := S2048x128) hz2s, View.ld_unit_zero (S := S2000x128) hz2s, View.ld_unit_zero (S := S1x128) hz2s, shapeCast_self]

/-- The first point of a row leaves in the accumulator the zero block plus the edge block's contribution: the zero
    block it stored is what it reads back. -/
theorem sout2_A_eq (c : Dev nD) (i : grid2.Coords) (arg2 : Memref sig .tc .vmem S2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S2000x128 .f32) (harg6 : arg6.IsWhole) (hc0 : cond2_0 i) (hc1 : ¬cond2_1 i)
    (x0 : Vec F S2048 .i32) (x1 : Vec F S2048x128 .f32) (x2 : Vec F S1x128 .f32) :
    sout2_A_0 c i arg2 harg2 arg3 harg3 arg4 harg4 arg5 harg5 arg6 harg6 hc0 hc1 x0 x1 x2 = k2_pay2 i x0 x1 (k2_pay1 (F := F)) := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S2000x128) hz2s, View.readCov_unit_zero (S := S2000x128) _ hz2s]
  simp only [View.readAt_eq_ld, harg2.read_unread, harg3.read_unread, harg4.read_unread, harg6.read_unread, View.ld_unit_zero (S := S2048) hz1s, View.ld_unit_zero (S := S2048x128) hz2s, View.ld_unit_zero (S := S2000x128) hz2s, View.ld_unit_zero (S := S1x128) hz2s, shapeCast_self]

variable (V : (c : Dev nD) → (b : Ref sig .tc) → Buf (Elt F) ((c : Thread nD τ).loc b))

set_option maxHeartbeats 1000000 in
/-- The accumulator after the first point of a row. -/
theorem scratch_first (c : Dev nD) (t : Fin cfg2.N) (h0 : t.val % 342 = 0) :
    (outsAt2 V c t.val t.isLt).2
      = k2_pay2 (grid2.coords t) (iblk2 V c 0 t) (iblk2 V c 1 t) (k2_pay1 (F := F)) := by
  have h1 : ¬t.val % 342 = 341 := by omega
  rw [outsAt2_A V c t h0 h1]
  dsimp only
  exact sout2_A_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t)

set_option maxHeartbeats 1000000 in
/-- The accumulator after any other point, from what the point before left. -/
theorem scratch_next (c : Dev nD) (t : Fin cfg2.N) (h0 : ¬t.val % 342 = 0) :
    (outsAt2 V c t.val t.isLt).2
      = k2_pay2 (grid2.coords t) (iblk2 V c 0 t) (iblk2 V c 1 t)
          (outsAt2 V c (t.val - 1) (Nat.lt_of_le_of_lt (Nat.sub_le _ _) t.isLt)).2 := by
  by_cases h1 : t.val % 342 = 341
  · rw [outsAt2_C V c t h0 h1]
    dsimp only
    exact sout2_C_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) _
  · rw [outsAt2_B V c t h0 h1]
    dsimp only
    exact sout2_B_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) _

set_option maxHeartbeats 1000000 in
/-- The output's buffer after the last point of a row, from the accumulator after that point. -/
theorem out_last (c : Dev nD) (t : Fin cfg2.N) (h1 : t.val % 342 = 341) :
    (outsAt2 V c t.val t.isLt).1 = k2_pay3 (outsAt2 V c t.val t.isLt).2 (iblk2 V c 2 t) := by
  have h0 : ¬t.val % 342 = 0 := by omega
  rw [outsAt2_C V c t h0 h1]
  dsimp only
  rw [out2_C_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) (outsAt2 V c (t.val - 1) (Nat.lt_of_le_of_lt (Nat.sub_le _ _) t.isLt)).2,
    sout2_C_eq c (grid2.coords t) (ms2_0 t) (hs2_0 t) (ms2_1 t) (hs2_1 t) (ms2_2 t) (hs2_2 t) (ms2_3 t) (hs2_3 t) scM2_0 (Memref.isWhole_whole _) _ _ (iblk2 V c 0 t) (iblk2 V c 1 t) (iblk2 V c 2 t) (outsAt2 V c (t.val - 1) (Nat.lt_of_le_of_lt (Nat.sub_le _ _) t.isLt)).2]

end Pieces

/-! ## The windows' blocks, read at an element -/

variable (V : (c : Dev nD) → (b : Ref sig .tc) → Buf (Elt Ideal) ((c : Thread nD τ).loc b))

/-- Consecutive points share a node block 342 at a time, an edge block one at a time. -/
theorem stride2_0 : grid2.stride 0 = 342 := by decide
theorem stride2_1 : grid2.stride 1 = 1 := by decide

/-- Point `t` of the grid is node block `t / 342`, -/
theorem coords2_0 (t : Fin cfg2.N) : ((grid2.coords t) 0).val = t.val / 342 := by
  have hN : cfg2.N = 17100 := N_2
  have ht := t.isLt
  show t.val / grid2.stride 0 % 50 = t.val / 342
  rw [stride2_0]; omega

/-- edge block `t % 342`. -/
theorem coords2_1 (t : Fin cfg2.N) : ((grid2.coords t) 1).val = t.val % 342 := by
  show t.val / grid2.stride 1 % 342 = t.val % 342
  rw [stride2_1, Nat.div_one]

/-- A number below `2 ^ 32` read back from its 32-bit word. -/
theorem toNat_ofNat_small2 (n : ℕ) (hn : n < 4294967296) : (BitVec.ofNat 32 n).toNat = n := by
  rw [BitVec.toNat_ofNat]; exact Nat.mod_eq_of_lt hn

/-- The grid's coordinates and the printed index maps at a point: point `t` is (node block `t / 342`, edge block
    `t % 342`); the targets' and the messages' windows sit at the edge block, the bias window at its one block, the
    output window at the node block. -/
theorem idx_facts2 (t : Fin cfg2.N) : ((grid2.coords t) 0).val = t.val / 342
    ∧ win2_0.index t (0 : Fin 1) = t.val % 342
    ∧ win2_1.index t (0 : Fin 2) = t.val % 342 ∧ win2_1.index t (1 : Fin 2) = 0
    ∧ win2_2.index t (0 : Fin 2) = 0 ∧ win2_2.index t (1 : Fin 2) = 0
    ∧ win2_3.index t (0 : Fin 2) = t.val / 342 ∧ win2_3.index t (1 : Fin 2) = 0 := by
  have hN : cfg2.N = 17100 := N_2
  have ht := t.isLt
  have e0 := coords2_0 t
  have e1 := coords2_1 t
  refine ⟨e0, ?_, ?_, rfl, rfl, rfl, ?_, rfl⟩
  · show (BitVec.ofNat 32 ((grid2.coords t) 1).val).toNat = t.val % 342
    rw [e1, toNat_ofNat_small2 _ (by omega)]
  · show (BitVec.ofNat 32 ((grid2.coords t) 1).val).toNat = t.val % 342
    rw [e1, toNat_ofNat_small2 _ (by omega)]
  · show (BitVec.ofNat 32 ((grid2.coords t) 0).val).toNat = t.val / 342
    rw [e0, toNat_ofNat_small2 _ (by omega)]

/-- Entry `q` of the targets' block at point `t` is entry `2048 · (t % 342) + q` of the list. -/
theorem iblk2_col (c : Dev nD) (t : Fin cfg2.N) (q : Fin 2048) (j : Fin 700416) (hj : j.val = t.val % 342 * 2048 + q.val) :
    iblk2 V c 0 t (ix1 q) = V c main_v35 (ix1 j) := by
  obtain ⟨-, e0, -⟩ := idx_facts2 t
  unfold iblk2
  rw [View.read_apply]
  show V c main_v35 (((cfg2.win 0).blk t).view.emb (ix1 q)) = V c main_v35 _
  refine congrArg (V c main_v35) ?_
  funext a; apply Fin.ext
  match a with
  | ⟨0, _⟩ => show win2_0.index t (0 : Fin 1) * 2048 + 1 * q.val = j.val; rw [e0, hj]; omega

/-- Row `q` of the messages' block at point `t` is row `2048 · (t % 342) + q` of the messages. -/
theorem iblk2_msg (c : Dev nD) (t : Fin cfg2.N) (q : Fin 2048) (f : Fin 128) (j : Fin 700416) (hj : j.val = t.val % 342 * 2048 + q.val) :
    iblk2 V c 1 t (ix2 q f) = V c main_v39 (ix2 j f) := by
  obtain ⟨-, -, e0, e1, -⟩ := idx_facts2 t
  unfold iblk2
  rw [View.read_apply]
  show V c main_v39 (((cfg2.win 1).blk t).view.emb (ix2 q f)) = V c main_v39 _
  refine congrArg (V c main_v39) ?_
  funext a; apply Fin.ext
  match a with
  | ⟨0, _⟩ => show win2_1.index t (0 : Fin 2) * 2048 + 1 * q.val = j.val; rw [e0, hj]; omega
  | ⟨1, _⟩ => show win2_1.index t (1 : Fin 2) * 128 + 1 * f.val = f.val; rw [e1]; omega

/-- The bias block at any point is the bias. -/
theorem iblk2_bias (c : Dev nD) (t : Fin cfg2.N) (u : Fin 1) (f : Fin 128) :
    iblk2 V c 2 t (ix2 u f) = V c main_v40 (ix2 u f) := by
  obtain ⟨-, -, -, -, e0, e1, -⟩ := idx_facts2 t
  unfold iblk2
  rw [View.read_apply]
  show V c main_v40 (((cfg2.win 2).blk t).view.emb (ix2 u f)) = V c main_v40 _
  refine congrArg (V c main_v40) ?_
  funext a; apply Fin.ext
  match a with
  | ⟨0, _⟩ => show win2_2.index t (0 : Fin 2) * 1 + 1 * u.val = u.val; rw [e0]; omega
  | ⟨1, _⟩ => show win2_2.index t (1 : Fin 2) * 128 + 1 * f.val = f.val; rw [e1]; omega

/-! ## The running total -/

/-- The entries' targets and what they carry, as the region finds them. -/
abbrev dst2 (c : Dev nD) : Fin 700416 → BitVec 32 := fun j => V c main_v35 (ix1 j)
abbrev msg2 (c : Dev nD) : Fin 700416 → Fin 128 → EReal := fun j f => V c main_v39 (ix2 j f)

/-- What the entries of edge block `eb` whose target is node `v` carry, in feature `f`, summed. -/
def contrib2 (c : Dev nD) (v : Fin 100000) (f : Fin 128) (eb : Fin 342) : EReal :=
  ∑ q : Fin 2048,
    if BitVec.ofNat 32 v.val = dst2 V c ⟨eb.val * 2048 + q.val, Cert.LibSumBlocks.block_pos_lt rfl eb q⟩
      then msg2 V c ⟨eb.val * 2048 + q.val, Cert.LibSumBlocks.block_pos_lt rfl eb q⟩ f else 0

/-- Row `r` of the node block of position `n`, as a node. -/
def node2 (n : ℕ) (hn : n < cfg2.N) (r : Fin 2000) : Fin 100000 :=
  ⟨n / 342 * 2000 + r.val, by have hN : cfg2.N = 17100 := N_2; have := r.isLt; omega⟩

/-- The targets' and the messages' blocks at point `t`, as vectors. -/
abbrev cols2 (c : Dev nD) (t : Fin cfg2.N) : Vec Ideal S2048 .i32 := iblk2 V c 0 t
abbrev msgs2 (c : Dev nD) (t : Fin cfg2.N) : Vec Ideal S2048x128 .f32 := iblk2 V c 1 t

/-- The one-hot product at point `t`, at row `r` and feature `f`, is the point's edge block's contribution to the row's
    node. -/
theorem block_term (c : Dev nD) (t : Fin cfg2.N) (r : Fin 2000) (f : Fin 128) :
    (∑ q : Fin 2048, if BitVec.ofNat 32 (((grid2.coords t) 0).val * 2000 + r.val) = cols2 V c t (ix1 q)
        then msgs2 V c t (ix2 q f) else 0)
      = contrib2 V c (node2 t.val t.isLt r) f ⟨t.val % 342, Nat.mod_lt _ (by decide)⟩ := by
  obtain ⟨e0, -⟩ := idx_facts2 t
  unfold contrib2
  refine Finset.sum_congr rfl fun q _ => ?_
  have ec : cols2 V c t (ix1 q) = V c main_v35 (ix1 ⟨t.val % 342 * 2048 + q.val, Cert.LibSumBlocks.block_pos_lt rfl ⟨t.val % 342, Nat.mod_lt _ (by decide)⟩ q⟩) :=
    iblk2_col V c t q _ rfl
  have em : msgs2 V c t (ix2 q f) = V c main_v39 (ix2 ⟨t.val % 342 * 2048 + q.val, Cert.LibSumBlocks.block_pos_lt rfl ⟨t.val % 342, Nat.mod_lt _ (by decide)⟩ q⟩ f) :=
    iblk2_msg V c t q f _ rfl
  rw [ec, em, e0]
  rfl

/-- THE RUNNING TOTAL. After position `n` the accumulator holds, at row `r` and feature `f`, the contributions to the
    row's node of the edge blocks up to the position's — by induction on the position. -/
theorem scratch_sum (c : Dev nD) (r : Fin 2000) (f : Fin 128) : ∀ (n : ℕ) (hn : n < cfg2.N),
    (outsAt2 V c n hn).2 (ix2 r f)
      = ∑ eb ∈ Finset.univ.filter (fun eb : Fin 342 => eb.val < n % 342 + 1), contrib2 V c (node2 n hn r) f eb
  | n, hn => by
    rw [Cert.LibFoldSum.sum_lt_succ _ (n % 342) (Nat.mod_lt _ (by decide))]
    by_cases h0 : n % 342 = 0
    · have e : (outsAt2 V c n hn).2 = k2_pay2 (grid2.coords ⟨n, hn⟩) (iblk2 V c 0 ⟨n, hn⟩) (iblk2 V c 1 ⟨n, hn⟩) (k2_pay1 (F := Ideal)) :=
        scratch_first V c ⟨n, hn⟩ h0
      have hz : ∑ eb ∈ Finset.univ.filter (fun eb : Fin 342 => eb.val < n % 342), contrib2 V c (node2 n hn r) f eb = 0 := by
        rw [h0]; exact Cert.LibFoldSum.sum_lt_zero _
      rw [e, pay2_acc (grid2.coords ⟨n, hn⟩) (iblk2 V c 0 ⟨n, hn⟩) (iblk2 V c 1 ⟨n, hn⟩) _ r f, pay2_zero, zero_add,
        block_term V c ⟨n, hn⟩ r f, hz, zero_add]
    · obtain ⟨m, rfl⟩ : ∃ m, n = m + 1 := ⟨n - 1, by omega⟩
      have e1 : (m + 1) % 342 = m % 342 + 1 := by omega
      have e2 : (m + 1) / 342 = m / 342 := by omega
      have e : (outsAt2 V c (m + 1) hn).2 = k2_pay2 (grid2.coords ⟨m + 1, hn⟩) (iblk2 V c 0 ⟨m + 1, hn⟩) (iblk2 V c 1 ⟨m + 1, hn⟩)
          (outsAt2 V c m (Nat.lt_of_succ_lt hn)).2 := scratch_next V c ⟨m + 1, hn⟩ h0
      have en : node2 (m + 1) hn r = node2 m (Nat.lt_of_succ_lt hn) r :=
        Fin.ext (by show (m + 1) / 342 * 2000 + r.val = m / 342 * 2000 + r.val; rw [e2])
      rw [e, pay2_acc (grid2.coords ⟨m + 1, hn⟩) (iblk2 V c 0 ⟨m + 1, hn⟩) (iblk2 V c 1 ⟨m + 1, hn⟩) _ r f,
        block_term V c ⟨m + 1, hn⟩ r f, scratch_sum c r f m (Nat.lt_of_succ_lt hn)]
      refine congrArg₂ (· + ·) ?_ rfl
      rw [en, e1]

/-! ## The output block after the last point of a row -/

/-- The contributions of all 342 edge blocks to a node are what the node receives over all entries. -/
theorem contrib2_sum (c : Dev nD) (v : Fin 100000) (f : Fin 128) :
    (∑ eb : Fin 342, contrib2 V c v f eb) = Cert.Spec.agg (dst2 V c) (msg2 V c) v f := by
  unfold contrib2
  exact Cert.Spec.agg_blocks (dst2 V c) (msg2 V c) v f

/-- THE BLOCK'S VALUE. After the last point of a node block's row the output block holds, at row `r` and feature `f`,
    the layer's result at node `2000 · (t / 342) + r`: what the node receives over all entries, plus the bias, cut off
    below at zero. -/
theorem lastBlock2 (c : Dev nD) (t : Fin cfg2.N) (h1 : t.val % 342 = 341) (r : Fin 2000) (f : Fin 128)
    (hr : t.val / 342 * 2000 + r.val < 100000) :
    (outsAt2 V c t.val t.isLt).1 (ix2 r f)
      = max (Cert.Spec.agg (E := 700416) (fun j => V c main_v35 (ix1 j)) (fun j f => V c main_v39 (ix2 j f))
            ⟨t.val / 342 * 2000 + r.val, hr⟩ f
          + V c main_v40 (ix2 (0 : Fin 1) f)) (Ideal.ofBits .f32 0x00000000#32) := by
  have hnode : node2 t.val t.isLt r = ⟨t.val / 342 * 2000 + r.val, hr⟩ := rfl
  rw [out_last V c t h1, pay2_out, scratch_sum V c r f t.val t.isLt, h1,
    Cert.LibFoldSum.sum_lt_all _ (341 + 1) (by decide), contrib2_sum, iblk2_bias, hnode]

/-! ## The array after the region -/

/-- After the region the output array holds the layer's result: each row lies in one node block, which the last point of
    that block's row writes back holding the result at its 2000 nodes. -/
theorem final2 (c : Dev nD) : (dat2 V c).arrAt 3 cfg2.N
    = fun i => max (Cert.Spec.agg (E := 700416) (fun j => V c main_v35 (ix1 j)) (fun j f => V c main_v39 (ix2 j f)) (i 0) (i 1)
        + V c main_v40 (ix2 (0 : Fin 1) (i 1))) (Ideal.ofBits .f32 0x00000000#32) :=
  final2_of V c (lastBlock2 V c)

end Cert.KernelIdeal.Hand

end
-- ==== Proof.KIHost.lean ====
import proofs.«108306_j10282151706735_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

/-!
# The arrays the host computes before the kernels, read at an index

Before the gather and scatter kernels run, the host pads the three per-edge lists (source node,
target node, weight) from 700000 to 700416 = 342 * 2048 entries: the source and target lists with
the node id 100000 (one past the last node), the weight list with zero. So entry `j` of a padded
list is entry `j` of the list when `j < 700000`, and the padding value otherwise. Before the
scatter kernel the host also views the bias vector `[128]` as a row `[1, 128]`.
-/

noncomputable section

namespace Cert.KernelIdeal.Hand

open Cert.KernelIdeal Cert.KernelIdeal.Gen Idealize.ShloMosaic Idealize.ShloMosaic.ValueIdx Idealize.ShloMosaic.StableHlo

variable {F : FTy → Type} [FloatOps F]

/-! ## A list followed by its padding, read at an index -/

/-- A vector of 700000 entries followed by 416 more reads, at `j`, the first at `j` when
`j < 700000` and the second at `j - 700000` otherwise. -/
theorem concat_pad_apply {α : Type} (x : S700000.Idx → α) (p : S416.Idx → α)
    (hc : Shape.Concatenates [S700000, S416] S700416 0) (j : Fin 700416) :
    concatenate S700416 0 [⟨S700000, x⟩, ⟨S416, p⟩] hc (ix1 j)
      = if h : j.val < 700000 then x (ix1 ⟨j.val, h⟩)
        else p (ix1 ⟨j.val - 700000, by have := j.isLt; omega⟩) := by
  by_cases h : j.val < 700000
  · rw [dif_pos h]
    exact concatenate_pair_apply_left 0 x p hc (ix1 j) rfl (ix1 ⟨j.val, h⟩)
      (fun b => match b with | ⟨0, _⟩ => rfl)
  · rw [dif_neg h]
    exact concatenate_pair_apply_right 0 x p hc (ix1 j) rfl rfl (ix1 ⟨j.val - 700000, by have := j.isLt; omega⟩)
      (fun b hb => absurd (Fin.ext (by have hb1 : b.val < 1 := b.isLt; show b.val = 0; omega)) hb)
      (by show j.val - 700000 + 700000 = j.val; omega)

/-! ## What the third host stretch leaves in the padded lists -/

section After
variable (W : Valuation τ sig (Elt F))

/-- The padded source list: the source list followed by 416 copies of the node id 100000. -/
theorem after_rowP :
    (StableHlo.after (hostOps0_2 (F := F)) W (Proc.devRef .tc main_v33) : S700416.Idx → BitVec 32)
      = concatenate S700416 0 [⟨S700000, (W (Proc.devRef .tc main_v5) : S700000.Idx → BitVec 32)⟩,
          ⟨S416, broadcastInDim S416 ![] bcast_S_S416 (constantI S_ 32 100000#32)⟩] concatenates_S700000_S416_S700416_d0 := by
  after_results

/-- The padded target list: the target list followed by 416 copies of the node id 100000. -/
theorem after_colP :
    (StableHlo.after (hostOps0_2 (F := F)) W (Proc.devRef .tc main_v35) : S700416.Idx → BitVec 32)
      = concatenate S700416 0 [⟨S700000, (W (Proc.devRef .tc main_v6) : S700000.Idx → BitVec 32)⟩,
          ⟨S416, broadcastInDim S416 ![] bcast_S_S416 (constantI S_ 32 100000#32)⟩] concatenates_S700000_S416_S700416_d0 := by
  after_results

/-- An edge's weight from the two lists of node ids and the nodes' inverse square root degrees: the
value at the source times the value at the target (a negative id counted from the end, as the host's
indexing does). -/
def nrmOf (src tgt : S700000.Idx → BitVec 32) (dinv : S100000.Idx → F .f32) : S700000.Idx → F .f32 :=
  mulf
    (Host.gather gather_S100000_S700000x1_S700000_n_0_n_n_0_1_1 dinv
      (broadcastInDim S700000x1 ![0] bcast_S700000_S700000x1_0
        (select (cmpi .slt src (broadcastInDim S700000 ![] bcast_S_S700000 (constantI S_ 32 0#32)))
          (addi src (broadcastInDim S700000 ![] bcast_S_S700000 (constantI S_ 32 100000#32))) src)))
    (Host.gather gather_S100000_S700000x1_S700000_n_0_n_n_0_1_1 dinv
      (broadcastInDim S700000x1 ![0] bcast_S700000_S700000x1_0
        (select (cmpi .slt tgt (broadcastInDim S700000 ![] bcast_S_S700000 (constantI S_ 32 0#32)))
          (addi tgt (broadcastInDim S700000 ![] bcast_S_S700000 (constantI S_ 32 100000#32))) tgt)))

set_option maxHeartbeats 1000000 in
/-- The weight list the third stretch computes. -/
theorem after_nrm :
    (StableHlo.after (hostOps0_2 (F := F)) W (Proc.devRef .tc main_v31) : S700000.Idx → F .f32)
      = nrmOf (W (Proc.devRef .tc main_v5)) (W (Proc.devRef .tc main_v6)) (W (Proc.devRef .tc main_v16)) := by
  unfold nrmOf
  after_results
  all_goals rfl

set_option maxHeartbeats 1000000 in
/-- The padded weight list: the weight list followed by 416 zeros. -/
theorem after_nrmP :
    (StableHlo.after (hostOps0_2 (F := F)) W (Proc.devRef .tc main_v37) : S700416.Idx → F .f32)
      = concatenate S700416 0 [⟨S700000, nrmOf (W (Proc.devRef .tc main_v5)) (W (Proc.devRef .tc main_v6)) (W (Proc.devRef .tc main_v16))⟩,
          ⟨S416, broadcastInDim S416 ![] bcast_S_S416 (constant (F := F) S_ .f32 0x00000000#32)⟩] concatenates_S700000_S416_S700416_d0 := by
  unfold nrmOf
  after_results
  all_goals rfl

/-- The bias viewed as a row, read at a lane. -/
theorem after_bias_apply (f : Fin 128) :
    (StableHlo.after (hostOps2 (F := F)) W (Proc.devRef .tc main_v40) : S1x128.Idx → F .f32) (ix2 (0 : Fin 1) f)
      = (W (Proc.devRef .tc main_arg3) : S128.Idx → F .f32) (ix1 f) := by
  have e : (StableHlo.after (hostOps2 (F := F)) W (Proc.devRef .tc main_v40) : S1x128.Idx → F .f32)
      = shapeCast S1x128 (W (Proc.devRef .tc main_arg3) : S128.Idx → F .f32) shapeCasts_S128_S1x128 := by
    after_results
    all_goals rfl
  rw [e, shapeCast_a_1a_apply]

end After

/-! ## The padded lists when the kernels start, read at an index -/

section Read
variable (m : (ℓ : Loc nD τ sig) → Buf (Elt F) ℓ) (c : Dev nD)

/-- Entry `j` of the padded source list. -/
theorem rowP_apply (j : Fin 700416) :
    (V3 m c (Proc.devRef .tc main_v33) : S700416.Idx → BitVec 32) (ix1 j)
      = if h : j.val < 700000 then (V3 m c (Proc.devRef .tc main_v5) : S700000.Idx → BitVec 32) (ix1 ⟨j.val, h⟩)
        else 100000#32 := by
  have e5 : V3 m c (Proc.devRef .tc main_v5) = V2 m c (Proc.devRef .tc main_v5) := V3_of m c main_v5 (by decide)
  rw [e5]
  show (StableHlo.after (hostOps0_2 (F := F)) (V2 m c) (Proc.devRef .tc main_v33) : S700416.Idx → BitVec 32) (ix1 j) = _
  rw [after_rowP, concat_pad_apply]
  rfl

/-- Entry `j` of the padded target list. -/
theorem colP_apply (j : Fin 700416) :
    (V3 m c (Proc.devRef .tc main_v35) : S700416.Idx → BitVec 32) (ix1 j)
      = if h : j.val < 700000 then (V3 m c (Proc.devRef .tc main_v6) : S700000.Idx → BitVec 32) (ix1 ⟨j.val, h⟩)
        else 100000#32 := by
  have e6 : V3 m c (Proc.devRef .tc main_v6) = V2 m c (Proc.devRef .tc main_v6) := V3_of m c main_v6 (by decide)
  rw [e6]
  show (StableHlo.after (hostOps0_2 (F := F)) (V2 m c) (Proc.devRef .tc main_v35) : S700416.Idx → BitVec 32) (ix1 j) = _
  rw [after_colP, concat_pad_apply]
  rfl

/-- Entry `j` of the padded weight list. -/
theorem nrmP_apply (j : Fin 700416) :
    (V3 m c (Proc.devRef .tc main_v37) : S700416.Idx → F .f32) (ix1 j)
      = if h : j.val < 700000 then (V3 m c (Proc.devRef .tc main_v31) : S700000.Idx → F .f32) (ix1 ⟨j.val, h⟩)
        else FloatOps.ofBits .f32 0x00000000#32 := by
  show (StableHlo.after (hostOps0_2 (F := F)) (V2 m c) (Proc.devRef .tc main_v37) : S700416.Idx → F .f32) (ix1 j)
    = if h : j.val < 700000 then
        (StableHlo.after (hostOps0_2 (F := F)) (V2 m c) (Proc.devRef .tc main_v31) : S700000.Idx → F .f32) (ix1 ⟨j.val, h⟩)
      else FloatOps.ofBits .f32 0x00000000#32
  rw [after_nrmP, after_nrm, concat_pad_apply]
  rfl

end Read

end Cert.KernelIdeal.Hand
-- ==== Proof.HostBridge.lean ====
import proofs.«108306_j10282151706735_1_alg».proof.Proof.KIHost
import proofs.«108306_j10282151706735_1_alg».proof.Proof.RefRead

/-!
# The two programs compute the same edge lists and weights on the host

The kernel's program and the reference derive, from the edge array alone, the list of source nodes
(the edges' sources followed by every node once, for the self loops), the list of target nodes, and
the per-edge weight `d(source)^(-1/2) * d(target)^(-1/2)` where `d` counts a node's incoming entries.
Both programs do so by the same sequence of host operations; here the buffers of the kernel's
program are identified with the reference's values of the same edge array.
-/

noncomputable section

namespace Cert.KernelIdeal.Hand

open Cert.KernelIdeal Cert.KernelIdeal.Gen Idealize.ShloMosaic Idealize.ShloMosaic.ValueIdx Idealize.ShloMosaic.StableHlo
open Cert.ReferenceIdeal.Read

variable {F : FTy → Type} [FloatOps F]

/-! ## The first host stretch: the lists of ids and the degrees -/

section Stage0
variable (W : Valuation τ sig (Elt F))

/-- The source list. -/
theorem after0_src :
    (StableHlo.after (hostOps0 (F := F)) W (Proc.devRef .tc main_v5) : S700000.Idx → BitVec 32)
      = val_main_v3 (F := F) (W (Proc.devRef .tc main_arg1)) := by
  unfold val_main_v3 val_main_v2 val_main_v1 val_main_v0
  after_results
  all_goals rfl

/-- The target list. -/
theorem after0_tgt :
    (StableHlo.after (hostOps0 (F := F)) W (Proc.devRef .tc main_v6) : S700000.Idx → BitVec 32)
      = val_main_v6 (F := F) (W (Proc.devRef .tc main_arg1)) := by
  unfold val_main_v6 val_main_v5 val_main_v4 val_main_v0
  after_results
  all_goals rfl

set_option maxHeartbeats 1000000 in
/-- Where a node has an incoming entry. -/
theorem after0_pos :
    (StableHlo.after (hostOps0 (F := F)) W (Proc.devRef .tc main_v12) : S100000.Idx → BitVec 1)
      = val_main_v12 (F := F) (W (Proc.devRef .tc main_arg1)) := by
  unfold val_main_v12 val_main_v11 val_main_cst_1 val_main_v10 val_main_v9 val_main_v8 val_main_cst_0 val_main_v7 val_main_cst
    val_main_v6 val_main_v5 val_main_v4 val_main_v0
  after_results
  all_goals rfl

set_option maxHeartbeats 1000000 in
/-- The inverse square root of the degree, the degree taken at least one. -/
theorem after0_rsqrt :
    (StableHlo.after (hostOps0 (F := F)) W (Proc.devRef .tc main_v15) : S100000.Idx → F .f32)
      = val_main_v15 (F := F) (W (Proc.devRef .tc main_arg1)) := by
  unfold val_main_v15 val_main_v14 val_main_v13 val_main_cst_2 val_main_v10 val_main_v9 val_main_v8 val_main_cst_0 val_main_v7 val_main_cst
    val_main_v6 val_main_v5 val_main_v4 val_main_v0
  after_results
  all_goals rfl

/-- The zero the next stretch selects where a node has no incoming entry. -/
theorem after0_zero :
    (StableHlo.after (hostOps0 (F := F)) W (Proc.devRef .tc main_cst_3) : S_.Idx → F .f32)
      = val_main_cst_3 (F := F) := by
  unfold val_main_cst_3
  after_results
  all_goals rfl

/-- The second stretch: the inverse square root degree where there is an incoming entry, else zero. -/
theorem after1_dinv :
    (StableHlo.after (hostOps0_1 (F := F)) W (Proc.devRef .tc main_v16) : S100000.Idx → F .f32)
      = select (W (Proc.devRef .tc main_v12) : S100000.Idx → BitVec 1) (W (Proc.devRef .tc main_v15) : S100000.Idx → F .f32)
          (broadcastInDim S100000 ![] bcast_S_S100000 (id (W (Proc.devRef .tc main_cst_3) : S_.Idx → F .f32))) := by
  after_results
  all_goals rfl

end Stage0

/-! ## The buffers when the kernels start -/

section Bridge
open Idealize.ShloMosaic.TcCoe
variable (m : (ℓ : Loc nD τ sig) → Buf (Elt F) ℓ) (c : Dev nD)

/-- The kernel program's source list is the reference's. -/
theorem src_eq :
    (V3 m c (Proc.devRef .tc main_v5) : S700000.Idx → BitVec 32)
      = val_main_v3 (F := F) (m ((c : Thread nD τ).loc main_arg1)) :=
  (V3_of m c main_v5 (by decide)).trans <| (V2_of m c main_v5 (by decide)).trans <| after0_src (V0 m c)

/-- The kernel program's target list is the reference's. -/
theorem tgt_eq :
    (V3 m c (Proc.devRef .tc main_v6) : S700000.Idx → BitVec 32)
      = val_main_v6 (F := F) (m ((c : Thread nD τ).loc main_arg1)) :=
  (V3_of m c main_v6 (by decide)).trans <| (V2_of m c main_v6 (by decide)).trans <| after0_tgt (V0 m c)

/-- The kernel program's inverse square root degrees are the reference's. -/
theorem dinv_eq :
    (V2 m c (Proc.devRef .tc main_v16) : S100000.Idx → F .f32)
      = val_main_v16 (F := F) (m ((c : Thread nD τ).loc main_arg1)) := by
  have h12 : (V1 m c (Proc.devRef .tc main_v12) : S100000.Idx → BitVec 1)
      = val_main_v12 (F := F) (m ((c : Thread nD τ).loc main_arg1)) := after0_pos (V0 m c)
  have h15 : (V1 m c (Proc.devRef .tc main_v15) : S100000.Idx → F .f32)
      = val_main_v15 (F := F) (m ((c : Thread nD τ).loc main_arg1)) := after0_rsqrt (V0 m c)
  have hz : (V1 m c (Proc.devRef .tc main_cst_3) : S_.Idx → F .f32) = val_main_cst_3 (F := F) := after0_zero (V0 m c)
  refine (after1_dinv (V1 m c)).trans ?_
  rw [h12, h15, hz]
  unfold val_main_v16 val_main_call0_v1 val_main_call0_v0
  rfl

set_option maxHeartbeats 1000000 in
/-- The kernel program's edge weights are the reference's. -/
theorem nrm_eq :
    (V3 m c (Proc.devRef .tc main_v31) : S700000.Idx → F .f32)
      = val_main_v31 (F := F) (m ((c : Thread nD τ).loc main_arg1)) := by
  have h5 : (V2 m c (Proc.devRef .tc main_v5) : S700000.Idx → BitVec 32)
      = val_main_v3 (F := F) (m ((c : Thread nD τ).loc main_arg1)) :=
    (V2_of m c main_v5 (by decide)).trans <| after0_src (V0 m c)
  have h6 : (V2 m c (Proc.devRef .tc main_v6) : S700000.Idx → BitVec 32)
      = val_main_v6 (F := F) (m ((c : Thread nD τ).loc main_arg1)) :=
    (V2_of m c main_v6 (by decide)).trans <| after0_tgt (V0 m c)
  refine (after_nrm (V2 m c)).trans ?_
  rw [h5, h6, dinv_eq m c]
  unfold nrmOf val_main_v31 val_main_v30 val_main_v29 val_main_v28 val_main_v27 val_main_v26 val_main_c_6 val_main_v25
    val_main_v24 val_main_c_5 val_main_v23 val_main_v22 val_main_v21 val_main_v20 val_main_v19 val_main_c_4 val_main_v18
    val_main_v17 val_main_c
  rfl

end Bridge

end Cert.KernelIdeal.Hand
-- ==== Proof.KILayer.lean ====
import proofs.«108306_j10282151706735_1_alg».proof.Proof.HostBridge
import proofs.«108306_j10282151706735_1_alg».proof.Proof.SpecSums

/-!
# The layer over the padded entry lists is the layer over the reference's lists

The kernels walk 700416 = 342 * 2048 entries: the 700000 entries of the reference followed by 416
padding entries whose source and target are the node id 100000 and whose weight is zero. A padding
entry's target names no node, so it adds nothing to what any node receives; and the first 700000
entries are the reference's, because both programs compute them from the edge array by the same host
operations. So the layer of the padded lists the kernels read is the layer of the reference's lists.
-/

noncomputable section

namespace Cert.KernelIdeal.Hand

open Cert.KernelIdeal Cert.KernelIdeal.Gen Idealize.ShloMosaic Idealize.ShloMosaic.ValueIdx Idealize.ShloMosaic.StableHlo
open Idealize.ShloMosaic.TcCoe

/-- The padded source list the gather kernel reads, entry by entry. -/
abbrev srcP (m : (ℓ : Loc nD τ sig) → Buf (Elt Ideal) ℓ) (c : Dev nD) : Fin 700416 → BitVec 32 :=
  fun j => (Gen.V3 m c (Proc.devRef .tc main_v33) : S700416.Idx → BitVec 32) (ix1 j)

/-- The padded target list the scatter kernel reads, entry by entry. -/
abbrev dstP (m : (ℓ : Loc nD τ sig) → Buf (Elt Ideal) ℓ) (c : Dev nD) : Fin 700416 → BitVec 32 :=
  fun j => (Gen.V3 m c (Proc.devRef .tc main_v35) : S700416.Idx → BitVec 32) (ix1 j)

/-- The padded weight list the gather kernel reads, entry by entry. -/
abbrev nrmP (m : (ℓ : Loc nD τ sig) → Buf (Elt Ideal) ℓ) (c : Dev nD) : Fin 700416 → EReal :=
  fun j => (Gen.V3 m c (Proc.devRef .tc main_v37) : S700416.Idx → Ideal .f32) (ix1 j)

/-- The layer over the padded lists is the layer over the reference's source, target and weight lists. -/
theorem pad_layer (x : (⟨2, ![100000, 128]⟩ : Shape).Idx → EReal) (w : (⟨2, ![128, 128]⟩ : Shape).Idx → EReal)
    (b : (⟨1, ![128]⟩ : Shape).Idx → EReal) (m : (ℓ : Loc nD τ sig) → Buf (Elt Ideal) ℓ) (c : Dev nD)
    (v : Fin 100000) (f : Fin 128) :
    Cert.Spec.out x w b (srcP m c) (dstP m c) (nrmP m c) v f
      = Cert.Spec.out x w b
          (fun j : Fin 700000 => Cert.ReferenceIdeal.Read.val_main_v3 (F := Ideal) (m ((c : Thread nD τ).loc main_arg1)) (ix1 j))
          (fun j : Fin 700000 => Cert.ReferenceIdeal.Read.val_main_v6 (F := Ideal) (m ((c : Thread nD τ).loc main_arg1)) (ix1 j))
          (fun j : Fin 700000 => Cert.ReferenceIdeal.Read.val_main_v31 (F := Ideal) (m ((c : Thread nD τ).loc main_arg1)) (ix1 j))
          v f := by
  refine Cert.Spec.out_pad x w b _ _ _ (srcP m c) (dstP m c) (nrmP m c) (fun j hj => ⟨?_, ?_, ?_⟩) (fun j hj => ?_) v f
  · show (Gen.V3 m c (Proc.devRef .tc main_v33) : S700416.Idx → BitVec 32) (ix1 j) = _
    rw [rowP_apply m c j, dif_pos hj, src_eq m c]
  · show (Gen.V3 m c (Proc.devRef .tc main_v35) : S700416.Idx → BitVec 32) (ix1 j) = _
    rw [colP_apply m c j, dif_pos hj, tgt_eq m c]
  · show (Gen.V3 m c (Proc.devRef .tc main_v37) : S700416.Idx → Ideal .f32) (ix1 j) = _
    rw [nrmP_apply m c j, dif_pos hj, nrm_eq m c]
  · show (Gen.V3 m c (Proc.devRef .tc main_v35) : S700416.Idx → BitVec 32) (ix1 j) = _
    rw [colP_apply m c j, dif_neg (Nat.not_lt.mpr hj)]

end Cert.KernelIdeal.Hand
-- ==== Proof.KIFinal.lean ====
/-
  The kernel program's result array, composed through the three regions.
  The last region's output is, row by row, what each node receives plus the bias, cut off below at zero; what the
  entries carry is the second region's output; the transformed features are the first region's. Read through the
  buffer contents at each boundary this is the layer of Spec.lean at the program's own padded entry lists.
-/
import proofs.«108306_j10282151706735_1_alg».proof.Proof.KIRun
import proofs.«108306_j10282151706735_1_alg».proof.Proof.KIValue0
import proofs.«108306_j10282151706735_1_alg».proof.Proof.KIValue1
import proofs.«108306_j10282151706735_1_alg».proof.Proof.KIValue2
import proofs.«108306_j10282151706735_1_alg».proof.Proof.KILayer

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

-- the layer's sums over the 700416 entries are never opened here
attribute [local irreducible] Cert.Spec.agg Cert.Spec.msg Cert.Spec.featAt Cert.Spec.feat

/-- No host stretch writes an argument array: the first region finds each as launched. -/
theorem V3_arg0 (c : Dev nD) : Gen.V3 m c (Proc.devRef .tc main_arg0) = m ((c : Thread nD τ).loc main_arg0) :=
  (Gen.V3_of m c main_arg0 (by decide)).trans <| (Gen.V2_of m c main_arg0 (by decide)).trans <| (Gen.V1_of m c main_arg0 (by decide)).trans rfl
theorem V3_arg2 (c : Dev nD) : Gen.V3 m c (Proc.devRef .tc main_arg2) = m ((c : Thread nD τ).loc main_arg2) :=
  (Gen.V3_of m c main_arg2 (by decide)).trans <| (Gen.V2_of m c main_arg2 (by decide)).trans <| (Gen.V1_of m c main_arg2 (by decide)).trans rfl
theorem V3_arg3 (c : Dev nD) : Gen.V3 m c (Proc.devRef .tc main_arg3) = m ((c : Thread nD τ).loc main_arg3) :=
  (Gen.V3_of m c main_arg3 (by decide)).trans <| (Gen.V2_of m c main_arg3 (by decide)).trans <| (Gen.V1_of m c main_arg3 (by decide)).trans rfl

/-- What the second region finds: the transformed features in the first region's output, the padded lists untouched. -/
theorem E1_v38 (c : Dev nD) : E1 m c main_v38 = featArr (E0 m) c := (W4_arr m c 2).trans (final0 (E0 m) c)
theorem E1_v33 (c : Dev nD) : E1 m c main_v33 = Gen.V3 m c (Proc.devRef .tc main_v33) := W4_of_ne m c main_v33 (by decide)
theorem E1_v37 (c : Dev nD) : E1 m c main_v37 = Gen.V3 m c (Proc.devRef .tc main_v37) := W4_of_ne m c main_v37 (by decide)

/-- What the third region finds: the second region's output, the padded target ids untouched, the bias as a row. -/
theorem E2_v39 (c : Dev nD) : E2 m c main_v39 = (dat1 (E1 m) c).arrAt 3 cfg1.N :=
  (StableHlo.after_of_writes_sub hostOps2 (W5 m c) Gen.hostOps2_writes (by decide : main_v39 ∉ Gen.hostOps2_W)).trans (W5_arr m c 3)
theorem E2_v35 (c : Dev nD) : E2 m c main_v35 = Gen.V3 m c (Proc.devRef .tc main_v35) :=
  (StableHlo.after_of_writes_sub hostOps2 (W5 m c) Gen.hostOps2_writes (by decide : main_v35 ∉ Gen.hostOps2_W)).trans <|
  (W5_of_ne m c main_v35 (by decide)).trans (W4_of_ne m c main_v35 (by decide))
theorem W5_arg3 (c : Dev nD) : W5 m c (Proc.devRef .tc main_arg3) = m ((c : Thread nD τ).loc main_arg3) :=
  (W5_of_ne m c main_arg3 (by decide)).trans <| (W4_of_ne m c main_arg3 (by decide)).trans (V3_arg3 m c)

theorem E0_arg0 (c : Dev nD) : E0 m c main_arg0 = m ((c : Thread nD τ).loc main_arg0) := V3_arg0 m c
theorem E0_arg2 (c : Dev nD) : E0 m c main_arg2 = m ((c : Thread nD τ).loc main_arg2) := V3_arg2 m c

/-- The bias row the third region finds is the bias argument. -/
theorem E2_v40 (c : Dev nD) (f : Fin 128) : E2 m c main_v40 (ix2 (0 : Fin 1) f) = m ((c : Thread nD τ).loc main_arg3) (ix1 f) :=
  (after_bias_apply (W5 m c) f).trans (congrFun (W5_arg3 m c) (ix1 f))

/-- The result array after the run, at node `v` and feature `f`: the layer at the program's padded entry lists. -/
theorem kernel_result_at (c : Dev nD) (v : Fin 100000) (f : Fin 128) :
    (dat2 (E2 m) c).arrAt 3 cfg2.N (ix2 v f)
      = Cert.Spec.out (E := 700416) (m ((c : Thread nD τ).loc main_arg0)) (m ((c : Thread nD τ).loc main_arg2))
          (m ((c : Thread nD τ).loc main_arg3)) (srcP m c) (dstP m c) (nrmP m c) v f := by
  refine (congrFun (final2 (E2 m) c) (ix2 v f)).trans ?_
  show max (Cert.Spec.agg (E := 700416) (fun j => E2 m c main_v35 (ix1 j)) (fun j f => E2 m c main_v39 (ix2 j f)) v f
      + E2 m c main_v40 (ix2 (0 : Fin 1) f)) (Ideal.ofBits .f32 0x00000000#32) = _
  rw [E2_v35, E2_v39, E2_v40, final1 (E1 m) c, E1_v38, E1_v33, E1_v37]
  unfold featArr
  rw [E0_arg0, E0_arg2]
  rfl

/-- The result array after the run: the layer at the program's padded entry lists. -/
theorem kernel_result (c : Dev nD) :
    (dat2 (E2 m) c).arrAt 3 cfg2.N
      = fun i => Cert.Spec.out (E := 700416) (m ((c : Thread nD τ).loc main_arg0)) (m ((c : Thread nD τ).loc main_arg2))
          (m ((c : Thread nD τ).loc main_arg3)) (srcP m c) (dstP m c) (nrmP m c) (i 0) (i 1) := by
  funext i
  obtain ⟨v, f, rfl⟩ : ∃ (v : Fin 100000) (f : Fin 128), i = ix2 v f := ⟨i 0, i 1, eq_ix2 i⟩
  exact kernel_result_at m c v f

/-- The layer at the entry lists proper (the 600000 edges and the 100000 self loops), read off the launch memory's
    edge array by the host lines both programs share. -/
abbrev layerK (c : Dev nD) : Buf (Elt Ideal) ((c.tc : Thread nD τ).loc main_v41) :=
  fun i => Cert.Spec.out (m ((c : Thread nD τ).loc main_arg0)) (m ((c : Thread nD τ).loc main_arg2)) (m ((c : Thread nD τ).loc main_arg3))
    (fun j : Fin 700000 => Cert.ReferenceIdeal.Read.val_main_v3 (F := Ideal) (m ((c : Thread nD τ).loc main_arg1)) (ix1 j))
    (fun j : Fin 700000 => Cert.ReferenceIdeal.Read.val_main_v6 (F := Ideal) (m ((c : Thread nD τ).loc main_arg1)) (ix1 j))
    (fun j : Fin 700000 => Cert.ReferenceIdeal.Read.val_main_v31 (F := Ideal) (m ((c : Thread nD τ).loc main_arg1)) (ix1 j)) (i 0) (i 1)

/-- The result array after the run is that layer: the padding entries reach no node. -/
theorem kernel_layer (c : Dev nD) : (dat2 (E2 m) c).arrAt 3 cfg2.N = layerK m c := by
  rw [kernel_result m c]
  funext i
  exact pad_layer _ _ _ m c (i 0) (i 1)

end Cert.KernelIdeal.Hand

end
-- ==== Proof.RefValue.lean ====
/-
  The reference's result, index by index, is the layer of Spec.lean at the reference's own entry lists.

  The reference gathers row src[j] of the transformed features x·w for every entry j, weights it, and adds the
  weighted rows into the rows dst[j] of a table of zeros; then it adds the bias and cuts off below at zero.
  Two of its operations choose WHICH element they touch by the value of an index word: the gather reads the row
  named by the word (read signed and clamped into the table; a word that already names a node is kept), and the
  accumulating scatter adds update (j, f') into element (v, f) exactly when f' = f and the word dst[j], read
  signed, is v — for v < 100000 that is the word v itself. Summing the updates over the pairs (j, f') that land on
  (v, f) is therefore summing over the entries j whose target word is v: the aggregation of Spec.lean.
-/
import proofs.«108306_j10282151706735_1_alg».proof.Proof.RefRead
import proofs.«108306_j10282151706735_1_alg».proof.Proof.Spec
import Idealize.ShloMosaic.Lib.Affine
import Idealize.ShloMosaic.Lib.Pipeline.Value

open scoped BigOperators

noncomputable section

namespace Cert.ReferenceIdeal.RefValue

open Cert.ReferenceIdeal Cert.ReferenceIdeal.Gen Cert.ReferenceIdeal.Read Idealize.ShloMosaic Idealize.ShloMosaic.ValueIdx

/-- The feature gather's dimension numbers: row `idx[j, 0]` of a [100000, 128] table into row `j` of the result. -/
abbrev gd : GatherDims S100000x128 S700000x1 S700000x128 := gather_S100000x128_S700000x1_S700000x128_1_0_n_n_0_1_1128
/-- The aggregation's dimension numbers: row `j` of the updates added into row `idx[j, 0]` of a [100000, 128] table. -/
abbrev sd : ScatterDims S100000x128 S700000x1 S700000x128 := scatter_S100000x128_S700000x1_S700000x128_1_0_0_1

set_option maxHeartbeats 400000 in
/-- The gather read at `(j, f)`: the table at row `idx[j, 0]`, read signed and clamped into [0, 99999], column `f`. -/
theorem gather_row_apply {α : Type} {w : Nat} (x : S100000x128.Idx → α) (idx : IVec S700000x1 w) (j : Fin 700000) (f : Fin 128) :
    Host.gather gd x idx (ix2 j f)
      = x (ix2 (⟨min (idx (ix2 j (0 : Fin 1))).toInt.toNat 99999, by omega⟩ : Fin 100000) f) := by
  unfold Host.gather
  refine congrArg x ?_
  funext a
  refine Fin.ext ?_
  match a with
  | ⟨0, _⟩ =>
    show gd.start (ix2 j f) idx 0 + gd.batchCoord (ix2 j f) 0 + gd.offCoord (ix2 j f) 0 = _
    rw [GatherDims.batchCoord_eq_zero gd (ix2 j f) 0 (by decide), GatherDims.offCoord_eq_zero gd (ix2 j f) 0 (by decide)]
    unfold GatherDims.start
    rw [dif_pos (show (0 : Fin S100000x128.rank) ∈ gd.startIndexMap by decide)]
    have hsi : gd.siIdx (ix2 j f) ⟨List.idxOf (0 : Fin S100000x128.rank) gd.startIndexMap,
        List.idxOf_lt_length_iff.2 (show (0 : Fin S100000x128.rank) ∈ gd.startIndexMap by decide)⟩ = ix2 j (0 : Fin 1) := by
      funext b; refine Fin.ext ?_
      match b with
      | ⟨0, _⟩ => rfl
      | ⟨1, _⟩ => rfl
    rw [hsi]
    rfl
  | ⟨1, _⟩ =>
    show gd.start (ix2 j f) idx 1 + gd.batchCoord (ix2 j f) 1 + gd.offCoord (ix2 j f) 1 = f.val
    rw [GatherDims.batchCoord_eq_zero gd (ix2 j f) 1 (by decide)]
    unfold GatherDims.start
    rw [dif_neg (show ¬(1 : Fin S100000x128.rank) ∈ gd.startIndexMap by decide)]
    unfold GatherDims.offCoord
    rw [dif_pos (show (1 : Fin S100000x128.rank) ∈ gd.sKept by decide)]
    have e : (gd.offsetDims[List.idxOf (1 : Fin S100000x128.rank) gd.sKept]'(by decide)) = (1 : Fin S700000x128.rank) := by decide
    rw [e]
    exact (Nat.zero_add _).trans rfl

/-! ### The aggregation's index functions -/

section Scatter
variable {w : Nat} (idx : IVec S700000x1 w) (j : Fin 700000) (f' : Fin 128)

theorem sd_start0 : sd.start (ix2 j f') idx 0 = (idx (ix2 j (0 : Fin 1))).toInt := by
  unfold ScatterDims.start
  rw [dif_pos (show (0 : Fin S100000x128.rank) ∈ sd.scatterDimsToOperandDims by decide)]
  have hsi : sd.siIdx (ix2 j f') ⟨List.idxOf (0 : Fin S100000x128.rank) sd.scatterDimsToOperandDims,
      List.idxOf_lt_length_iff.2 (show (0 : Fin S100000x128.rank) ∈ sd.scatterDimsToOperandDims by decide)⟩ = ix2 j (0 : Fin 1) := by
    funext b; refine Fin.ext ?_
    match b with
    | ⟨0, _⟩ => rfl
    | ⟨1, _⟩ => rfl
  rw [hsi]

theorem sd_start1 : sd.start (ix2 j f') idx 1 = 0 := by
  unfold ScatterDims.start
  rw [dif_neg (show ¬(1 : Fin S100000x128.rank) ∈ sd.scatterDimsToOperandDims by decide)]

theorem sd_window0 : sd.window (ix2 j f') 0 = 0 := by
  unfold ScatterDims.window
  rw [dif_neg (show ¬(0 : Fin S100000x128.rank) ∈ sd.sKept by decide)]

theorem sd_window1 : sd.window (ix2 j f') 1 = f'.val := by
  unfold ScatterDims.window
  rw [dif_pos (show (1 : Fin S100000x128.rank) ∈ sd.sKept by decide)]
  have e : (sd.updateWindowDims[List.idxOf (1 : Fin S100000x128.rank) sd.sKept]'(by decide)) = (1 : Fin S700000x128.rank) := by decide
  rw [e]

/-- Where update `(j, f')` lands: row `idx[j, 0]` read signed, when that is a row of the table, column `f'`. -/
theorem sd_resultIdx :
    sd.resultIdx? (ix2 j f') idx
      = if h : 0 ≤ (idx (ix2 j (0 : Fin 1))).toInt ∧ (idx (ix2 j (0 : Fin 1))).toInt < 100000
        then some (ix2 (⟨(idx (ix2 j (0 : Fin 1))).toInt.toNat, by omega⟩ : Fin 100000) f') else none := by
  unfold ScatterDims.resultIdx?
  by_cases h : 0 ≤ (idx (ix2 j (0 : Fin 1))).toInt ∧ (idx (ix2 j (0 : Fin 1))).toInt < 100000
  · have hall : ∀ a, 0 ≤ sd.start (ix2 j f') idx a + sd.window (ix2 j f') a
        ∧ sd.start (ix2 j f') idx a + sd.window (ix2 j f') a < S100000x128.size a := by
      intro a
      match a with
      | ⟨0, _⟩ =>
        show 0 ≤ sd.start (ix2 j f') idx 0 + ((sd.window (ix2 j f') 0 : Nat) : Int)
          ∧ sd.start (ix2 j f') idx 0 + ((sd.window (ix2 j f') 0 : Nat) : Int) < ((100000 : Nat) : Int)
        rw [sd_start0, sd_window0]
        omega
      | ⟨1, _⟩ =>
        show 0 ≤ sd.start (ix2 j f') idx 1 + ((sd.window (ix2 j f') 1 : Nat) : Int)
          ∧ sd.start (ix2 j f') idx 1 + ((sd.window (ix2 j f') 1 : Nat) : Int) < ((128 : Nat) : Int)
        rw [sd_start1, sd_window1]
        have := f'.isLt
        omega
    rw [dif_pos hall, dif_pos h]
    refine congrArg some ?_
    funext a
    refine Fin.ext ?_
    match a with
    | ⟨0, _⟩ =>
      show (sd.start (ix2 j f') idx 0 + ((sd.window (ix2 j f') 0 : Nat) : Int)).toNat = (idx (ix2 j (0 : Fin 1))).toInt.toNat
      rw [sd_start0, sd_window0]
      simp
    | ⟨1, _⟩ =>
      show (sd.start (ix2 j f') idx 1 + ((sd.window (ix2 j f') 1 : Nat) : Int)).toNat = f'.val
      rw [sd_start1, sd_window1]
      simp
  · rw [dif_neg h, dif_neg]
    intro hall
    have h0 : 0 ≤ sd.start (ix2 j f') idx 0 + ((sd.window (ix2 j f') 0 : Nat) : Int)
        ∧ sd.start (ix2 j f') idx 0 + ((sd.window (ix2 j f') 0 : Nat) : Int) < ((100000 : Nat) : Int) := hall 0
    rw [sd_start0, sd_window0] at h0
    exact h ⟨by omega, by omega⟩

end Scatter

/-- A 32-bit word reads, signed, as the node number `v` exactly when it is the word `v`. -/
theorem toInt_eq_node (r : BitVec 32) (v : Fin 100000) : r.toInt = (v.val : Int) ↔ r = BitVec.ofNat 32 v.val := by
  have hv : (BitVec.ofNat 32 v.val).toInt = (v.val : Int) := by
    rw [BitVec.toInt_ofNat']
    have := v.isLt
    exact Int.bmod_eq_of_le (by omega) (by omega)
  constructor
  · intro h
    exact BitVec.eq_of_toInt_eq (h.trans hv.symm)
  · rintro rfl
    exact hv

/-- Update `(j, f')` lands on `(v, f)` exactly when its index word names `v` and the columns agree. -/
theorem sd_resultIdx_eq_some (idx : IVec S700000x1 32) (j : Fin 700000) (f' : Fin 128) (v : Fin 100000) (f : Fin 128) :
    sd.resultIdx? (ix2 j f') idx = some (ix2 v f) ↔ idx (ix2 j (0 : Fin 1)) = BitVec.ofNat 32 v.val ∧ f' = f := by
  rw [sd_resultIdx, ← toInt_eq_node]
  have hv := v.isLt
  constructor
  · intro h
    split at h
    · rename_i hT
      have h' := Option.some.inj h
      have h0 : (idx (ix2 j (0 : Fin 1))).toInt.toNat = v.val := congrArg (fun i : S100000x128.Idx => (i 0).val) h'
      have h1 : f'.val = f.val := congrArg (fun i : S100000x128.Idx => (i 1).val) h'
      exact ⟨by omega, Fin.ext h1⟩
    · exact absurd h (by simp)
  · rintro ⟨hi, rfl⟩
    rw [dif_pos ⟨by omega, by omega⟩]
    refine congrArg some ?_
    funext a
    match a with
    | ⟨0, _⟩ => exact Fin.ext (by show (idx (ix2 j (0 : Fin 1))).toInt.toNat = v.val; omega)
    | ⟨1, _⟩ => rfl

/-- THE AGGREGATION READ AT `(v, f)`: the operand's element plus the updates of the rows whose index word names `v`. -/
theorem scatter_row_apply (x : S100000x128.Idx → EReal) (idx : IVec S700000x1 32) (upd : S700000x128.Idx → EReal)
    (v : Fin 100000) (f : Fin 128) :
    Ideal.hostScatterAdd sd x idx upd (ix2 v f)
      = x (ix2 v f) + ∑ j : Fin 700000, if idx (ix2 j (0 : Fin 1)) = BitVec.ofNat 32 v.val then upd (ix2 j f) else 0 := by
  unfold Ideal.hostScatterAdd
  refine congrArg (fun s => x (ix2 v f) + s) ?_
  rw [Finset.sum_filter, sum_idx2]
  refine Finset.sum_congr rfl fun j _ => ?_
  by_cases hj : idx (ix2 j (0 : Fin 1)) = BitVec.ofNat 32 v.val
  · rw [if_pos hj]
    refine (Finset.sum_eq_single f (fun f' _ hne => if_neg fun hl => hne ((sd_resultIdx_eq_some idx j f' v f).1 hl).2)
      (fun hf => absurd (Finset.mem_univ f) hf)).trans ?_
    exact if_pos ((sd_resultIdx_eq_some idx j f v f).2 ⟨hj, rfl⟩)
  · rw [if_neg hj]
    exact Finset.sum_eq_zero fun f' _ => if_neg fun hl => hj ((sd_resultIdx_eq_some idx j f' v f).1 hl).1

/-! ### The reference's operations at an index -/

section Main
variable (x0 : (⟨S100000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))

/-- The linear map's element is the row of x against the column of w. -/
theorem v32_feat (v : Fin 100000) (f : Fin 128) :
    val_main_v32 (F := Ideal) x0 x2 (ix2 v f) = Cert.Spec.feat x0 x2 v f := by
  rw [val_main_v32_apply]
  unfold Cert.Spec.feat
  refine Finset.sum_congr rfl fun k _ => ?_
  have el : lidx_main_v32 (ix2 v f) k = ix2 v k := by
    funext a; match a with | ⟨0, _⟩ => rfl | ⟨1, _⟩ => rfl
  have er : ridx_main_v32 (ix2 v f) k = ix2 k f := by
    funext a; match a with | ⟨0, _⟩ => rfl | ⟨1, _⟩ => rfl
  rw [el, er]

/-- A word below 100000 is not negative: the wrap-around of negative ids keeps it. -/
theorem v38_at (j : Fin 700000) (hj : (val_main_v3 (F := Ideal) x1 (ix1 j)).toNat < 100000) :
    val_main_v38 (F := Ideal) x1 (ix2 j (0 : Fin 1)) = val_main_v3 (F := Ideal) x1 (ix1 j) := by
  have e : idx_main_v38 (ix2 j (0 : Fin 1)) = ix1 j := by
    funext a; match a with | ⟨0, _⟩ => rfl
  rw [val_main_v38_apply, e, val_main_v37_apply, val_main_v34_apply]
  have hc : IntOp.cmpi .slt (val_main_v3 (F := Ideal) x1 (ix1 j)) (val_main_v33 (F := Ideal) (ix1 j)) = 0#1 := by
    refine eq_zero_of_ne_one fun h1 => ?_
    rw [IntOp.cmpi_slt, BitVec.toInt_eq_toNat_of_lt (by omega)] at h1
    have hz : (val_main_v33 (F := Ideal) (ix1 j)).toInt = 0 := by
      rw [val_main_v33_apply, val_main_c_7_apply]; decide
    rw [hz] at h1
    omega
  rw [hc, select_zero]

/-- The gather at a word that names a node is that node's row. -/
theorem gather_row_of_lt {α : Type} (x : S100000x128.Idx → α) (idx : IVec S700000x1 32) (j : Fin 700000) (f : Fin 128)
    (r : BitVec 32) (hr : r.toNat < 100000) (he : idx (ix2 j (0 : Fin 1)) = r) :
    Host.gather gd x idx (ix2 j f) = x (ix2 (⟨r.toNat, hr⟩ : Fin 100000) f) := by
  rw [gather_row_apply]
  refine congrArg (fun v : Fin 100000 => x (ix2 v f)) (Fin.ext ?_)
  show min (idx (ix2 j (0 : Fin 1))).toInt.toNat 99999 = r.toNat
  rw [he, BitVec.toInt_eq_toNat_of_lt (by omega), Int.toNat_natCast]
  omega

/-- What entry j carries in the reference: its source's transformed features, weighted. -/
theorem v42_msg (hsrc : ∀ j : Fin 700000, (val_main_v3 (F := Ideal) x1 (ix1 j)).toNat < 100000) (j : Fin 700000) (f : Fin 128) :
    val_main_v42 (F := Ideal) x0 x1 x2 (ix2 j f)
      = Cert.Spec.msg (Cert.Spec.feat x0 x2) (fun j : Fin 700000 => val_main_v3 (F := Ideal) x1 (ix1 j))
          (fun j : Fin 700000 => val_main_v31 (F := Ideal) x1 (ix1 j)) j f := by
  have h39 : val_main_v39 (F := Ideal) x0 x1 x2 (ix2 j f)
      = Cert.Spec.feat x0 x2 ⟨(val_main_v3 (F := Ideal) x1 (ix1 j)).toNat, hsrc j⟩ f := by
    unfold val_main_v39
    rw [gather_row_of_lt _ _ j f _ (hsrc j) (v38_at x1 j (hsrc j)), v32_feat]
  have h41 : val_main_v41 (F := Ideal) x1 (ix2 j f) = val_main_v31 (F := Ideal) x1 (ix1 j) := by
    rw [val_main_v41_apply, val_main_v40_apply]
    refine congrArg (val_main_v31 (F := Ideal) x1) ?_
    funext a; match a with | ⟨0, _⟩ => rfl
  show val_main_v39 (F := Ideal) x0 x1 x2 (ix2 j f) * val_main_v41 (F := Ideal) x1 (ix2 j f) = _
  rw [h39, h41]
  unfold Cert.Spec.msg Cert.Spec.featAt
  rw [dif_pos (hsrc j)]

/-- THE REFERENCE'S RESULT at node v, feature f. -/
theorem ref_out (hsrc : ∀ j : Fin 700000, (val_main_v3 (F := Ideal) x1 (ix1 j)).toNat < 100000) (v : Fin 100000) (f : Fin 128) :
    val_main_v49 (F := Ideal) x0 x1 x2 x3 (ix2 v f)
      = Cert.Spec.out x0 x2 x3 (fun j : Fin 700000 => val_main_v3 (F := Ideal) x1 (ix1 j))
          (fun j : Fin 700000 => val_main_v6 (F := Ideal) x1 (ix1 j))
          (fun j : Fin 700000 => val_main_v31 (F := Ideal) x1 (ix1 j)) v f := by
  have h45 : val_main_v45 (F := Ideal) x0 x1 x2 (ix2 v f)
      = Cert.Spec.agg (fun j : Fin 700000 => val_main_v6 (F := Ideal) x1 (ix1 j))
          (Cert.Spec.msg (Cert.Spec.feat x0 x2) (fun j : Fin 700000 => val_main_v3 (F := Ideal) x1 (ix1 j))
            (fun j : Fin 700000 => val_main_v31 (F := Ideal) x1 (ix1 j))) v f := by
    show Ideal.hostScatterAdd sd (val_main_v43 (F := Ideal)) (val_main_v44 (F := Ideal) x1) (val_main_v42 (F := Ideal) x0 x1 x2) (ix2 v f) = _
    rw [scatter_row_apply]
    have hz : val_main_v43 (F := Ideal) (ix2 v f) = 0 := by
      rw [val_main_v43_apply, val_main_cst_9_apply]
      exact Ideal.ofBits_zero_f32
    rw [hz, zero_add]
    unfold Cert.Spec.agg
    refine Finset.sum_congr rfl fun j _ => ?_
    have h44 : val_main_v44 (F := Ideal) x1 (ix2 j (0 : Fin 1)) = val_main_v6 (F := Ideal) x1 (ix1 j) := by
      rw [val_main_v44_apply]
      refine congrArg (val_main_v6 (F := Ideal) x1) ?_
      funext a; match a with | ⟨0, _⟩ => rfl
    rw [h44, v42_msg x0 x1 x2 hsrc j f]
  have h47 : val_main_v47 (F := Ideal) x3 (ix2 v f) = x3 (ix1 f) := by
    rw [val_main_v47_apply, val_main_v46_apply]
    refine congrArg x3 ?_
    funext a; match a with | ⟨0, _⟩ => rfl
  show max (val_main_v45 (F := Ideal) x0 x1 x2 (ix2 v f) + val_main_v47 (F := Ideal) x3 (ix2 v f)) (val_main_call1_v0 (F := Ideal) (ix2 v f)) = _
  rw [h45, h47]
  rfl

/-- The same at an index of the result array. -/
theorem ref_out_idx (hsrc : ∀ j : Fin 700000, (val_main_v3 (F := Ideal) x1 (ix1 j)).toNat < 100000) (i : S100000x128.Idx) :
    val_main_v49 (F := Ideal) x0 x1 x2 x3 i
      = Cert.Spec.out x0 x2 x3 (fun j : Fin 700000 => val_main_v3 (F := Ideal) x1 (ix1 j))
          (fun j : Fin 700000 => val_main_v6 (F := Ideal) x1 (ix1 j))
          (fun j : Fin 700000 => val_main_v31 (F := Ideal) x1 (ix1 j)) (i 0) (i 1) := by
  obtain ⟨v, f, rfl⟩ : ∃ (v : Fin 100000) (f : Fin 128), i = ix2 v f := ⟨i 0, i 1, eq_ix2 i⟩
  exact ref_out x0 x1 x2 x3 hsrc v f

end Main

/-! ### The source ids name nodes -/

/-- The list of source ids is the first row of the edge array followed by the node numbers 0 … 99999 (the self loops):
    when every edge word names a node, every source id does. -/
theorem src_in_range (x1 : (⟨S2x600000, .i32⟩ : BufTy).Contents (Elt Ideal))
    (h : ∀ i : S2x600000.Idx, (x1 i).toNat < 100000) :
    ∀ j : Fin 700000, (val_main_v3 (F := Ideal) x1 (ix1 j)).toNat < 100000 := by
  intro j
  unfold val_main_v3
  by_cases hj : j.val < 600000
  · rw [concatenate_pair_apply_left (0 : Fin S700000.rank) (val_main_v2 (F := Ideal) x1) (val_main_v0 (F := Ideal))
      concatenates_S600000_S100000_S700000_d0 (ix1 j) rfl (ix1 (⟨j.val, hj⟩ : Fin 600000))
      (fun b => match b with | ⟨0, _⟩ => rfl)]
    rw [val_main_v2_apply, val_main_v1_apply]
    exact h _
  · have hj' : j.val - 600000 < 100000 := by have := j.isLt; omega
    rw [concatenate_pair_apply_right (0 : Fin S700000.rank) (val_main_v2 (F := Ideal) x1) (val_main_v0 (F := Ideal))
      concatenates_S600000_S100000_S700000_d0 (ix1 j) rfl rfl (ix1 (⟨j.val - 600000, hj'⟩ : Fin 100000))
      (fun b hb => absurd (Fin.ext (by have hb1 : b.val < 1 := b.isLt; show b.val = 0; omega)) hb)
      (by show (j.val - 600000) + 600000 = j.val; omega)]
    rw [val_main_v0_apply]
    show (BitVec.ofNat 32 (j.val - 600000)).toNat < 100000
    rw [BitVec.toNat_ofNat]
    omega

end Cert.ReferenceIdeal.RefValue

end
-- ==== Proof.PreFacts.lean ====
/-
  The precondition read back: when the printed predicate holds, every word of the edge array, read unsigned,
  names a node. The predicate ands five tests; the last two compare every edge word, signed, with 0 from below
  and with 100000 from above, and a word in [0, 100000) signed is below 100000 unsigned.
-/
import proofs.«108306_j10282151706735_1_alg».proof.Pre_finite_inputs
import proofs.«108306_j10282151706735_1_alg».proof.Proof.Gen.Pre_finite_inputs
import Idealize.ShloMosaic.Lib.ReduceAll
import Idealize.ShloMosaic.Lib.ValueIdx

noncomputable section

namespace Cert.PreFacts

open Idealize.ShloMosaic Cert.Pre_finite_inputs

/-- The shape with no axes has one index. -/
instance : Subsingleton S_.Idx := ⟨fun a b => funext fun d => d.elim0⟩

/-- A word in [0, n) signed is below n unsigned. -/
theorem toNat_lt_of_signed (w : BitVec 32) (n : Nat) (hn : n < 2 ^ 31) (h0 : (0#32 : BitVec 32).toInt ≤ w.toInt)
    (h1 : w.toInt < (BitVec.ofNat 32 n).toInt) : w.toNat < n := by
  have hz : (0#32 : BitVec 32).toInt = 0 := by decide
  have hnn : (BitVec.ofNat 32 n).toInt = (n : Int) := by
    rw [BitVec.toInt_ofNat']
    exact Int.bmod_eq_of_le (by omega) (by omega)
  rw [hz] at h0
  rw [hnn] at h1
  have h32 := w.isLt
  unfold BitVec.toInt at h0 h1
  split at h1 <;> omega

/-- Every edge word names a node when the precondition holds. -/
theorem ids_in_range {F : FTy → Type} [FloatOps F] [Cert.Pre_finite_inputs.Facts]
    (a0 : FVec F S100000x128 .f32) (a1 : IVec S2x600000 32) (a2 : FVec F S128x128 .f32) (a3 : FVec F S128 .f32)
    (h : Cert.Pre_finite_inputs.fn (F := F) a0 a1 a2 a3 = fun _ => 1#1) :
    ∀ i : S2x600000.Idx, (a1 i).toNat < 100000 := by
  intro i
  have e := congrFun h ValueIdx.ix0
  unfold Cert.Pre_finite_inputs.fn Cert.Pre_finite_inputs.fn_part1 at e
  dsimp only at e
  simp only [andi, IntOp.andi_eq_one] at e
  obtain ⟨⟨-, hge⟩, hlt⟩ := e
  have h0 := Host.reduce_andi_all _ _ _ _ _ hge i
  have h1 := Host.reduce_andi_all _ _ _ _ _ hlt i
  simp only [cmpi, broadcastInDim, constantI] at h0 h1
  rw [IntOp.cmpi_sge] at h0
  rw [IntOp.cmpi_slt] at h1
  exact toNat_lt_of_signed _ 100000 (by norm_num) h0 h1

end Cert.PreFacts

end
-- ==== Proof.lean ====
/-
  The certificate's five claims.
  Frames: the two kernel programs run through their host stretches and three kernel regions (KRun / KIRun); the
  reference is a straight line of host operations. The idealisation rewrote nothing. The value claim: at the ideal
  instance both programs' results are the graph layer of Spec.lean — the kernel program's through its three regions
  at its padded entry lists (KIFinal), where the padding entries reach no node; the reference's by reading its
  gather and scatter-add at an index (RefValue), where every source id names a node by the precondition.
-/
import proofs.«108306_j10282151706735_1_alg».proof.Defs
import proofs.«108306_j10282151706735_1_alg».proof.Proof.Gen.Kernel
import proofs.«108306_j10282151706735_1_alg».proof.Proof.Gen.KernelIdeal
import proofs.«108306_j10282151706735_1_alg».proof.Proof.Gen.ReferenceIdeal
import proofs.«108306_j10282151706735_1_alg».proof.Proof.Gen.Pre_finite_inputs
import proofs.«108306_j10282151706735_1_alg».proof.Proof.KRun
import proofs.«108306_j10282151706735_1_alg».proof.Proof.KIRun
import proofs.«108306_j10282151706735_1_alg».proof.Proof.KIFinal
import proofs.«108306_j10282151706735_1_alg».proof.Proof.RefValue
import proofs.«108306_j10282151706735_1_alg».proof.Proof.PreFacts
import proofs.«108306_j10282151706735_1_alg».proof.Proof.SpecSums
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-! ## The value claim -/

section Reference
open Cert.ReferenceIdeal

/-- The layer at the reference's own entry lists. -/
abbrev layerR (m' : (ℓ : Loc nD τ sig) → Buf (Elt Ideal) ℓ) (c : Dev nD) : Buf (Elt Ideal) ((c.tc : Thread nD τ).loc main_v49) :=
  fun i => Cert.Spec.out (m' ((c.tc : Thread nD τ).loc main_arg0)) (m' ((c.tc : Thread nD τ).loc main_arg2)) (m' ((c.tc : Thread nD τ).loc main_arg3))
    (fun j : Fin 700000 => Read.val_main_v3 (F := Ideal) (m' ((c.tc : Thread nD τ).loc main_arg1)) (ix1 j))
    (fun j : Fin 700000 => Read.val_main_v6 (F := Ideal) (m' ((c.tc : Thread nD τ).loc main_arg1)) (ix1 j))
    (fun j : Fin 700000 => Read.val_main_v31 (F := Ideal) (m' ((c.tc : Thread nD τ).loc main_arg1)) (ix1 j)) (i 0) (i 1)

/-- The reference's run: its result is the layer at its own entry lists — every source id names a node, by the
    precondition — and its arguments are unchanged. -/
theorem ref_half (m' : (ℓ : Loc nD τ sig) → Buf (Elt Ideal) ℓ) (ρ' : Dev nD → PrngReg) (hpre : Cert.Pre_ReferenceIdeal m') :
    θ_run (defs (F := Ideal)) (onTc (τ := τ) (main (F := Ideal))) ⟨m', fun _ => 0, ρ'⟩ (fun r => ∀ c : Dev nD,
      r.2.mem ((c.tc : Thread nD τ).loc main_v49) = layerR m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) := by
  refine (θ_run defs _ _).mono (fun r h c => ⟨?_, (h c).2⟩) (Cert.ReferenceIdeal.Value.run (F := Ideal) m' ρ')
  rw [(h c).1, Read.val_main_v49_eq m' c]
  funext i
  exact RefValue.ref_out_idx _ _ _ _ (RefValue.src_in_range _ (Cert.PreFacts.ids_in_range _ _ _ _ (hpre c))) i

end Reference

/-- At the ideal instance, from memories agreeing on the arguments, both programs end with the layer of Spec.lean at
    the entry lists read off the edge array. -/
theorem algebraic : Cert.algebraic_KernelIdeal_ReferenceIdeal := by
  intro m ρ m' ρ' hpre hagree
  refine ⟨fun c => Cert.KernelIdeal.Hand.layerK m c, ?_, ?_⟩
  · exact (θ_run Cert.KernelIdeal.defs _ _).mono
      (fun r h c => ⟨(h c).1.trans (Cert.KernelIdeal.Hand.kernel_layer m c), (h c).2⟩)
      (Cert.KernelIdeal.Hand.run_result m ρ)
  · have hpre' : Cert.Pre_ReferenceIdeal m' := fun c => by
      obtain ⟨e0, e1, e2, e3⟩ := hagree c
      unfold Cert.Pre_KernelIdeal at hpre
      rw [e0, e1, e2, e3]
      exact hpre c
    refine (θ_run Cert.ReferenceIdeal.defs _ _).mono (fun r h c => ⟨(h c).1.trans ?_, (h c).2⟩) (ref_half m' ρ' hpre')
    obtain ⟨e0, e1, e2, e3⟩ := hagree c
    show layerR m' c = Cert.KernelIdeal.Hand.layerK m c
    unfold layerR Cert.KernelIdeal.Hand.layerK
    rw [e0, e1, e2, e3]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
